-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S64x1024x2 : Shape := ⟨3, ![64, 1024, 2]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel
  bcast_S_S64x1024x2 : S_.BroadcastsInDim S64x1024x2 (![] : Fin 0 → Fin S64x1024x2.rank)
  reducesTo_S64x1024x2_S_d0_1_2 : S64x1024x2.ReducesTo [0, 1, 2] S_

variable [Facts]

def fn {F : FTy → Type} [FloatOps F] (main_arg0 : FVec F S64x256x64x64 .f32) (main_arg1 : FVec F S64x1024x2 .f32) (main_arg2 : FVec F S64x1024x2 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  let main_v4 : FVec F S64x1024x2 .f32 := Host.absf main_arg1
  let main_cst_0 : FVec F S_ .f32 := constant S_ .f32 0x7F800000#32
  let main_v5 : FVec F S64x1024x2 .f32 := broadcastInDim S64x1024x2 ![] bcast_S_S64x1024x2 main_cst_0
  let main_v6 : IVec S64x1024x2 1 := cmpf .olt main_v4 main_v5
  let main_c_1 : IVec S_ 1 := constantI S_ 1 1#1
  let main_v7 : IVec S_ 1 := (fun x v => Host.reduce IntOp.andi x v reducesTo_S64x1024x2_S_d0_1_2 h_S_) main_v6 main_c_1
  let main_v8 : IVec S_ 1 := andi main_v3 main_v7
  let main_v9 : FVec F S64x1024x2 .f32 := Host.absf main_arg2
  let main_cst_2 : FVec F S_ .f32 := constant S_ .f32 0x7F800000#32
  let main_v10 : FVec F S64x1024x2 .f32 := broadcastInDim S64x1024x2 ![] bcast_S_S64x1024x2 main_cst_2
  let main_v11 : IVec S64x1024x2 1 := cmpf .olt main_v9 main_v10
  let main_c_3 : IVec S_ 1 := constantI S_ 1 1#1
  let main_v12 : IVec S_ 1 := (fun x v => Host.reduce IntOp.andi x v reducesTo_S64x1024x2_S_d0_1_2 h_S_) main_v11 main_c_3
  let main_v13 : IVec S_ 1 := andi main_v8 main_v12
  main_v13
-- ==== Kernel.lean ====
abbrev S64x256x64x64 : Shape := ⟨4, ![64, 256, 64, 64]⟩
abbrev S64x1024x2 : Shape := ⟨3, ![64, 1024, 2]⟩
abbrev S_ : Shape := ⟨0, ![]⟩
abbrev S64x1024x1 : Shape := ⟨3, ![64, 1024, 1]⟩
abbrev S64x1024 : Shape := ⟨2, ![64, 1024]⟩
abbrev S64x1024x4 : Shape := ⟨3, ![64, 1024, 4]⟩
abbrev S64x256x4096 : Shape := ⟨3, ![64, 256, 4096]⟩
abbrev S64x1024x256 : Shape := ⟨3, ![64, 1024, 256]⟩
abbrev S1x256x4 : Shape := ⟨3, ![1, 256, 4]⟩
abbrev S1x256x4096 : Shape := ⟨3, ![1, 256, 4096]⟩
abbrev S1x256x256 : Shape := ⟨3, ![1, 256, 256]⟩
abbrev S256x4096 : Shape := ⟨2, ![256, 4096]⟩
abbrev S1x256x1 : Shape := ⟨3, ![1, 256, 1]⟩
abbrev S256 : Shape := ⟨1, ![256]⟩
abbrev S256x1 : Shape := ⟨2, ![256, 1]⟩
abbrev S256x256 : Shape := ⟨2, ![256, 256]⟩

abbrev nBuf : Space → Nat
  | .hbm => 211
  | .vmem => 8
  | .smem => 0
  | _ => 0

abbrev hbmTy0_0 (i : Nat) : BufTy := match i % 128 with
  | 0 => ⟨S64x256x64x64, .f32⟩
  | 1 => ⟨S64x1024x2, .f32⟩
  | 2 => ⟨S64x1024x2, .f32⟩
  | 3 => ⟨S_, .f32⟩
  | 4 => ⟨S64x1024x2, .f32⟩
  | 5 => ⟨S64x1024x2, .f32⟩
  | 6 => ⟨S64x1024x2, .f32⟩
  | 7 => ⟨S64x1024x1, .f32⟩
  | 8 => ⟨S64x1024, .f32⟩
  | 9 => ⟨S64x1024x1, .f32⟩
  | 10 => ⟨S64x1024, .f32⟩
  | 11 => ⟨S64x1024, .f32⟩
  | 12 => ⟨S64x1024, .f32⟩
  | 13 => ⟨S64x1024, .f32⟩
  | 14 => ⟨S64x1024, .f32⟩
  | 15 => ⟨S_, .f32⟩
  | 16 => ⟨S64x1024, .f32⟩
  | 17 => ⟨S64x1024, .f32⟩
  | 18 => ⟨S_, .f32⟩
  | 19 => ⟨S64x1024, .f32⟩
  | 20 => ⟨S64x1024, .f32⟩
  | 21 => ⟨S64x1024, .i32⟩
  | 22 => ⟨S64x1024, .i32⟩
  | 23 => ⟨S64x1024, .f32⟩
  | 24 => ⟨S_, .i32⟩
  | 25 => ⟨S64x1024, .i32⟩
  | 26 => ⟨S64x1024, .i32⟩
  | 27 => ⟨S_, .i32⟩
  | 28 => ⟨S64x1024, .i32⟩
  | 29 => ⟨S64x1024, .i32⟩
  | 30 => ⟨S_, .i32⟩
  | 31 => ⟨S64x1024, .i32⟩
  | 32 => ⟨S64x1024, .i1⟩
  | 33 => ⟨S_, .i32⟩
  | 34 => ⟨S64x1024, .i32⟩
  | 35 => ⟨S64x1024, .i1⟩
  | 36 => ⟨S64x1024, .i1⟩
  | 37 => ⟨S_, .i32⟩
  | 38 => ⟨S64x1024, .i32⟩
  | 39 => ⟨S64x1024, .i1⟩
  | 40 => ⟨S64x1024, .i1⟩
  | 41 => ⟨S_, .i32⟩
  | 42 => ⟨S64x1024, .i32⟩
  | 43 => ⟨S64x1024, .i1⟩
  | 44 => ⟨S64x1024, .i1⟩
  | 45 => ⟨S_, .i32⟩
  | 46 => ⟨S_, .i32⟩
  | 47 => ⟨S_, .i32⟩
  | 48 => ⟨S64x1024, .i32⟩
  | 49 => ⟨S64x1024, .i32⟩
  | 50 => ⟨S_, .i32⟩
  | 51 => ⟨S64x1024, .i32⟩
  | 52 => ⟨S64x1024, .i32⟩
  | 53 => ⟨S_, .i32⟩
  | 54 => ⟨S_, .i32⟩
  | 55 => ⟨S_, .i32⟩
  | 56 => ⟨S64x1024, .i32⟩
  | 57 => ⟨S64x1024, .i32⟩
  | 58 => ⟨S_, .i32⟩
  | 59 => ⟨S64x1024, .i32⟩
  | 60 => ⟨S64x1024, .i32⟩
  | 61 => ⟨S_, .i32⟩
  | 62 => ⟨S64x1024, .i32⟩
  | 63 => ⟨S64x1024, .i32⟩
  | 64 => ⟨S64x1024, .i32⟩
  | 65 => ⟨S64x1024, .f32⟩
  | 66 => ⟨S64x1024, .f32⟩
  | 67 => ⟨S64x1024, .f32⟩
  | 68 => ⟨S_, .i32⟩
  | 69 => ⟨S64x1024, .i32⟩
  | 70 => ⟨S64x1024, .i32⟩
  | 71 => ⟨S_, .i32⟩
  | 72 => ⟨S64x1024, .i32⟩
  | 73 => ⟨S64x1024, .i32⟩
  | 74 => ⟨S_, .i32⟩
  | 75 => ⟨S64x1024, .i32⟩
  | 76 => ⟨S64x1024, .i1⟩
  | 77 => ⟨S_, .i32⟩
  | 78 => ⟨S64x1024, .i32⟩
  | 79 => ⟨S64x1024, .i1⟩
  | 80 => ⟨S64x1024, .i1⟩
  | 81 => ⟨S_, .i32⟩
  | 82 => ⟨S64x1024, .i32⟩
  | 83 => ⟨S64x1024, .i1⟩
  | 84 => ⟨S64x1024, .i1⟩
  | 85 => ⟨S_, .i32⟩
  | 86 => ⟨S64x1024, .i32⟩
  | 87 => ⟨S64x1024, .i1⟩
  | 88 => ⟨S64x1024, .i1⟩
  | 89 => ⟨S_, .i32⟩
  | 90 => ⟨S_, .i32⟩
  | 91 => ⟨S_, .i32⟩
  | 92 => ⟨S64x1024, .i32⟩
  | 93 => ⟨S64x1024, .i32⟩
  | 94 => ⟨S_, .i32⟩
  | 95 => ⟨S64x1024, .i32⟩
  | 96 => ⟨S64x1024, .i32⟩
  | 97 => ⟨S_, .i32⟩
  | 98 => ⟨S_, .i32⟩
  | 99 => ⟨S_, .i32⟩
  | 100 => ⟨S64x1024, .i32⟩
  | 101 => ⟨S64x1024, .i32⟩
  | 102 => ⟨S_, .i32⟩
  | 103 => ⟨S64x1024, .i32⟩
  | 104 => ⟨S64x1024, .i32⟩
  | 105 => ⟨S_, .i32⟩
  | 106 => ⟨S64x1024, .i32⟩
  | 107 => ⟨S64x1024, .i32⟩
  | 108 => ⟨S64x1024, .i32⟩
  | 109 => ⟨S64x1024, .f32⟩
  | 110 => ⟨S64x1024, .f32⟩
  | 111 => ⟨S64x1024, .f32⟩
  | 112 => ⟨S_, .i32⟩
  | 113 => ⟨S64x1024, .i32⟩
  | 114 => ⟨S64x1024, .i32⟩
  | 115 => ⟨S_, .i32⟩
  | 116 => ⟨S64x1024, .i32⟩
  | 117 => ⟨S64x1024, .i32⟩
  | 118 => ⟨S_, .i32⟩
  | 119 => ⟨S64x1024, .i32⟩
  | 120 => ⟨S64x1024, .i1⟩
  | 121 => ⟨S_, .i32⟩
  | 122 => ⟨S64x1024, .i32⟩
  | 123 => ⟨S64x1024, .i1⟩
  | 124 => ⟨S64x1024, .i1⟩
  | 125 => ⟨S_, .i32⟩
  | 126 => ⟨S64x1024, .i32⟩
  | 127 => ⟨S64x1024, .i1⟩
  | _ => ⟨S64x256x64x64, .f32⟩

abbrev hbmTy0_1 (i : Nat) : BufTy := match i % 128 with
  | 0 => ⟨S64x1024, .i1⟩
  | 1 => ⟨S_, .i32⟩
  | 2 => ⟨S64x1024, .i32⟩
  | 3 => ⟨S64x1024, .i1⟩
  | 4 => ⟨S64x1024, .i1⟩
  | 5 => ⟨S_, .i32⟩
  | 6 => ⟨S_, .i32⟩
  | 7 => ⟨S_, .i32⟩
  | 8 => ⟨S64x1024, .i32⟩
  | 9 => ⟨S64x1024, .i32⟩
  | 10 => ⟨S_, .i32⟩
  | 11 => ⟨S64x1024, .i32⟩
  | 12 => ⟨S64x1024, .i32⟩
  | 13 => ⟨S_, .i32⟩
  | 14 => ⟨S_, .i32⟩
  | 15 => ⟨S_, .i32⟩
  | 16 => ⟨S64x1024, .i32⟩
  | 17 => ⟨S64x1024, .i32⟩
  | 18 => ⟨S_, .i32⟩
  | 19 => ⟨S64x1024, .i32⟩
  | 20 => ⟨S64x1024, .i32⟩
  | 21 => ⟨S_, .i32⟩
  | 22 => ⟨S64x1024, .i32⟩
  | 23 => ⟨S64x1024, .i32⟩
  | 24 => ⟨S64x1024, .i32⟩
  | 25 => ⟨S64x1024, .f32⟩
  | 26 => ⟨S64x1024, .f32⟩
  | 27 => ⟨S64x1024, .f32⟩
  | 28 => ⟨S_, .i32⟩
  | 29 => ⟨S64x1024, .i32⟩
  | 30 => ⟨S64x1024, .i32⟩
  | 31 => ⟨S_, .i32⟩
  | 32 => ⟨S64x1024, .i32⟩
  | 33 => ⟨S64x1024, .i32⟩
  | 34 => ⟨S_, .i32⟩
  | 35 => ⟨S64x1024, .i32⟩
  | 36 => ⟨S64x1024, .i1⟩
  | 37 => ⟨S_, .i32⟩
  | 38 => ⟨S64x1024, .i32⟩
  | 39 => ⟨S64x1024, .i1⟩
  | 40 => ⟨S64x1024, .i1⟩
  | 41 => ⟨S_, .i32⟩
  | 42 => ⟨S64x1024, .i32⟩
  | 43 => ⟨S64x1024, .i1⟩
  | 44 => ⟨S64x1024, .i1⟩
  | 45 => ⟨S_, .i32⟩
  | 46 => ⟨S64x1024, .i32⟩
  | 47 => ⟨S64x1024, .i1⟩
  | 48 => ⟨S64x1024, .i1⟩
  | 49 => ⟨S_, .i32⟩
  | 50 => ⟨S_, .i32⟩
  | 51 => ⟨S_, .i32⟩
  | 52 => ⟨S64x1024, .i32⟩
  | 53 => ⟨S64x1024, .i32⟩
  | 54 => ⟨S_, .i32⟩
  | 55 => ⟨S64x1024, .i32⟩
  | 56 => ⟨S64x1024, .i32⟩
  | 57 => ⟨S_, .i32⟩
  | 58 => ⟨S_, .i32⟩
  | 59 => ⟨S_, .i32⟩
  | 60 => ⟨S64x1024, .i32⟩
  | 61 => ⟨S64x1024, .i32⟩
  | 62 => ⟨S_, .i32⟩
  | 63 => ⟨S64x1024, .i32⟩
  | 64 => ⟨S64x1024, .i32⟩
  | 65 => ⟨S_, .i32⟩
  | 66 => ⟨S64x1024, .i32⟩
  | 67 => ⟨S64x1024, .i32⟩
  | 68 => ⟨S64x1024, .i32⟩
  | 69 => ⟨S64x1024, .f32⟩
  | 70 => ⟨S64x1024, .f32⟩
  | 71 => ⟨S64x1024x1, .i32⟩
  | 72 => ⟨S64x1024x1, .i32⟩
  | 73 => ⟨S64x1024x1, .i32⟩
  | 74 => ⟨S64x1024x1, .i32⟩
  | 75 => ⟨S64x1024x4, .i32⟩
  | 76 => ⟨S64x1024x1, .f32⟩
  | 77 => ⟨S64x1024x1, .f32⟩
  | 78 => ⟨S64x1024x1, .f32⟩
  | 79 => ⟨S64x1024x1, .f32⟩
  | 80 => ⟨S64x1024x4, .f32⟩
  | 81 => ⟨S64x256x4096, .f32⟩
  | 82 => ⟨S64x1024x256, .f32⟩
  | _ => ⟨S64x256x64x64, .f32⟩

abbrev hbmTy (i : Nat) : BufTy := match i / 128 with
  | 0 => hbmTy0_0 i
  | 1 => hbmTy0_1 i
  | _ => ⟨S64x256x64x64, .f32⟩

abbrev bufTy : (tb : Table) → Fin (tcTables nBuf tb) → BufTy
  | .hbm, ⟨i, _⟩ => hbmTy i
  | .local _ .vmem, ⟨0, _⟩ => ⟨S1x256x4, .i32⟩
  | .local _ .vmem, ⟨1, _⟩ => ⟨S1x256x4, .i32⟩
  | .local _ .vmem, ⟨2, _⟩ => ⟨S1x256x4, .f32⟩
  | .local _ .vmem, ⟨3, _⟩ => ⟨S1x256x4, .f32⟩
  | .local _ .vmem, ⟨4, _⟩ => ⟨S1x256x4096, .f32⟩
  | .local _ .vmem, ⟨5, _⟩ => ⟨S1x256x4096, .f32⟩
  | .local _ .vmem, ⟨6, _⟩ => ⟨S1x256x256, .f32⟩
  | .local _ .vmem, ⟨7, _⟩ => ⟨S1x256x256, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_c_8 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_c_9 : Ref sig .tc := ⟨.hbm, 53, rfl⟩
abbrev main_c_10 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v34 : Ref sig .tc := ⟨.hbm, 60, rfl⟩
abbrev main_c_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_12 : Ref sig .tc := ⟨.hbm, 68, rfl⟩
abbrev main_v41 : Ref sig .tc := ⟨.hbm, 69, rfl⟩
abbrev main_v42 : Ref sig .tc := ⟨.hbm, 70, rfl⟩
abbrev main_c_13 : Ref sig .tc := ⟨.hbm, 71, rfl⟩
abbrev main_v43 : Ref sig .tc := ⟨.hbm, 72, rfl⟩
abbrev main_v44 : Ref sig .tc := ⟨.hbm, 73, rfl⟩
abbrev main_c_14 : Ref sig .tc := ⟨.hbm, 74, rfl⟩
abbrev main_v45 : Ref sig .tc := ⟨.hbm, 75, rfl⟩
abbrev main_v46 : Ref sig .tc := ⟨.hbm, 76, rfl⟩
abbrev main_c_15 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_17 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_18 : Ref sig .tc := ⟨.hbm, 89, rfl⟩
abbrev main_c_19 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v56 : Ref sig .tc := ⟨.hbm, 96, rfl⟩
abbrev main_c_20 : Ref sig .tc := ⟨.hbm, 97, rfl⟩
abbrev main_c_21 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v57 : Ref sig .tc := ⟨.hbm, 104, rfl⟩
abbrev main_c_22 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_23 : Ref sig .tc := ⟨.hbm, 112, rfl⟩
abbrev main_v64 : Ref sig .tc := ⟨.hbm, 113, rfl⟩
abbrev main_v65 : Ref sig .tc := ⟨.hbm, 114, rfl⟩
abbrev main_c_24 : Ref sig .tc := ⟨.hbm, 115, rfl⟩
abbrev main_v66 : Ref sig .tc := ⟨.hbm, 116, rfl⟩
abbrev main_v67 : Ref sig .tc := ⟨.hbm, 117, rfl⟩
abbrev main_c_25 : Ref sig .tc := ⟨.hbm, 118, rfl⟩
abbrev main_v68 : Ref sig .tc := ⟨.hbm, 119, rfl⟩
abbrev main_v69 : Ref sig .tc := ⟨.hbm, 120, rfl⟩
abbrev main_c_26 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_27 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_28 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_c_29 : Ref sig .tc := ⟨.hbm, 133, rfl⟩
abbrev main_c_30 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v79 : Ref sig .tc := ⟨.hbm, 140, rfl⟩
abbrev main_c_31 : Ref sig .tc := ⟨.hbm, 141, rfl⟩
abbrev main_c_32 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v80 : Ref sig .tc := ⟨.hbm, 148, rfl⟩
abbrev main_c_33 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_c_34 : Ref sig .tc := ⟨.hbm, 156, rfl⟩
abbrev main_v87 : Ref sig .tc := ⟨.hbm, 157, rfl⟩
abbrev main_v88 : Ref sig .tc := ⟨.hbm, 158, rfl⟩
abbrev main_c_35 : Ref sig .tc := ⟨.hbm, 159, rfl⟩
abbrev main_v89 : Ref sig .tc := ⟨.hbm, 160, rfl⟩
abbrev main_v90 : Ref sig .tc := ⟨.hbm, 161, rfl⟩
abbrev main_c_36 : Ref sig .tc := ⟨.hbm, 162, rfl⟩
abbrev main_v91 : Ref sig .tc := ⟨.hbm, 163, rfl⟩
abbrev main_v92 : Ref sig .tc := ⟨.hbm, 164, rfl⟩
abbrev main_c_37 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_c_38 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_c_39 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_c_40 : Ref sig .tc := ⟨.hbm, 177, rfl⟩
abbrev main_c_41 : Ref sig .tc := ⟨.hbm, 178, rfl⟩
abbrev main_call6_v0 : Ref sig .tc := ⟨.hbm, 179, rfl⟩
abbrev main_call6_v1 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_v102 : Ref sig .tc := ⟨.hbm, 184, rfl⟩
abbrev main_c_42 : Ref sig .tc := ⟨.hbm, 185, rfl⟩
abbrev main_c_43 : Ref sig .tc := ⟨.hbm, 186, rfl⟩
abbrev main_call7_v0 : Ref sig .tc := ⟨.hbm, 187, rfl⟩
abbrev main_call7_v1 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_v103 : Ref sig .tc := ⟨.hbm, 192, rfl⟩
abbrev main_c_44 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x1024x2 : S_.BroadcastsInDim S64x1024x2 (![] : Fin 0 → Fin S64x1024x2.rank)
  slices_S64x1024x2_S64x1024x1_0_0_0 : S64x1024x2.Slices ![0, 0, 0] S64x1024x1
  shapeCasts_S64x1024x1_S64x1024 : S64x1024x1.ShapeCasts S64x1024
  slices_S64x1024x2_S64x1024x1_0_0_1 : S64x1024x2.Slices ![0, 0, 1] S64x1024x1
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  concatenates_S64x1024x1_S64x1024x1_S64x1024x1_S64x1024x1_S64x1024x4_d2 : Shape.Concatenates [S64x1024x1, S64x1024x1, S64x1024x1, S64x1024x1] S64x1024x4 2
  shapeCasts_S64x256x64x64_S64x256x4096 : S64x256x64x64.ShapeCasts S64x256x4096
  iota_S256x4096_d1_w32 : S256x4096.Iotas .tc 32 [1]
  inb_S1x256x4_S1x256x1_0_0_0 : ∀ a, (![0, 0, 0] : Fin 3 → Nat) a + S1x256x1.size a ≤ S1x256x4.size a
  h_S1x256x1 : 0 < S1x256x1.numel
  shapeCasts_S1x256x1_S256 : S1x256x1.ShapeCasts S256
  shapeCasts_S256_S256x1 : S256.ShapeCasts S256x1
  broadcasts_S256x1_S256x4096 : S256x1.Broadcasts S256x4096
  shapeCasts_S256x1_S256x1 : S256x1.ShapeCasts S256x1
  inb_S1x256x4_S1x256x1_0_0_1 : ∀ a, (![0, 0, 1] : Fin 3 → Nat) a + S1x256x1.size a ≤ S1x256x4.size a
  inb_S1x256x4_S1x256x1_0_0_2 : ∀ a, (![0, 0, 2] : Fin 3 → Nat) a + S1x256x1.size a ≤ S1x256x4.size a
  inb_S1x256x4_S1x256x1_0_0_3 : ∀ a, (![0, 0, 3] : Fin 3 → Nat) a + S1x256x1.size a ≤ S1x256x4.size a
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4.size a ≤ S64x1024x4.size a
  hwx0_0 : ∀ i : grid0.Coords, EltTy.bits .i32 = 32 ∨ (Rect.block (s := S64x1024x4) S1x256x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4.size a ≤ S64x1024x4.size a
  hwx0_1 : ∀ i : grid0.Coords, EltTy.bits .f32 = 32 ∨ (Rect.block (s := S64x1024x4) S1x256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S64x256x4096.size a
  hwx0_2 : ∀ i : grid0.Coords, EltTy.bits .f32 = 32 ∨ (Rect.block (s := S64x256x4096) S1x256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S64x1024x256.size a
  hwx0_3 : ∀ i : grid0.Coords, EltTy.bits .f32 = 32 ∨ (Rect.block (s := S64x1024x256) S1x256x256.size (cc0_transform_3 i) (hinb0_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v113) S1x256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v118) S1x256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v119) S1x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v120) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x64x64 : Shape := ⟨4, ![64, 256, 64, 64]⟩
abbrev S64x1024x2 : Shape := ⟨3, ![64, 1024, 2]⟩
abbrev S_ : Shape := ⟨0, ![]⟩
abbrev S64x1024x1 : Shape := ⟨3, ![64, 1024, 1]⟩
abbrev S64x1024 : Shape := ⟨2, ![64, 1024]⟩
abbrev S64x64x64x256 : Shape := ⟨4, ![64, 64, 64, 256]⟩
abbrev S64 : Shape := ⟨1, ![64]⟩
abbrev S64x1 : Shape := ⟨2, ![64, 1]⟩
abbrev S64x1024x3 : Shape := ⟨3, ![64, 1024, 3]⟩
abbrev S64x1024x256 : Shape := ⟨3, ![64, 1024, 256]⟩

abbrev nBuf : Space → Nat
  | .hbm => 305
  | .vmem => 0
  | .smem => 0
  | _ => 0

abbrev hbmTy0_0 (i : Nat) : BufTy := match i % 128 with
  | 0 => ⟨S64x256x64x64, .f32⟩
  | 1 => ⟨S64x1024x2, .f32⟩
  | 2 => ⟨S64x1024x2, .f32⟩
  | 3 => ⟨S_, .f32⟩
  | 4 => ⟨S64x1024x2, .f32⟩
  | 5 => ⟨S64x1024x2, .f32⟩
  | 6 => ⟨S64x1024x2, .f32⟩
  | 7 => ⟨S64x1024x1, .f32⟩
  | 8 => ⟨S64x1024, .f32⟩
  | 9 => ⟨S64x1024x1, .f32⟩
  | 10 => ⟨S64x1024, .f32⟩
  | 11 => ⟨S64x1024, .f32⟩
  | 12 => ⟨S64x1024, .f32⟩
  | 13 => ⟨S64x1024, .f32⟩
  | 14 => ⟨S64x1024, .f32⟩
  | 15 => ⟨S_, .f32⟩
  | 16 => ⟨S64x1024, .f32⟩
  | 17 => ⟨S64x1024, .f32⟩
  | 18 => ⟨S_, .f32⟩
  | 19 => ⟨S64x1024, .f32⟩
  | 20 => ⟨S64x1024, .f32⟩
  | 21 => ⟨S64x1024, .i32⟩
  | 22 => ⟨S64x1024, .i32⟩
  | 23 => ⟨S64x64x64x256, .f32⟩
  | 24 => ⟨S64, .i32⟩
  | 25 => ⟨S64x1, .i32⟩
  | 26 => ⟨S_, .i32⟩
  | 27 => ⟨S64x1024, .i32⟩
  | 28 => ⟨S64x1024, .i1⟩
  | 29 => ⟨S_, .i32⟩
  | 30 => ⟨S64x1024, .i32⟩
  | 31 => ⟨S64x1024, .i1⟩
  | 32 => ⟨S64x1024, .i1⟩
  | 33 => ⟨S_, .i32⟩
  | 34 => ⟨S64x1024, .i32⟩
  | 35 => ⟨S64x1024, .i1⟩
  | 36 => ⟨S64x1024, .i1⟩
  | 37 => ⟨S_, .i32⟩
  | 38 => ⟨S64x1024, .i32⟩
  | 39 => ⟨S64x1024, .i1⟩
  | 40 => ⟨S64x1024, .i1⟩
  | 41 => ⟨S_, .i32⟩
  | 42 => ⟨S_, .i32⟩
  | 43 => ⟨S_, .i32⟩
  | 44 => ⟨S64x1024, .i32⟩
  | 45 => ⟨S64x1024, .i32⟩
  | 46 => ⟨S_, .i32⟩
  | 47 => ⟨S64x1024, .i32⟩
  | 48 => ⟨S64x1024, .i32⟩
  | 49 => ⟨S_, .i32⟩
  | 50 => ⟨S_, .i32⟩
  | 51 => ⟨S_, .i32⟩
  | 52 => ⟨S64x1024, .i32⟩
  | 53 => ⟨S64x1024, .i32⟩
  | 54 => ⟨S_, .i32⟩
  | 55 => ⟨S64x1024, .i32⟩
  | 56 => ⟨S64x1024, .i32⟩
  | 57 => ⟨S_, .i32⟩
  | 58 => ⟨S64x1, .i32⟩
  | 59 => ⟨S64x1, .i1⟩
  | 60 => ⟨S_, .i32⟩
  | 61 => ⟨S64x1, .i32⟩
  | 62 => ⟨S64x1, .i32⟩
  | 63 => ⟨S64x1, .i32⟩
  | 64 => ⟨S_, .i32⟩
  | 65 => ⟨S64x1024, .i32⟩
  | 66 => ⟨S64x1024, .i1⟩
  | 67 => ⟨S_, .i32⟩
  | 68 => ⟨S64x1024, .i32⟩
  | 69 => ⟨S64x1024, .i32⟩
  | 70 => ⟨S64x1024, .i32⟩
  | 71 => ⟨S_, .i32⟩
  | 72 => ⟨S64x1024, .i32⟩
  | 73 => ⟨S64x1024, .i1⟩
  | 74 => ⟨S_, .i32⟩
  | 75 => ⟨S64x1024, .i32⟩
  | 76 => ⟨S64x1024, .i32⟩
  | 77 => ⟨S64x1024, .i32⟩
  | 78 => ⟨S64x1024, .i32⟩
  | 79 => ⟨S64x1024x1, .i32⟩
  | 80 => ⟨S64x1024x1, .i32⟩
  | 81 => ⟨S64x1024x1, .i32⟩
  | 82 => ⟨S64x1024x3, .i32⟩
  | 83 => ⟨S64x1024x256, .f32⟩
  | 84 => ⟨S64x1024x1, .i1⟩
  | 85 => ⟨S64x1024x1, .f32⟩
  | 86 => ⟨S64x1024x256, .f32⟩
  | 87 => ⟨S64x1024x256, .f32⟩
  | 88 => ⟨S_, .i32⟩
  | 89 => ⟨S64x1024, .i32⟩
  | 90 => ⟨S64x1024, .i32⟩
  | 91 => ⟨S_, .i32⟩
  | 92 => ⟨S64x1024, .i32⟩
  | 93 => ⟨S64x1024, .i1⟩
  | 94 => ⟨S_, .i32⟩
  | 95 => ⟨S64x1024, .i32⟩
  | 96 => ⟨S64x1024, .i1⟩
  | 97 => ⟨S64x1024, .i1⟩
  | 98 => ⟨S_, .i32⟩
  | 99 => ⟨S64x1024, .i32⟩
  | 100 => ⟨S64x1024, .i1⟩
  | 101 => ⟨S64x1024, .i1⟩
  | 102 => ⟨S_, .i32⟩
  | 103 => ⟨S64x1024, .i32⟩
  | 104 => ⟨S64x1024, .i1⟩
  | 105 => ⟨S64x1024, .i1⟩
  | 106 => ⟨S_, .i32⟩
  | 107 => ⟨S_, .i32⟩
  | 108 => ⟨S_, .i32⟩
  | 109 => ⟨S64x1024, .i32⟩
  | 110 => ⟨S64x1024, .i32⟩
  | 111 => ⟨S_, .i32⟩
  | 112 => ⟨S64x1024, .i32⟩
  | 113 => ⟨S64x1024, .i32⟩
  | 114 => ⟨S_, .i32⟩
  | 115 => ⟨S_, .i32⟩
  | 116 => ⟨S_, .i32⟩
  | 117 => ⟨S64x1024, .i32⟩
  | 118 => ⟨S64x1024, .i32⟩
  | 119 => ⟨S_, .i32⟩
  | 120 => ⟨S64x1024, .i32⟩
  | 121 => ⟨S64x1024, .i32⟩
  | 122 => ⟨S_, .i32⟩
  | 123 => ⟨S64x1, .i32⟩
  | 124 => ⟨S64x1, .i1⟩
  | 125 => ⟨S_, .i32⟩
  | 126 => ⟨S64x1, .i32⟩
  | 127 => ⟨S64x1, .i32⟩
  | _ => ⟨S64x256x64x64, .f32⟩

abbrev hbmTy0_1 (i : Nat) : BufTy := match i % 128 with
  | 0 => ⟨S64x1, .i32⟩
  | 1 => ⟨S_, .i32⟩
  | 2 => ⟨S64x1024, .i32⟩
  | 3 => ⟨S64x1024, .i1⟩
  | 4 => ⟨S_, .i32⟩
  | 5 => ⟨S64x1024, .i32⟩
  | 6 => ⟨S64x1024, .i32⟩
  | 7 => ⟨S64x1024, .i32⟩
  | 8 => ⟨S_, .i32⟩
  | 9 => ⟨S64x1024, .i32⟩
  | 10 => ⟨S64x1024, .i1⟩
  | 11 => ⟨S_, .i32⟩
  | 12 => ⟨S64x1024, .i32⟩
  | 13 => ⟨S64x1024, .i32⟩
  | 14 => ⟨S64x1024, .i32⟩
  | 15 => ⟨S64x1024, .i32⟩
  | 16 => ⟨S64x1024x1, .i32⟩
  | 17 => ⟨S64x1024x1, .i32⟩
  | 18 => ⟨S64x1024x1, .i32⟩
  | 19 => ⟨S64x1024x3, .i32⟩
  | 20 => ⟨S64x1024x256, .f32⟩
  | 21 => ⟨S64x1024x1, .i1⟩
  | 22 => ⟨S64x1024x1, .f32⟩
  | 23 => ⟨S64x1024x256, .f32⟩
  | 24 => ⟨S64x1024x256, .f32⟩
  | 25 => ⟨S_, .i32⟩
  | 26 => ⟨S64x1024, .i32⟩
  | 27 => ⟨S64x1024, .i32⟩
  | 28 => ⟨S_, .i32⟩
  | 29 => ⟨S64x1024, .i32⟩
  | 30 => ⟨S64x1024, .i1⟩
  | 31 => ⟨S_, .i32⟩
  | 32 => ⟨S64x1024, .i32⟩
  | 33 => ⟨S64x1024, .i1⟩
  | 34 => ⟨S64x1024, .i1⟩
  | 35 => ⟨S_, .i32⟩
  | 36 => ⟨S64x1024, .i32⟩
  | 37 => ⟨S64x1024, .i1⟩
  | 38 => ⟨S64x1024, .i1⟩
  | 39 => ⟨S_, .i32⟩
  | 40 => ⟨S64x1024, .i32⟩
  | 41 => ⟨S64x1024, .i1⟩
  | 42 => ⟨S64x1024, .i1⟩
  | 43 => ⟨S_, .i32⟩
  | 44 => ⟨S_, .i32⟩
  | 45 => ⟨S_, .i32⟩
  | 46 => ⟨S64x1024, .i32⟩
  | 47 => ⟨S64x1024, .i32⟩
  | 48 => ⟨S_, .i32⟩
  | 49 => ⟨S64x1024, .i32⟩
  | 50 => ⟨S64x1024, .i32⟩
  | 51 => ⟨S_, .i32⟩
  | 52 => ⟨S_, .i32⟩
  | 53 => ⟨S_, .i32⟩
  | 54 => ⟨S64x1024, .i32⟩
  | 55 => ⟨S64x1024, .i32⟩
  | 56 => ⟨S_, .i32⟩
  | 57 => ⟨S64x1024, .i32⟩
  | 58 => ⟨S64x1024, .i32⟩
  | 59 => ⟨S_, .i32⟩
  | 60 => ⟨S64x1, .i32⟩
  | 61 => ⟨S64x1, .i1⟩
  | 62 => ⟨S_, .i32⟩
  | 63 => ⟨S64x1, .i32⟩
  | 64 => ⟨S64x1, .i32⟩
  | 65 => ⟨S64x1, .i32⟩
  | 66 => ⟨S_, .i32⟩
  | 67 => ⟨S64x1024, .i32⟩
  | 68 => ⟨S64x1024, .i1⟩
  | 69 => ⟨S_, .i32⟩
  | 70 => ⟨S64x1024, .i32⟩
  | 71 => ⟨S64x1024, .i32⟩
  | 72 => ⟨S64x1024, .i32⟩
  | 73 => ⟨S_, .i32⟩
  | 74 => ⟨S64x1024, .i32⟩
  | 75 => ⟨S64x1024, .i1⟩
  | 76 => ⟨S_, .i32⟩
  | 77 => ⟨S64x1024, .i32⟩
  | 78 => ⟨S64x1024, .i32⟩
  | 79 => ⟨S64x1024, .i32⟩
  | 80 => ⟨S64x1024, .i32⟩
  | 81 => ⟨S64x1024x1, .i32⟩
  | 82 => ⟨S64x1024x1, .i32⟩
  | 83 => ⟨S64x1024x1, .i32⟩
  | 84 => ⟨S64x1024x3, .i32⟩
  | 85 => ⟨S64x1024x256, .f32⟩
  | 86 => ⟨S64x1024x1, .i1⟩
  | 87 => ⟨S64x1024x1, .f32⟩
  | 88 => ⟨S64x1024x256, .f32⟩
  | 89 => ⟨S64x1024x256, .f32⟩
  | 90 => ⟨S_, .i32⟩
  | 91 => ⟨S64x1024, .i32⟩
  | 92 => ⟨S64x1024, .i32⟩
  | 93 => ⟨S_, .i32⟩
  | 94 => ⟨S64x1024, .i32⟩
  | 95 => ⟨S64x1024, .i32⟩
  | 96 => ⟨S_, .i32⟩
  | 97 => ⟨S64x1024, .i32⟩
  | 98 => ⟨S64x1024, .i1⟩
  | 99 => ⟨S_, .i32⟩
  | 100 => ⟨S64x1024, .i32⟩
  | 101 => ⟨S64x1024, .i1⟩
  | 102 => ⟨S64x1024, .i1⟩
  | 103 => ⟨S_, .i32⟩
  | 104 => ⟨S64x1024, .i32⟩
  | 105 => ⟨S64x1024, .i1⟩
  | 106 => ⟨S64x1024, .i1⟩
  | 107 => ⟨S_, .i32⟩
  | 108 => ⟨S64x1024, .i32⟩
  | 109 => ⟨S64x1024, .i1⟩
  | 110 => ⟨S64x1024, .i1⟩
  | 111 => ⟨S_, .i32⟩
  | 112 => ⟨S_, .i32⟩
  | 113 => ⟨S_, .i32⟩
  | 114 => ⟨S64x1024, .i32⟩
  | 115 => ⟨S64x1024, .i32⟩
  | 116 => ⟨S_, .i32⟩
  | 117 => ⟨S64x1024, .i32⟩
  | 118 => ⟨S64x1024, .i32⟩
  | 119 => ⟨S_, .i32⟩
  | 120 => ⟨S_, .i32⟩
  | 121 => ⟨S_, .i32⟩
  | 122 => ⟨S64x1024, .i32⟩
  | 123 => ⟨S64x1024, .i32⟩
  | 124 => ⟨S_, .i32⟩
  | 125 => ⟨S64x1024, .i32⟩
  | 126 => ⟨S64x1024, .i32⟩
  | 127 => ⟨S_, .i32⟩
  | _ => ⟨S64x256x64x64, .f32⟩

abbrev hbmTy0_2 (i : Nat) : BufTy := match i % 128 with
  | 0 => ⟨S64x1, .i32⟩
  | 1 => ⟨S64x1, .i1⟩
  | 2 => ⟨S_, .i32⟩
  | 3 => ⟨S64x1, .i32⟩
  | 4 => ⟨S64x1, .i32⟩
  | 5 => ⟨S64x1, .i32⟩
  | 6 => ⟨S_, .i32⟩
  | 7 => ⟨S64x1024, .i32⟩
  | 8 => ⟨S64x1024, .i1⟩
  | 9 => ⟨S_, .i32⟩
  | 10 => ⟨S64x1024, .i32⟩
  | 11 => ⟨S64x1024, .i32⟩
  | 12 => ⟨S64x1024, .i32⟩
  | 13 => ⟨S_, .i32⟩
  | 14 => ⟨S64x1024, .i32⟩
  | 15 => ⟨S64x1024, .i1⟩
  | 16 => ⟨S_, .i32⟩
  | 17 => ⟨S64x1024, .i32⟩
  | 18 => ⟨S64x1024, .i32⟩
  | 19 => ⟨S64x1024, .i32⟩
  | 20 => ⟨S64x1024, .i32⟩
  | 21 => ⟨S64x1024x1, .i32⟩
  | 22 => ⟨S64x1024x1, .i32⟩
  | 23 => ⟨S64x1024x1, .i32⟩
  | 24 => ⟨S64x1024x3, .i32⟩
  | 25 => ⟨S64x1024x256, .f32⟩
  | 26 => ⟨S64x1024x1, .i1⟩
  | 27 => ⟨S64x1024x1, .f32⟩
  | 28 => ⟨S64x1024x256, .f32⟩
  | 29 => ⟨S64x1024x256, .f32⟩
  | 30 => ⟨S64x1024, .f32⟩
  | 31 => ⟨S64x1024x1, .f32⟩
  | 32 => ⟨S64x1024, .f32⟩
  | 33 => ⟨S64x1024x1, .f32⟩
  | 34 => ⟨S64x1024, .f32⟩
  | 35 => ⟨S64x1024x1, .f32⟩
  | 36 => ⟨S64x1024, .f32⟩
  | 37 => ⟨S64x1024x1, .f32⟩
  | 38 => ⟨S64x1024x256, .f32⟩
  | 39 => ⟨S64x1024x256, .f32⟩
  | 40 => ⟨S64x1024x256, .f32⟩
  | 41 => ⟨S64x1024x256, .f32⟩
  | 42 => ⟨S64x1024x256, .f32⟩
  | 43 => ⟨S64x1024x256, .f32⟩
  | 44 => ⟨S64x1024x256, .f32⟩
  | 45 => ⟨S64x1024x256, .f32⟩
  | 46 => ⟨S64x1024x256, .f32⟩
  | 47 => ⟨S64x1024x256, .f32⟩
  | 48 => ⟨S64x1024x256, .f32⟩
  | _ => ⟨S64x256x64x64, .f32⟩

abbrev hbmTy (i : Nat) : BufTy := match i / 128 with
  | 0 => hbmTy0_0 i
  | 1 => hbmTy0_1 i
  | 2 => hbmTy0_2 i
  | _ => ⟨S64x256x64x64, .f32⟩

abbrev bufTy : (tb : Table) → Fin (tcTables nBuf tb) → BufTy
  | .hbm, ⟨i, _⟩ => hbmTy i
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_c_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v31 : Ref sig .tc := ⟨.hbm, 48, rfl⟩
abbrev main_c_7 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_13 : Ref sig .tc := ⟨.hbm, 71, rfl⟩
abbrev main_v43 : Ref sig .tc := ⟨.hbm, 72, rfl⟩
abbrev main_v44 : Ref sig .tc := ⟨.hbm, 73, rfl⟩
abbrev main_c_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_19 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_c_21 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v71 : Ref sig .tc := ⟨.hbm, 113, rfl⟩
abbrev main_c_22 : Ref sig .tc := ⟨.hbm, 114, rfl⟩
abbrev main_c_23 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_v72 : Ref sig .tc := ⟨.hbm, 121, rfl⟩
abbrev main_c_24 : Ref sig .tc := ⟨.hbm, 122, rfl⟩
abbrev main_v73 : Ref sig .tc := ⟨.hbm, 123, rfl⟩
abbrev main_v74 : Ref sig .tc := ⟨.hbm, 124, rfl⟩
abbrev main_c_25 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_26 : Ref sig .tc := ⟨.hbm, 129, rfl⟩
abbrev main_v78 : Ref sig .tc := ⟨.hbm, 130, rfl⟩
abbrev main_v79 : Ref sig .tc := ⟨.hbm, 131, rfl⟩
abbrev main_c_27 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_28 : Ref sig .tc := ⟨.hbm, 136, rfl⟩
abbrev main_v83 : Ref sig .tc := ⟨.hbm, 137, rfl⟩
abbrev main_v84 : Ref sig .tc := ⟨.hbm, 138, rfl⟩
abbrev main_c_29 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_30 : Ref sig .tc := ⟨.hbm, 153, rfl⟩
abbrev main_v98 : Ref sig .tc := ⟨.hbm, 154, rfl⟩
abbrev main_v99 : Ref sig .tc := ⟨.hbm, 155, rfl⟩
abbrev main_c_31 : Ref sig .tc := ⟨.hbm, 156, rfl⟩
abbrev main_v100 : Ref sig .tc := ⟨.hbm, 157, rfl⟩
abbrev main_v101 : Ref sig .tc := ⟨.hbm, 158, rfl⟩
abbrev main_c_32 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_c_33 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_34 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_c_35 : Ref sig .tc := ⟨.hbm, 171, rfl⟩
abbrev main_c_36 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_v111 : Ref sig .tc := ⟨.hbm, 178, rfl⟩
abbrev main_c_37 : Ref sig .tc := ⟨.hbm, 179, rfl⟩
abbrev main_c_38 : Ref sig .tc := ⟨.hbm, 180, rfl⟩
abbrev main_call5_v0 : Ref sig .tc := ⟨.hbm, 181, rfl⟩
abbrev main_call5_v1 : Ref sig .tc := ⟨.hbm, 182, rfl⟩
abbrev main_call5_v2 : Ref sig .tc := ⟨.hbm, 183, rfl⟩
abbrev main_call5_v3 : Ref sig .tc := ⟨.hbm, 184, rfl⟩
abbrev main_call5_v4 : Ref sig .tc := ⟨.hbm, 185, rfl⟩
abbrev main_v112 : Ref sig .tc := ⟨.hbm, 186, rfl⟩
abbrev main_c_39 : Ref sig .tc := ⟨.hbm, 187, rfl⟩
abbrev main_v113 : Ref sig .tc := ⟨.hbm, 188, rfl⟩
abbrev main_v114 : Ref sig .tc := ⟨.hbm, 189, rfl⟩
abbrev main_c_40 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_41 : Ref sig .tc := ⟨.hbm, 194, rfl⟩
abbrev main_v118 : Ref sig .tc := ⟨.hbm, 195, rfl⟩
abbrev main_v119 : Ref sig .tc := ⟨.hbm, 196, rfl⟩
abbrev main_c_42 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_c_43 : Ref sig .tc := ⟨.hbm, 201, rfl⟩
abbrev main_v123 : Ref sig .tc := ⟨.hbm, 202, rfl⟩
abbrev main_v124 : Ref sig .tc := ⟨.hbm, 203, rfl⟩
abbrev main_c_44 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_c_45 : Ref sig .tc := ⟨.hbm, 218, rfl⟩
abbrev main_v138 : Ref sig .tc := ⟨.hbm, 219, rfl⟩
abbrev main_v139 : Ref sig .tc := ⟨.hbm, 220, rfl⟩
abbrev main_c_46 : Ref sig .tc := ⟨.hbm, 221, rfl⟩
abbrev main_v140 : Ref sig .tc := ⟨.hbm, 222, rfl⟩
abbrev main_v141 : Ref sig .tc := ⟨.hbm, 223, rfl⟩
abbrev main_c_47 : Ref sig .tc := ⟨.hbm, 224, rfl⟩
abbrev main_v142 : Ref sig .tc := ⟨.hbm, 225, rfl⟩
abbrev main_v143 : Ref sig .tc := ⟨.hbm, 226, rfl⟩
abbrev main_c_48 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_c_49 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_c_50 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_c_51 : Ref sig .tc := ⟨.hbm, 239, rfl⟩
abbrev main_c_52 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_call6_v3 : Ref sig .tc := ⟨.hbm, 244, rfl⟩
abbrev main_call6_v4 : Ref sig .tc := ⟨.hbm, 245, rfl⟩
abbrev main_v153 : Ref sig .tc := ⟨.hbm, 246, rfl⟩
abbrev main_c_53 : Ref sig .tc := ⟨.hbm, 247, rfl⟩
abbrev main_c_54 : Ref sig .tc := ⟨.hbm, 248, rfl⟩
abbrev main_call7_v0 : Ref sig .tc := ⟨.hbm, 249, rfl⟩
abbrev main_call7_v1 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_v154 : Ref sig .tc := ⟨.hbm, 254, rfl⟩
abbrev main_c_55 : Ref sig .tc := ⟨.hbm, 255, rfl⟩
abbrev main_v155 : Ref sig .tc := ⟨.hbm, 256, rfl⟩
abbrev main_v156 : Ref sig .tc := ⟨.hbm, 257, rfl⟩
abbrev main_c_56 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_c_57 : Ref sig .tc := ⟨.hbm, 262, rfl⟩
abbrev main_v160 : Ref sig .tc := ⟨.hbm, 263, rfl⟩
abbrev main_v161 : Ref sig .tc := ⟨.hbm, 264, rfl⟩
abbrev main_c_58 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_c_59 : Ref sig .tc := ⟨.hbm, 269, rfl⟩
abbrev main_v165 : Ref sig .tc := ⟨.hbm, 270, rfl⟩
abbrev main_v166 : Ref sig .tc := ⟨.hbm, 271, rfl⟩
abbrev main_c_60 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩

abbrev nD : Nat := 1
abbrev τ : Topo := Topo.v7x

variable {F : FTy → Type} [FloatOps F]

class Facts₀ : Prop where
  bcast_S_S64x1024x2 : S_.BroadcastsInDim S64x1024x2 (![] : Fin 0 → Fin S64x1024x2.rank)
  slices_S64x1024x2_S64x1024x1_0_0_0 : S64x1024x2.Slices ![0, 0, 0] S64x1024x1
  shapeCasts_S64x1024x1_S64x1024 : S64x1024x1.ShapeCasts S64x1024
  slices_S64x1024x2_S64x1024x1_0_0_1 : S64x1024x2.Slices ![0, 0, 1] S64x1024x1
  bcast_S_S64x1024 : S_.BroadcastsInDim S64x1024 (![] : Fin 0 → Fin S64x1024.rank)
  transposes_S64x256x64x64_S64x64x64x256_0_2_3_1 : S64x256x64x64.Transposes [0, 2, 3, 1] S64x64x64x256
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  concatenates_S64x1024x1_S64x1024x1_S64x1024x1_S64x1024x3_d2 : Shape.Concatenates [S64x1024x1, S64x1024x1, S64x1024x1] S64x1024x3 2
  bcast_S64x1024x1_S64x1024x256_0_1_2 : S64x1024x1.BroadcastsInDim S64x1024x256 (![0, 1, 2] : Fin 3 → Fin S64x1024x256.rank)
  gather_S64x64x64x256_S64x1024x3_S64x1024x256_2_012_n_n_012_2_111256_wf : GatherDims.WF S64x64x64x256 S64x1024x3 S64x1024x256 [2] [0, 1, 2] [] [0, 1, 2] [] 2 ![1, 1, 1, 256]

variable [Facts₀]

def gather_S64x64x64x256_S64x1024x3_S64x1024x256_2_012_n_n_012_2_111256 : GatherDims S64x64x64x256 S64x1024x3 S64x1024x256 where
  offsetDims := [2]
  collapsedSliceDims := [0, 1, 2]
  operandBatchingDims := []
  startIndicesBatchingDims := []
  startIndexMap := [0, 1, 2]
  indexVectorDim := 2
  sliceSizes := ![1, 1, 1, 256]
  wf := gather_S64x64x64x256_S64x1024x3_S64x1024x256_2_012_n_n_012_2_111256_wf

class Facts : Prop extends Facts₀ where

variable [Facts]
-- ==== Proof.FrameVB.lean ====
/-
  The contents of the word-level kernel program's buffers when its one region is entered: the launch memory after
  every host operation in front of the region, in the order @main runs them (seventeen stretches: @main's own lines
  and the eight clipping calls between them).
-/
import proofs.«113401_j14955076124692_1_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]

/-- The host operations in front of the region, stretch by stretch. -/
abbrev prefixOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core c's TensorCore buffers when the region is entered. -/
abbrev V (m : (ℓ : Loc nD τ sig) → Buf (Elt F) ℓ) (c : Dev nD) (b : Ref sig .tc) : Buf (Elt F) ((c : Thread nD τ).loc b) :=
  StableHlo.after (List.flatten (prefixOps (F := F))) (fun b => m (c, b)) b

end Cert.Kernel.Fr

end
-- ==== Proof.FrameB.lean ====
/-
  The frame run of the word-level kernel program: @main is seventeen stretches of host operations and then one
  region on the grid (64, 4). The region's body reads its three input blocks through fixed rectangles and stores
  its whole output block once, so after the body the output's staging buffer is a function (out0_3) of the three
  input blocks alone. From that: the proof data of the pipeline, the body's obligation at every grid point, the
  run of @main to the pipeline library's frame postcondition, and the frame claim itself (the three argument arrays
  end as launched, since no host operation and no window writes them).
-/
import proofs.«113401_j14955076124692_1_alg».proof.Proof.FrameVB
import proofs.«113401_j14955076124692_1_alg».proof.Proof.Gen.Kernel.Skeleton
import proofs.«113401_j14955076124692_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the seventeen stretches followed by the region, so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current staging buffer holds its block at every point, whether or not the pipeline fetched it
   there (an unfetched point has the block index of the point before it), for any proof data whose array is `V`'s
   and whose body leaves the block in place. Window 2 is the one fetched only at the points divisible by four. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the frame postcondition: the three arguments are staged by no window, so
    they end as the region found them, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

/-- Column `k` of the two [1,256,4] blocks (corner `k`'s flat index and weight). -/
abbrev rc0 : Rect S1x256x4 := Rect.unit (s := S1x256x4) ![0, 0, 0] S1x256x1.size inb_S1x256x4_S1x256x1_0_0_0
abbrev rc1 : Rect S1x256x4 := Rect.unit (s := S1x256x4) ![0, 0, 1] S1x256x1.size inb_S1x256x4_S1x256x1_0_0_1
abbrev rc2 : Rect S1x256x4 := Rect.unit (s := S1x256x4) ![0, 0, 2] S1x256x1.size inb_S1x256x4_S1x256x1_0_0_2
abbrev rc3 : Rect S1x256x4 := Rect.unit (s := S1x256x4) ![0, 0, 3] S1x256x1.size inb_S1x256x4_S1x256x1_0_0_3
/-- The whole feature block and the whole output block. -/
abbrev rfeat : Rect S1x256x4096 := Rect.unit (s := S1x256x4096) ![0, 0, 0] S1x256x4096.size inb_S1x256x4096_S1x256x4096_0_0_0
abbrev rout : Rect S1x256x256 := Rect.unit (s := S1x256x256) ![0, 0, 0] S1x256x256.size inb_S1x256x256_S1x256x256_0_0_0

/-! ## What the body leaves in the output window's buffer -/

/-- The output staging buffer after the body, from the three input blocks: the one whole-block store, whose payload
    is the product of the weight matrix built from the four index/weight columns with the feature block. -/
def out0_3 (x0 : Vec F S1x256x4 .i32) (x1 : Vec F S1x256x4 .f32) (x2 : Vec F S1x256x4096 .f32) : Vec F S1x256x256 .f32 :=
  View.canon [⟨rout, k0_pay1 (iota .tc S256x4096 32 [1] iota_S256x4096_d1_w32)
    (k0_pay2 (View.ld x0 rc0) (View.ld x1 rc0) (View.ld x0 rc1) (View.ld x1 rc1)) (k0_pay3 (View.ld x1 rc2)) (k0_pay4 (View.ld x0 rc2))
    (Scalar.ofBits .f32 0x00000000#32) (View.ld x0 rc3) (View.ld x1 rc3) (View.ld x2 rfeat)⟩]

/-- The one store covers the buffer. -/
theorem cover0_3 (p0 : Vec F S1x256x256 .f32) (y : S1x256x256.Idx) :
    ∃ pc ∈ ([⟨rout, p0⟩] : List (View.Piece (Elt F) S1x256x256 .f32)), y ∈ pc.1.set :=
  View.cover_of_tiled [⟨rout, p0⟩] S1x256x256.size (by rfl) y

/-! ## The body's triple -/

set_option maxHeartbeats 1000000 in
/-- The body on whole staging memrefs, the inputs' at contents reading `x0`, `x1`, `x2` and the output's at anything,
    runs to the continuation with the inputs' as they were and the output's at `out0_3 x0 x1 x2`. -/
theorem sound_kernel (c : Dev nD) (E : Set ℕ) (i : grid0.Coords) (arg2 : Memref sig .tc .vmem S1x256x4 .i32) (harg2 : arg2.IsWhole) (arg3 : Memref sig .tc .vmem S1x256x4 .f32) (harg3 : arg3.IsWhole) (arg4 : Memref sig .tc .vmem S1x256x4096 .f32) (harg4 : arg4.IsWhole) (arg5 : Memref sig .tc .vmem S1x256x256 .f32) (harg5 : arg5.IsWhole)
    (x0 : Vec F S1x256x4 .i32) (x1 : Vec F S1x256x4 .f32) (x2 : Vec F S1x256x4096 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__sample_kernel i arg2 harg2 arg3 harg3 arg4 harg4 arg5 harg5) K := by
  simp only [cc0__sample_kernel_eq_skeleton]; unfold cc0__sample_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the pipeline on core `c`: the arrays as the region finds them; after the body at point `t`
    each input's buffer at its block and the output's at `out0_3` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (the definition projected; the fold `V` stays folded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and
    every final state has every array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.FrameVI.lean ====
/-
  The contents of the idealized kernel program's buffers when its one region is entered: the launch memory after every
  host operation in front of the region, in the order @main runs them (seventeen stretches: @main's own lines and the
  eight clipping calls between them).
-/
import proofs.«113401_j14955076124692_1_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]

/-- The host operations in front of the region, stretch by stretch. -/
abbrev prefixOps : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15, hostOps0_16]

/-- Core c's TensorCore buffers when the region is entered. -/
abbrev V (m : (ℓ : Loc nD τ sig) → Buf (Elt F) ℓ) (c : Dev nD) (b : Ref sig .tc) : Buf (Elt F) ((c : Thread nD τ).loc b) :=
  StableHlo.after (List.flatten (prefixOps (F := F))) (fun b => m (c, b)) b

end Cert.KernelIdeal.Fr

end
-- ==== Proof.FrameI.lean ====
/-
  The frame run of the idealized kernel program: @main is seventeen stretches of host operations and then one
  region on the grid (64, 4). The region's body reads its three input blocks through fixed rectangles and stores
  its whole output block once, so after the body the output's staging buffer is a function (out0_3) of the three
  input blocks alone. From that: the proof data of the pipeline, the body's obligation at every grid point, the
  run of @main to the pipeline library's frame postcondition, and the frame claim itself (the three argument arrays
  end as launched, since no host operation and no window writes them).
-/
import proofs.«113401_j14955076124692_1_alg».proof.Proof.FrameVI
import proofs.«113401_j14955076124692_1_alg».proof.Proof.Gen.KernelIdeal.Skeleton
import proofs.«113401_j14955076124692_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the seventeen stretches followed by the region, so the region is entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixOps
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- An input window's current staging buffer holds its block at every point, whether or not the pipeline fetched it
   there (an unfetched point has the block index of the point before it), for any proof data whose array is `V`'s
   and whose body leaves the block in place. Window 2 is the one fetched only at the points divisible by four. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the frame postcondition: the three arguments are staged by no window, so
    they end as the region found them, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

/-- Column `k` of the two [1,256,4] blocks (corner `k`'s flat index and weight). -/
abbrev rc0 : Rect S1x256x4 := Rect.unit (s := S1x256x4) ![0, 0, 0] S1x256x1.size inb_S1x256x4_S1x256x1_0_0_0
abbrev rc1 : Rect S1x256x4 := Rect.unit (s := S1x256x4) ![0, 0, 1] S1x256x1.size inb_S1x256x4_S1x256x1_0_0_1
abbrev rc2 : Rect S1x256x4 := Rect.unit (s := S1x256x4) ![0, 0, 2] S1x256x1.size inb_S1x256x4_S1x256x1_0_0_2
abbrev rc3 : Rect S1x256x4 := Rect.unit (s := S1x256x4) ![0, 0, 3] S1x256x1.size inb_S1x256x4_S1x256x1_0_0_3
/-- The whole feature block and the whole output block. -/
abbrev rfeat : Rect S1x256x4096 := Rect.unit (s := S1x256x4096) ![0, 0, 0] S1x256x4096.size inb_S1x256x4096_S1x256x4096_0_0_0
abbrev rout : Rect S1x256x256 := Rect.unit (s := S1x256x256) ![0, 0, 0] S1x256x256.size inb_S1x256x256_S1x256x256_0_0_0

/-! ## What the body leaves in the output window's buffer -/

/-- The output staging buffer after the body, from the three input blocks: the one whole-block store, whose payload
    is the product of the weight matrix built from the four index/weight columns with the feature block. -/
def out0_3 (x0 : Vec F S1x256x4 .i32) (x1 : Vec F S1x256x4 .f32) (x2 : Vec F S1x256x4096 .f32) : Vec F S1x256x256 .f32 :=
  View.canon [⟨rout, k0_pay1 (iota .tc S256x4096 32 [1] iota_S256x4096_d1_w32)
    (k0_pay2 (View.ld x0 rc0) (View.ld x1 rc0) (View.ld x0 rc1) (View.ld x1 rc1)) (k0_pay3 (View.ld x1 rc2)) (k0_pay4 (View.ld x0 rc2))
    (Scalar.ofBits .f32 0x00000000#32) (View.ld x0 rc3) (View.ld x1 rc3) (View.ld x2 rfeat)⟩]

/-- The one store covers the buffer. -/
theorem cover0_3 (p0 : Vec F S1x256x256 .f32) (y : S1x256x256.Idx) :
    ∃ pc ∈ ([⟨rout, p0⟩] : List (View.Piece (Elt F) S1x256x256 .f32)), y ∈ pc.1.set :=
  View.cover_of_tiled [⟨rout, p0⟩] S1x256x256.size (by rfl) y

/-! ## The body's triple -/

set_option maxHeartbeats 1000000 in
/-- The body on whole staging memrefs, the inputs' at contents reading `x0`, `x1`, `x2` and the output's at anything,
    runs to the continuation with the inputs' as they were and the output's at `out0_3 x0 x1 x2`. -/
theorem sound_kernel (c : Dev nD) (E : Set ℕ) (i : grid0.Coords) (arg2 : Memref sig .tc .vmem S1x256x4 .i32) (harg2 : arg2.IsWhole) (arg3 : Memref sig .tc .vmem S1x256x4 .f32) (harg3 : arg3.IsWhole) (arg4 : Memref sig .tc .vmem S1x256x4096 .f32) (harg4 : arg4.IsWhole) (arg5 : Memref sig .tc .vmem S1x256x256 .f32) (harg5 : arg5.IsWhole)
    (x0 : Vec F S1x256x4 .i32) (x1 : Vec F S1x256x4 .f32) (x2 : Vec F S1x256x4096 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__sample_kernel i arg2 harg2 arg3 harg3 arg4 harg4 arg5 harg5) K := by
  simp only [cc0__sample_kernel_eq_skeleton]; unfold cc0__sample_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of the pipeline on core `c`: the arrays as the region finds them; after the body at point `t`
    each input's buffer at its block and the output's at `out0_3` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (the definition projected; the fold `V` stays folded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and
    every final state has every array of the pipeline at what the library computes from the proof data and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.LibDotRows.lean ====
/-
  A matrix product whose two operands both carry the contracted axis LAST. For dimension numbers that contract the last
  axis of the left operand `[M, K]` against the last axis of the right operand `[N, K]`, with no batch axis, the
  contraction sum at row `a` and column `b` of the `[M, N]` result is the sum over `k` of `l (a, k) * r (b, k)`: the left
  operand times the transpose of the right one. Stated for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDotRows

open Idealize.ShloMosaic Idealize.ShloMosaic.ValueIdx

/-- The six axis lists of a product that contracts the last axis of both operands. -/
structure IsRows {M K N : Nat} (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {M K N : Nat} (D : DotDims ⟨2, ![M, K]⟩ ⟨2, ![N, K]⟩ ⟨2, ![M, N]⟩) (hD : IsRows D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at the result's row. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
/-- The right operand's ROW is the result's column. -/
theorem rhs0 (j : (⟨2, ![M, N]⟩ : Shape).Idx) (q : D.contr.Idx) : (D.rhsIdx j q 0).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of row `a` of the left operand times row `b` of the right one. -/
theorem rows_sum (l : (⟨2, ![M, K]⟩ : Shape).Idx → EReal) (r : (⟨2, ![N, K]⟩ : Shape).Idx → EReal) (a : Fin M) (b : Fin N) :
    ∑ q : D.contr.Idx, l (D.lhsIdx (ix2 a b) q) * r (D.rhsIdx (ix2 a b) q) = ∑ k : Fin K, l (ix2 a k) * r (ix2 b k) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 b k :=
    funext fun x => Fin.ext (by
      match x with
      | ⟨0, _⟩ => exact rhs0 D hD _ _
      | ⟨1, _⟩ => exact (D.rhsIdx_val_of_single hD.rc _ _).trans hk)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![N, K]⟩ φ₂) (a : Fin M) (b : Fin N) :
    FloatOps.matmul D prec l r (constant ⟨2, ![M, N]⟩ .f32 0x00000000#32) (ix2 a b) = ∑ k : Fin K, l (ix2 a k) * r (ix2 b k) :=
  (Ideal.matmul_constant_zero_apply D prec l r (ix2 a b)).trans (rows_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![N, K]⟩ φ₂) (a : Fin M) (b : Fin N) :
    FloatOps.dotGeneral D prec sched l r (ix2 a b) = ∑ k : Fin K, l (ix2 a k) * r (ix2 b k) :=
  (Ideal.dotGeneral_apply D prec sched l r (ix2 a b)).trans (rows_sum D hD l r a b)

end Cert.LibDotRows

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.LibOneHot.lean ====
/-
  A row of a one-hot matrix built from four (position, weight) pairs, and the law that contracting it with a vector of
  4096 real numbers picks the vector out at the four positions.

  Row entry at column s: the sum over the four pairs k of "weight k if s is position k, else zero", added to the zero
  word left to right, the positions compared as 32-bit words. Multiplied entry by entry with f and summed over s:

      sum over s of (sum over k of [s = j k] * w k) * f s  =  sum over k of  w k * f (j k).

  Pairs that share a position are where the law uses distributivity, which holds for real numbers and not for
  infinities; so the law is stated for entries and weights that are real numbers (each weight a product t * m of two
  reals, the result in the grouping ((f * m) * t) added left to right).
-/
import proofs.«113401_j14955076124692_1_alg».proof.Proof.LibReal
import Idealize.ShloMosaic.PureOps.Ideal.Laws

noncomputable section

open scoped BigOperators

namespace Cert.LibOneHot

open Idealize.ShloMosaic Cert.LibReal

/-- One corner's entry of a row of the one-hot matrix: the weight where the column is the corner's flat position,
    the zero word elsewhere. -/
def hot (s i : BitVec 32) (w : EReal) : EReal :=
  Scalar.select (IntOp.cmpi .eq s i) w (Ideal.ofBits .f32 0x00000000#32)

/-- A row of the one-hot matrix at column word s: the four corners' entries added to the zero word, left to right. -/
def accRow (i0 i1 i2 i3 : BitVec 32) (w0 w1 w2 w3 : EReal) (s : BitVec 32) : EReal :=
  (((Ideal.ofBits .f32 0x00000000#32 + hot s i0 w0) + hot s i1 w1) + hot s i2 w2) + hot s i3 w3

/-- The word of a column number below 4096 equals a 32-bit word exactly when the column is the word's value. -/
theorem ofNat_eq_iff (s j : Fin 4096) (i : BitVec 32) (hj : i.toNat = j.val) : BitVec.ofNat 32 s.val = i ↔ s = j := by
  constructor
  · intro h
    have h2 := congrArg BitVec.toNat h
    rw [BitVec.toNat_ofNat, hj] at h2
    have hs := s.isLt
    apply Fin.ext
    omega
  · intro h
    subst h
    rw [← hj, BitVec.ofNat_toNat, BitVec.setWidth_eq]

/-- One corner's entry of the row, as an if-then-else on the column. -/
theorem hot_eq (s j : Fin 4096) (i : BitVec 32) (hj : i.toNat = j.val) (w : EReal) :
    hot (BitVec.ofNat 32 s.val) i w = if s = j then w else 0 := by
  unfold hot Scalar.select IntOp.cmpi
  rw [Ideal.ofBits_zero_f32]
  by_cases h : s = j
  · have e : BitVec.ofNat 32 s.val = i := (ofNat_eq_iff s j i hj).mpr h
    rw [e, if_pos h]
    simp
  · have e : BitVec.ofNat 32 s.val ≠ i := fun h' => h ((ofNat_eq_iff s j i hj).mp h')
    have e' : (BitVec.ofNat 32 s.val == i) = false := by simpa using e
    rw [e', if_neg h]
    simp

/-- The law over the reals. -/
theorem law_real (f : Fin 4096 → ℝ) (j0 j1 j2 j3 : Fin 4096) (c0 c1 c2 c3 : ℝ) :
    ∑ s : Fin 4096, ((((0 + (if s = j0 then c0 else 0)) + (if s = j1 then c1 else 0)) + (if s = j2 then c2 else 0))
        + (if s = j3 then c3 else 0)) * f s
      = ((c0 * f j0 + c1 * f j1) + c2 * f j2) + c3 * f j3 := by
  simp only [zero_add, add_mul, ite_mul, zero_mul, Finset.sum_add_distrib, Finset.sum_ite_eq', Finset.mem_univ, if_true]

/-- The law on the extended reals, for real entries, weights and masks: the row built from the flat positions i k and
    the products t k * m k, contracted with f, is the four-term sum in the specification's order and grouping. -/
theorem onehot_law (f : Fin 4096 → EReal) (hf : ∀ s, IsReal (f s)) (i0 i1 i2 i3 : BitVec 32) (j0 j1 j2 j3 : Fin 4096)
    (h0 : i0.toNat = j0.val) (h1 : i1.toNat = j1.val) (h2 : i2.toNat = j2.val) (h3 : i3.toNat = j3.val)
    (t0 t1 t2 t3 m0 m1 m2 m3 : EReal) (ht0 : IsReal t0) (ht1 : IsReal t1) (ht2 : IsReal t2) (ht3 : IsReal t3)
    (hm0 : IsReal m0) (hm1 : IsReal m1) (hm2 : IsReal m2) (hm3 : IsReal m3) :
    ∑ s : Fin 4096, accRow i0 i1 i2 i3 (t0 * m0) (t1 * m1) (t2 * m2) (t3 * m3) (BitVec.ofNat 32 s.val) * f s
      = (((f j0 * m0) * t0 + (f j1 * m1) * t1) + (f j2 * m2) * t2) + (f j3 * m3) * t3 := by
  choose fr hfr using hf
  obtain ⟨a0, rfl⟩ := ht0; obtain ⟨a1, rfl⟩ := ht1; obtain ⟨a2, rfl⟩ := ht2; obtain ⟨a3, rfl⟩ := ht3
  obtain ⟨b0, rfl⟩ := hm0; obtain ⟨b1, rfl⟩ := hm1; obtain ⟨b2, rfl⟩ := hm2; obtain ⟨b3, rfl⟩ := hm3
  have hs : ∀ s : Fin 4096,
      accRow i0 i1 i2 i3 ((a0 : EReal) * b0) ((a1 : EReal) * b1) ((a2 : EReal) * b2) ((a3 : EReal) * b3) (BitVec.ofNat 32 s.val) * f s
        = ((((((0 + (if s = j0 then a0 * b0 else 0)) + (if s = j1 then a1 * b1 else 0)) + (if s = j2 then a2 * b2 else 0))
            + (if s = j3 then a3 * b3 else 0)) * fr s : ℝ) : EReal) := by
    intro s
    unfold accRow
    rw [hot_eq s j0 i0 h0, hot_eq s j1 i1 h1, hot_eq s j2 i2 h2, hot_eq s j3 i3 h3, Ideal.ofBits_zero_f32, hfr s]
    push_cast
    simp only [apply_ite (fun x : ℝ => (x : EReal)), EReal.coe_mul, EReal.coe_zero]
  rw [Finset.sum_congr rfl (fun s _ => hs s), sum_coe, law_real, hfr j0, hfr j1, hfr j2, hfr j3]
  refine Eq.trans ?_ (by push_cast; rfl :
    (((fr j0 * b0 * a0 + fr j1 * b1 * a1 + fr j2 * b2 * a2 + fr j3 * b3 * a3 : ℝ)) : EReal) = _)
  congr 1
  ring

end Cert.LibOneHot

end
-- ==== Proof.Spec.lean ====
/-
  Bilinear sampling of a feature map at fractional positions, as one function of the argument arrays.

  For a batch entry n, a sample point p and a channel c, the position is (y, x) = point + 1 * offset; its cell is
  (floor y, floor x) read as 32-bit integers, and its fractional parts ly = y - floor y, lx = x - floor x give the four
  corner weights hy*hx, hy*lx, ly*hx, ly*lx with hy = 1 - ly, hx = 1 - lx. Corner k sits at (y0 + dy k, x0 + dx k);
  a corner outside the 64 x 64 map contributes zero (its mask is 0) and is read at the clipped position. The sampled
  value is the sum over the four corners of  feature * mask * weight, added up left to right.
-/
import Idealize.ShloMosaic.PureOps.Ideal
import Idealize.ShloMosaic.Lib.ValueIdx

noncomputable section

namespace Cert.Bilin

open Idealize.ShloMosaic Idealize.ShloMosaic.ValueIdx

/-- The three argument shapes and the result shape, spelt literally. -/
abbrev SX : Shape := ⟨4, ![64, 256, 64, 64]⟩
abbrev SP : Shape := ⟨3, ![64, 1024, 2]⟩
abbrev SO : Shape := ⟨3, ![64, 1024, 256]⟩

/-- The float word 1.0 as an extended real. -/
def oneW : EReal := Ideal.ofBits .f32 0x3F800000#32

/-- One coordinate of the position: point + 1 * offset. -/
def posOf (P O : EReal) : EReal := P + oneW * O

/-- The floor of a coordinate, as an extended real. -/
def fl (y : EReal) : EReal := Ideal.liftRound Int.floor y

/-- The fractional part of a coordinate, and its complement to one. -/
def lo (y : EReal) : EReal := y - fl y
def hi (y : EReal) : EReal := oneW - lo y

/-- The cell of a coordinate: its floor as a signed 32-bit integer. -/
def cellOf (y : EReal) : BitVec 32 := Ideal.fptosi 32 (fl y)

/-- Corner k's offsets along y and x: (0,0), (0,1), (1,0), (1,1). -/
def dy (k : Fin 4) : BitVec 32 := if k.val / 2 = 0 then 0#32 else 1#32
def dx (k : Fin 4) : BitVec 32 := if k.val % 2 = 0 then 0#32 else 1#32

/-- Both cell coordinates lie in [0, 64), as one bit: ((0 ≤ a ∧ a < 64) ∧ 0 ≤ b) ∧ b < 64, signed. -/
def inb (a b : BitVec 32) : BitVec 1 :=
  IntOp.andi (IntOp.andi (IntOp.andi (IntOp.cmpi .sge a 0#32) (IntOp.cmpi .slt a 64#32)) (IntOp.cmpi .sge b 0#32))
    (IntOp.cmpi .slt b 64#32)

/-- A cell coordinate clipped into [0, 63], signed: min 63 (max 0 a). -/
def clip (a : BitVec 32) : BitVec 32 := IntOp.minsi 63#32 (IntOp.maxsi 0#32 a)

/-- The flat position 64 * row + column of the clipped cell. -/
def flat (a b : BitVec 32) : BitVec 32 := IntOp.addi (IntOp.muli (clip a) 64#32) (clip b)

/-- The mask of a corner as a float: 1 inside the map, 0 outside. -/
def mask (a b : BitVec 32) : EReal := (((inb a b).toNat : ℝ) : EReal)

/-- The weight of corner k from the two coordinates. -/
def wt (y x : EReal) (k : Fin 4) : EReal :=
  (if k.val / 2 = 0 then hi y else lo y) * (if k.val % 2 = 0 then hi x else lo x)

/-- A clipped coordinate as a position in [0, 64). -/
def cl (a : BitVec 32) : Fin 64 := ⟨(clip a).toNat % 64, Nat.mod_lt _ (by decide)⟩

section Arrays
variable (X : SX.Idx → EReal) (P O : SP.Idx → EReal)

/-- The two coordinates of point p of batch entry n. -/
def yOf (n : Fin 64) (p : Fin 1024) : EReal := posOf (P (ix3 n p (0 : Fin 2))) (O (ix3 n p (0 : Fin 2)))
def xOf (n : Fin 64) (p : Fin 1024) : EReal := posOf (P (ix3 n p (1 : Fin 2))) (O (ix3 n p (1 : Fin 2)))

/-- Corner k's cell coordinates. -/
def cy (n : Fin 64) (p : Fin 1024) (k : Fin 4) : BitVec 32 := IntOp.addi (cellOf (yOf P O n p)) (dy k)
def cx (n : Fin 64) (p : Fin 1024) (k : Fin 4) : BitVec 32 := IntOp.addi (cellOf (xOf P O n p)) (dx k)

/-- Corner k's contribution: the feature at the clipped cell, times the mask, times the weight. -/
def term (n : Fin 64) (p : Fin 1024) (c : Fin 256) (k : Fin 4) : EReal :=
  (X (ix4 n c (cl (cy P O n p k)) (cl (cx P O n p k))) * mask (cy P O n p k) (cx P O n p k))
    * wt (yOf P O n p) (xOf P O n p) k

/-- The sampled value: the four corners' contributions added left to right. -/
def G (n : Fin 64) (p : Fin 1024) (c : Fin 256) : EReal :=
  ((term X P O n p c 0 + term X P O n p c 1) + term X P O n p c 2) + term X P O n p c 3

/-- The same as a whole array. -/
def GA : SO.Idx → EReal := fun i => G X P O (i 0) (i 1) (i 2)

end Arrays

end Cert.Bilin

end
-- ==== Proof.Payload.lean ====
/-
  What the kernel body stores, read at one entry, at the exact instance.

  For a tile of 256 points the body builds a [256, 4096] matrix whose row p holds, at column s, the sum over the four
  corners of "weight k of point p if s is the flat position of corner k, else 0", and multiplies it with the
  [256, 4096] feature block (channels by flat positions), contracting the 4096 positions. So entry (p, c) of the stored
  [1, 256, 256] block is the sum over s of  row p at s  times  channel c's feature at s.
-/
import proofs.«113401_j14955076124692_1_alg».proof.Proof.Gen.KernelIdeal.Skeleton
import proofs.«113401_j14955076124692_1_alg».proof.Proof.LibDotRows
import proofs.«113401_j14955076124692_1_alg».proof.Proof.LibOneHot
import proofs.«113401_j14955076124692_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.LibOneHot

section Column
variable {α : Type}

/-- A [1, 256, 1] column laid out as [256], then [256, 1], then repeated along 4096 columns, read at (p, s), is the
    column at p. -/
theorem col_apply (v : S1x256x1.Idx → α) (h1 : S1x256x1.ShapeCasts S256) (h2 : S256.ShapeCasts S256x1)
    (h3 : S256x1.Broadcasts S256x4096) (p : Fin 256) (s : Fin 4096) :
    broadcastTo S256x4096 (shapeCast S256x1 (shapeCast S256 v h1) h2) h3 (ix2 p s) = v (ix3 (0 : Fin 1) p (0 : Fin 1)) := by
  refine (broadcastTo_apply _ h3 (ix2 p s) (ix2 p (0 : Fin 1)) ?_).trans ?_
  · intro a
    match a with
    | ⟨0, _⟩ => show p.val = if (256 : ℕ) = 1 then 0 else p.val; simp
    | ⟨1, _⟩ => show (0 : ℕ) = if (1 : ℕ) = 1 then 0 else s.val; simp
  refine (shapeCast_apply _ h2 (ix2 p (0 : Fin 1)) (ix1 p) ?_).trans ?_
  · rw [Shape.rowMajor_val_one, Shape.rowMajor_val_two]
    show p.val = p.val * 1 + 0
    omega
  refine shapeCast_apply v h1 (ix1 p) (ix3 (0 : Fin 1) p (0 : Fin 1)) ?_
  rw [Shape.rowMajor_val_one, Shape.rowMajor_val_three]
  show (0 * 256 + p.val) * 1 + 0 = p.val
  omega

/-- The same with one more cast of the [256, 1] layout to itself in between. -/
theorem col_apply' (v : S1x256x1.Idx → α) (h1 : S1x256x1.ShapeCasts S256) (h2 : S256.ShapeCasts S256x1)
    (h2' : S256x1.ShapeCasts S256x1) (h3 : S256x1.Broadcasts S256x4096) (p : Fin 256) (s : Fin 4096) :
    broadcastTo S256x4096 (shapeCast S256x1 (shapeCast S256x1 (shapeCast S256 v h1) h2) h2') h3 (ix2 p s)
      = v (ix3 (0 : Fin 1) p (0 : Fin 1)) := by
  rw [shapeCast_self]
  exact col_apply v h1 h2 h3 p s

end Column

/-- The column-number matrix at (p, s) is the word of s. -/
theorem iota_at (h : S256x4096.Iotas .tc 32 [1]) (p : Fin 256) (s : Fin 4096) :
    iota .tc S256x4096 32 [1] h (ix2 p s) = BitVec.ofNat 32 s.val :=
  (iota_single_apply .tc S256x4096 32 1 h (ix2 p s)).trans rfl

/-- The contraction's axis lists: the last axis of both operands. -/
theorem dot_rows : Cert.LibDotRows.IsRows dot_S256x4096_S256x4096_S256x256_1_1_0_0_n_n := ⟨rfl, rfl, rfl, rfl, rfl, rfl⟩

/-- Entry (p, c) of the stored block: the sum over the 4096 flat positions of row p of the one-hot matrix times
    channel c of the feature block. The row is built from the four index columns and the four weight columns the body
    loads; the loads are variables here. -/
theorem pay1_apply (v2 v15 v28 v41 : Vec Ideal S1x256x1 .i32) (v5 v18 v31 v44 : Vec Ideal S1x256x1 .f32)
    (v54 : Vec Ideal S1x256x4096 .f32) (u : Fin 1) (p c : Fin 256) :
    k0_pay1 (F := Ideal) (iota .tc S256x4096 32 [1] iota_S256x4096_d1_w32) (k0_pay2 v2 v5 v15 v18) (k0_pay3 v31) (k0_pay4 v28)
        (Scalar.ofBits .f32 0x00000000#32) v41 v44 v54 (ix3 u p c)
      = ∑ s : Fin 4096,
          accRow (v2 (ix3 (0 : Fin 1) p (0 : Fin 1))) (v15 (ix3 (0 : Fin 1) p (0 : Fin 1))) (v28 (ix3 (0 : Fin 1) p (0 : Fin 1))) (v41 (ix3 (0 : Fin 1) p (0 : Fin 1)))
                 (v5 (ix3 (0 : Fin 1) p (0 : Fin 1))) (v18 (ix3 (0 : Fin 1) p (0 : Fin 1))) (v31 (ix3 (0 : Fin 1) p (0 : Fin 1))) (v44 (ix3 (0 : Fin 1) p (0 : Fin 1)))
                 (BitVec.ofNat 32 s.val)
            * v54 (ix3 (0 : Fin 1) c s) := by
  unfold k0_pay1
  dsimp only
  refine (shapeCast_ab_1ab_apply _ _ u p c).trans ?_
  refine (Cert.LibDotRows.matmul_zero_apply _ dot_rows none _ _ p c).trans ?_
  refine Finset.sum_congr rfl fun s _ => ?_
  refine congrArg₂ (· * ·) ?_ ?_
  · unfold k0_pay2 k0_pay3 k0_pay4
    simp only [truncf, addf, select, cmpi, broadcast, Ideal.truncf_def, Ideal.addf_def, Ideal.ofBits_def, col_apply, col_apply',
      accRow, hot]
    rw [iota_at]
  · exact shapeCast_1ab_ab_apply v54 _ c s

end Cert.KernelIdeal.Pay

end
-- ==== Proof.GridFacts.lean ====
/-
  The printed index maps of the four windows over the 64 x 4 grid, decided once: at grid point t the index, weight and
  result windows sit at (batch entry, tile, 0) and the feature window at (batch entry, 0, 0); and every
  (batch entry, tile) pair is some grid point's.
-/
import proofs.«113401_j14955076124692_1_alg».proof.Proof.Gen.KernelIdeal.Launch

namespace Cert.KernelIdeal.Val

open Cert.KernelIdeal Cert.KernelIdeal.Gen Idealize.ShloMosaic

theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (1 : Fin 3)
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (0 : Fin 3) ≤ 63 ∧ win0_3.index t (1 : Fin 3) ≤ 3 ∧ win0_3.index t (2 : Fin 3) = 0 :=
  (by decide +kernel : ∀ t : Fin grid0.N, _)

theorem idx_onto : ∀ (q0 : Fin 64) (q1 : Fin 4), ∃ t : Fin cfg0.N, win0_3.index t = ![q0.val, q1.val, 0] :=
  (by decide +kernel : ∀ (q0 : Fin 64) (q1 : Fin 4), ∃ t : Fin grid0.N, win0_3.index t = ![q0.val, q1.val, 0])

end Cert.KernelIdeal.Val
-- ==== Proof.Value.lean ====
/-
  The kernel program's result array after its run, as one function of the three arrays its region reads.

  Grid point t = (n, q) of the 64 x 4 grid works on batch entry n and the q-th tile of 256 sample points: it reads
  rows [256 q, 256 q + 256) of the index and weight arrays of entry n, the whole feature block of entry n, and writes
  rows [256 q, 256 q + 256) of entry n of the result. The 256 blocks tile the result array, so after the run every
  entry (n, p, c) holds the contraction of row p of the one-hot matrix with channel c of the feature block.
-/
import proofs.«113401_j14955076124692_1_alg».proof.Proof.FrameI
import proofs.«113401_j14955076124692_1_alg».proof.Proof.Payload
import proofs.«113401_j14955076124692_1_alg».proof.Proof.GridFacts
import Idealize.ShloMosaic.Lib.Pipeline.Value

noncomputable section

open scoped BigOperators

namespace Cert.KernelIdeal.Val

open Cert.KernelIdeal Cert.KernelIdeal.Gen Cert.KernelIdeal.Fr Cert.KernelIdeal.Pay Cert.LibOneHot
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Entry (n, p, c) of the result from the index array a, the weight array w and the feature array f: row p of entry n's
    one-hot matrix contracted with channel c of entry n's features. -/
def GK (a : S64x1024x4.Idx → BitVec 32) (w : S64x1024x4.Idx → EReal) (f : S64x256x4096.Idx → EReal)
    (n : Fin 64) (p : Fin 1024) (c : Fin 256) : EReal :=
  ∑ s : Fin 4096,
    accRow (a (ix3 n p (0 : Fin 4))) (a (ix3 n p (1 : Fin 4))) (a (ix3 n p (2 : Fin 4))) (a (ix3 n p (3 : Fin 4)))
           (w (ix3 n p (0 : Fin 4))) (w (ix3 n p (1 : Fin 4))) (w (ix3 n p (2 : Fin 4))) (w (ix3 n p (3 : Fin 4)))
           (BitVec.ofNat 32 s.val)
      * f (ix3 n c s)

/-- The same as a whole array. -/
def GKA (a : S64x1024x4.Idx → BitVec 32) (w : S64x1024x4.Idx → EReal) (f : S64x256x4096.Idx → EReal) :
    S64x1024x256.Idx → EReal := fun i => GK a w f (i 0) (i 1) (i 2)

/-- A column of a [1, 256, 4] block loaded through the unit-stride rectangle at offset (0, 0, K) reads the block at
    (0, p, K). -/
theorem ld_col {Val : EltTy → Type} {e : EltTy} (x : S1x256x4.Idx → Val e) (K : Nat) (hK : K < 4)
    (inb : ∀ a, (![0, 0, K] : Fin 3 → Nat) a + S1x256x1.size a ≤ S1x256x4.size a) (p : Fin 256) :
    View.ld x (Rect.unit (s := S1x256x4) ![0, 0, K] S1x256x1.size inb) (ix3 (0 : Fin 1) p (0 : Fin 1))
      = x (ix3 (0 : Fin 1) p (⟨K, hK⟩ : Fin 4)) := by
  show x _ = x _
  refine congrArg x (funext fun a => Fin.ext ?_)
  match a with
  | ⟨0, _⟩ => show 0 + 1 * 0 = 0; omega
  | ⟨1, _⟩ => show 0 + 1 * p.val = p.val; omega
  | ⟨2, _⟩ => show K + 1 * 0 = K; omega

theorem hz3 : (![0, 0, 0] : Fin 3 → Nat) = fun _ => 0 := funext fun a => by fin_cases a <;> rfl

/-- What the body leaves in the output block, at (u, p, c), from the three input blocks. -/
theorem out0_3_apply (x0 : Vec Ideal S1x256x4 .i32) (x1 : Vec Ideal S1x256x4 .f32) (x2 : Vec Ideal S1x256x4096 .f32)
    (u : Fin 1) (p c : Fin 256) :
    out0_3 x0 x1 x2 (ix3 u p c)
      = ∑ s : Fin 4096,
          accRow (x0 (ix3 (0 : Fin 1) p (0 : Fin 4))) (x0 (ix3 (0 : Fin 1) p (1 : Fin 4))) (x0 (ix3 (0 : Fin 1) p (2 : Fin 4))) (x0 (ix3 (0 : Fin 1) p (3 : Fin 4)))
                 (x1 (ix3 (0 : Fin 1) p (0 : Fin 4))) (x1 (ix3 (0 : Fin 1) p (1 : Fin 4))) (x1 (ix3 (0 : Fin 1) p (2 : Fin 4))) (x1 (ix3 (0 : Fin 1) p (3 : Fin 4)))
                 (BitVec.ofNat 32 s.val)
            * x2 (ix3 (0 : Fin 1) c s) := by
  unfold out0_3
  rw [View.canon_unit_zero hz3]
  refine (pay1_apply _ _ _ _ _ _ _ _ _ u p c).trans ?_
  rw [View.ld_unit_zero (S := S1x256x4096) hz3]
  rw [ld_col x0 0 (by omega), ld_col x0 1 (by omega), ld_col x0 2 (by omega), ld_col x0 3 (by omega),
    ld_col x1 0 (by omega), ld_col x1 1 (by omega), ld_col x1 2 (by omega), ld_col x1 3 (by omega)]
  rfl

/-! ## From blocks to the array -/

/-- What grid point t writes back is block t of the whole-array function of the three arrays as the region finds them. -/
theorem flushed3_eq (c : Dev nD) (t : Fin cfg0.N) :
    (dats m 0 c).flushed 3 t = ((cfg0.win 3).blk t).view.read (Elt Ideal)
      (GKA (V m c main_v113) (V m c main_v118) (V m c main_v119)) := by
  show (cfg0.win 3).cut (grid0.coords t) ((dats m 0 c).after 3 t) = _
  rw [after0_3]
  obtain ⟨e00, e01, e02, e10, e11, e12, e20, e21, e22, b0, b1, e32⟩ := idx_facts t
  funext j
  obtain ⟨u, p, c', rfl⟩ : ∃ (u : Fin 1) (p : Fin 256) (c' : Fin 256), j = ix3 u p c' := ⟨j 0, j 1, j 2, eq_ix3 j⟩
  show out0_3 (iblk m c 0 t) (iblk m c 1 t) (iblk m c 2 t) (ix3 u p c')
      = GKA (V m c main_v113) (V m c main_v118) (V m c main_v119) (((cfg0.win 3).blk t).view.emb (ix3 u p c'))
  refine (out0_3_apply (iblk m c 0 t) (iblk m c 1 t) (iblk m c 2 t) u p c').trans ?_
  have hu : u.val = 0 := by omega
  -- the array index under the block's entry (u, p, c'): batch entry n, row 256 q + p, channel c'
  have k0 : ((((cfg0.win 3).blk t).view.emb (ix3 u p c')) 0).val = win0_3.index t (0 : Fin 3) := by
    show win0_3.index t (0 : Fin 3) * 1 + 1 * u.val = _
    omega
  have k1 : ((((cfg0.win 3).blk t).view.emb (ix3 u p c')) 1).val = win0_3.index t (1 : Fin 3) * 256 + p.val := by
    show win0_3.index t (1 : Fin 3) * 256 + 1 * p.val = _
    omega
  have k2 : ((((cfg0.win 3).blk t).view.emb (ix3 u p c')) 2).val = c'.val := by
    show win0_3.index t (2 : Fin 3) * 256 + 1 * c'.val = _
    omega
  -- the three input blocks read at the entries the body uses are the arrays at that index
  have rd0 : ∀ K : Fin 4, iblk m c 0 t (ix3 (0 : Fin 1) p K)
      = (V m c main_v113 : S64x1024x4.Idx → BitVec 32)
          (ix3 ((((cfg0.win 3).blk t).view.emb (ix3 u p c')) 0) ((((cfg0.win 3).blk t).view.emb (ix3 u p c')) 1) K) := by
    intro K
    show (V m c main_v113 : S64x1024x4.Idx → BitVec 32) (((cfg0.win 0).blk t).view.emb (ix3 (0 : Fin 1) p K)) = _
    refine congrArg _ (funext fun a => Fin.ext ?_)
    match a with
    | ⟨0, _⟩ => show win0_0.index t (0 : Fin 3) * 1 + 1 * 0 = _; rw [k0]; omega
    | ⟨1, _⟩ => show win0_0.index t (1 : Fin 3) * 256 + 1 * p.val = _; rw [k1]; omega
    | ⟨2, _⟩ => show win0_0.index t (2 : Fin 3) * 4 + 1 * K.val = K.val; omega
  have rd1 : ∀ K : Fin 4, iblk m c 1 t (ix3 (0 : Fin 1) p K)
      = (V m c main_v118 : S64x1024x4.Idx → EReal)
          (ix3 ((((cfg0.win 3).blk t).view.emb (ix3 u p c')) 0) ((((cfg0.win 3).blk t).view.emb (ix3 u p c')) 1) K) := by
    intro K
    show (V m c main_v118 : S64x1024x4.Idx → EReal) (((cfg0.win 1).blk t).view.emb (ix3 (0 : Fin 1) p K)) = _
    refine congrArg _ (funext fun a => Fin.ext ?_)
    match a with
    | ⟨0, _⟩ => show win0_1.index t (0 : Fin 3) * 1 + 1 * 0 = _; rw [k0]; omega
    | ⟨1, _⟩ => show win0_1.index t (1 : Fin 3) * 256 + 1 * p.val = _; rw [k1]; omega
    | ⟨2, _⟩ => show win0_1.index t (2 : Fin 3) * 4 + 1 * K.val = K.val; omega
  have rd2 : ∀ s : Fin 4096, iblk m c 2 t (ix3 (0 : Fin 1) c' s)
      = (V m c main_v119 : S64x256x4096.Idx → EReal)
          (ix3 ((((cfg0.win 3).blk t).view.emb (ix3 u p c')) 0) ((((cfg0.win 3).blk t).view.emb (ix3 u p c')) 2) s) := by
    intro s
    show (V m c main_v119 : S64x256x4096.Idx → EReal) (((cfg0.win 2).blk t).view.emb (ix3 (0 : Fin 1) c' s)) = _
    refine congrArg _ (funext fun a => Fin.ext ?_)
    match a with
    | ⟨0, _⟩ => show win0_2.index t (0 : Fin 3) * 1 + 1 * 0 = _; rw [k0]; omega
    | ⟨1, _⟩ => show win0_2.index t (1 : Fin 3) * 256 + 1 * c'.val = _; rw [k2]; omega
    | ⟨2, _⟩ => show win0_2.index t (2 : Fin 3) * 4096 + 1 * s.val = s.val; omega
  unfold GKA GK
  refine Finset.sum_congr rfl fun s _ => ?_
  rw [rd0 0, rd0 1, rd0 2, rd0 3, rd1 0, rd1 1, rd1 2, rd1 3, rd2 s]

/-- An index of the result array is in grid point t's block iff each coordinate is in the block's range on its axis. -/
theorem mem_blk3 (t : Fin cfg0.N) (i : S64x1024x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v120).slice (win0_3.rect t)).set ↔ _
  rw [View.set_slice_whole, Rect.mem_set_unit]
  exact Iff.rfl

/-- The 256 blocks tile the result array: entry (n, r, c) lies in the block of the grid point (n, r / 256). -/
theorem cover3 (i : S64x1024x256.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 256 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The result array after the run: the whole-array function of the three arrays the region reads. -/
theorem final3 (c : Dev nD) :
    (dats m 0 c).arrAt 3 cfg0.N = GKA (V m c main_v113) (V m c main_v118) (V m c main_v119) :=
  (dats m 0 c).arrAt_eq_of_cover 3 (GKA (V m c main_v113) (V m c main_v118) (V m c main_v119))
    (fun t _ => flushed3_eq m c t) cover3

/-- The kernel program's run, read: the result array at that function, the three arguments as launched. -/
theorem run : θ_run defs (onTc (τ := τ) (main (F := Ideal))) ⟨m, fun _ => 0, ρ⟩ fun r => ∀ c : Dev nD,
      r.2.mem ((c.tc : Thread nD τ).loc main_v120) = GKA (V m c main_v113) (V m c main_v118) (V m c main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Val

end
-- ==== Proof.SpecFacts.lean ====
/-
  Arithmetic facts about the clipped cell coordinates of the specification: a clipped coordinate, read signed, lies in
  [0, 63]; so it is its own unsigned value, a position of the 64-wide axis, and the flat position 64 * row + column of
  two clipped coordinates does not wrap and lies below 4096.
-/
import proofs.«113401_j14955076124692_1_alg».proof.Proof.Spec

noncomputable section

namespace Cert.Bilin

open Idealize.ShloMosaic

theorem toInt_cond (x : BitVec 32) : x.toInt = if 2 * x.toNat < 4294967296 then (x.toNat : Int) else (x.toNat : Int) - 4294967296 := by
  have := BitVec.toInt_eq_toNat_cond x
  simpa using this

/-- A clipped coordinate is one of: 0 (the coordinate was negative), 63 (it was above 63), or the coordinate itself
    when that lies in [0, 63]. In each case its signed value lies in [0, 63]. -/
theorem clip_toInt (a : BitVec 32) : 0 ≤ (clip a).toInt ∧ (clip a).toInt ≤ 63 := by
  unfold clip IntOp.minsi IntOp.maxsi
  have h0 : (0#32 : BitVec 32).toInt = 0 := by decide
  have h63 : (63#32 : BitVec 32).toInt = 63 := by decide
  by_cases h1 : a.slt 0#32 = true
  · rw [if_pos h1]
    have : (63#32 : BitVec 32).slt 0#32 = false := by decide
    rw [this]; simp only [Bool.false_eq_true, if_false]
    rw [h0]; omega
  · rw [if_neg h1]
    by_cases h2 : (63#32 : BitVec 32).slt a = true
    · rw [if_pos h2, h63]; omega
    · rw [if_neg h2]
      simp only [BitVec.slt, decide_eq_true_eq, h0, h63] at h1 h2
      omega

theorem clip_toInt_nonneg (a : BitVec 32) : 0 ≤ (clip a).toInt := (clip_toInt a).1
theorem clip_toInt_le (a : BitVec 32) : (clip a).toInt ≤ 63 := (clip_toInt a).2

/-- Read unsigned, a clipped coordinate is below 64, -/
theorem clip_toNat_lt (a : BitVec 32) : (clip a).toNat < 64 := by
  have h := clip_toInt a
  have hc := toInt_cond (clip a)
  have hlt := (clip a).isLt
  split_ifs at hc with h2 <;> omega

/-- and its signed and unsigned values agree. -/
theorem clip_toInt_eq (a : BitVec 32) : (clip a).toInt = ((clip a).toNat : Int) := by
  have h := clip_toInt a
  have hc := toInt_cond (clip a)
  have hlt := (clip a).isLt
  split_ifs at hc with h2 <;> omega

/-- The position of a clipped coordinate on the 64-wide axis is its unsigned value. -/
theorem cl_val (a : BitVec 32) : (cl a).val = (clip a).toNat := by
  unfold cl
  exact Nat.mod_eq_of_lt (clip_toNat_lt a)

/-- The flat position of two clipped coordinates, read unsigned, is 64 * row + column: the word arithmetic does not wrap. -/
theorem flat_toNat (a b : BitVec 32) : (flat a b).toNat = (cl a).val * 64 + (cl b).val := by
  unfold flat IntOp.addi IntOp.muli
  rw [cl_val, cl_val]
  have ha := clip_toNat_lt a
  have hb := clip_toNat_lt b
  rw [BitVec.toNat_add, BitVec.toNat_mul]
  have : (64#32 : BitVec 32).toNat = 64 := by decide
  rw [this]
  omega

theorem flat_lt (a b : BitVec 32) : (flat a b).toNat < 4096 := by
  rw [flat_toNat]
  have ha := (cl a).isLt
  have hb := (cl b).isLt
  omega

/-- The mask of a corner is the real number 0 or 1. -/
theorem mask_eq (a b : BitVec 32) : mask a b = 0 ∨ mask a b = 1 := by
  unfold mask
  rcases BitVec.eq_zero_or_eq_one (inb a b) with h | h <;> rw [h]
  · left; simp
  · right; simp

end Cert.Bilin

end
-- ==== Proof.SpecReal.lean ====
/-
  The specification's weights and masks are real numbers when the coordinates are: the float word 1.0 is the number 1,
  the floor of a real number is an integer, a fractional part and its complement to one are differences of real
  numbers, a corner weight is a product of two of those, and a mask is the number 0 or 1.
-/
import proofs.«113401_j14955076124692_1_alg».proof.Proof.Spec
import proofs.«113401_j14955076124692_1_alg».proof.Proof.SpecFacts
import proofs.«113401_j14955076124692_1_alg».proof.Proof.LibReal

noncomputable section

namespace Cert.Bilin

open Idealize.ShloMosaic Idealize.ShloMosaic.ValueIdx
open Cert.LibReal

/-- The float word 1.0 is the real number 1. -/
theorem oneW_real : IsReal oneW := by
  unfold oneW; rw [ofBits_one]; exact IsReal.one

/-- A position coordinate, point + 1 * offset, of real numbers is real. -/
theorem posOf_real {P O : EReal} (hP : IsReal P) (hO : IsReal O) : IsReal (posOf P O) := by
  unfold posOf; exact hP.add (oneW_real.mul hO)

/-- The floor of a real number is an integer, so real. -/
theorem fl_real {y : EReal} (h : IsReal y) : IsReal (fl y) := by
  obtain ⟨r, rfl⟩ := h
  exact ⟨((Int.floor r : ℤ) : ℝ), rfl⟩

/-- The fractional part of a real number, and its complement to one, are real. -/
theorem lo_real {y : EReal} (h : IsReal y) : IsReal (lo y) := by
  unfold lo; exact h.sub (fl_real h)
theorem hi_real {y : EReal} (h : IsReal y) : IsReal (hi y) := by
  unfold hi; exact oneW_real.sub (lo_real h)

/-- Each corner weight is a product of two such numbers. -/
theorem wt_real {y x : EReal} (hy : IsReal y) (hx : IsReal x) (k : Fin 4) : IsReal (wt y x k) := by
  unfold wt
  refine IsReal.mul ?_ ?_
  · split_ifs
    · exact hi_real hy
    · exact lo_real hy
  · split_ifs
    · exact hi_real hx
    · exact lo_real hx

/-- A mask is the real number 0 or 1. -/
theorem mask_real (a b : BitVec 32) : IsReal (mask a b) := ⟨_, rfl⟩

section Arrays
variable (P O : SP.Idx → EReal)

/-- The two coordinates of a sample point of real points and offsets are real. -/
theorem yOf_real (hP : ∀ i, IsReal (P i)) (hO : ∀ i, IsReal (O i)) (n : Fin 64) (p : Fin 1024) : IsReal (yOf P O n p) := by
  unfold yOf; exact posOf_real (hP _) (hO _)
theorem xOf_real (hP : ∀ i, IsReal (P i)) (hO : ∀ i, IsReal (O i)) (n : Fin 64) (p : Fin 1024) : IsReal (xOf P O n p) := by
  unfold xOf; exact posOf_real (hP _) (hO _)

end Arrays

end Cert.Bilin

end
-- ==== Proof.Bridge.lean ====
/-
  The kernel's whole-array function is the specification, for real argument arrays.

  With the index array holding the four corners' flat positions 64 * row + column, the weight array holding
  weight * mask, and the feature array holding the feature map with its two spatial axes merged, row p of the one-hot
  matrix contracted with channel c picks the feature at each corner's clipped cell times that corner's weight and
  mask: the law of the one-hot rows, which needs real entries because corners that share a cell are added before
  they are multiplied.
-/
import proofs.«113401_j14955076124692_1_alg».proof.Proof.Value
import proofs.«113401_j14955076124692_1_alg».proof.Proof.SpecFacts
import proofs.«113401_j14955076124692_1_alg».proof.Proof.SpecReal

noncomputable section

open scoped BigOperators

namespace Cert.KernelIdeal.Val

open Cert.KernelIdeal Cert.KernelIdeal.Pay Cert.Bilin Cert.LibReal Cert.LibOneHot
open Idealize.ShloMosaic Idealize.ShloMosaic.ValueIdx

/-- The flat position of a corner as a column of the 4096-wide axis. -/
def col (a b : BitVec 32) : Fin 4096 := ⟨(cl a).val * 64 + (cl b).val, by have := (cl a).isLt; have := (cl b).isLt; omega⟩

theorem col_div (a b : BitVec 32) : (col a b).val / 64 = (cl a).val := by
  unfold col; have := (cl b).isLt; show ((cl a).val * 64 + (cl b).val) / 64 = _; omega
theorem col_mod (a b : BitVec 32) : (col a b).val % 64 = (cl b).val := by
  unfold col; have := (cl b).isLt; show ((cl a).val * 64 + (cl b).val) % 64 = _; omega

theorem GK_is_G (a : S64x1024x4.Idx → BitVec 32) (w : S64x1024x4.Idx → EReal) (f : S64x256x4096.Idx → EReal)
    (X : SX.Idx → EReal) (P O : SP.Idx → EReal)
    (ha : ∀ (n : Fin 64) (p : Fin 1024) (k : Fin 4), a (ix3 n p k) = flat (cy P O n p k) (cx P O n p k))
    (hw : ∀ (n : Fin 64) (p : Fin 1024) (k : Fin 4),
      w (ix3 n p k) = wt (yOf P O n p) (xOf P O n p) k * mask (cy P O n p k) (cx P O n p k))
    (hf : ∀ (n : Fin 64) (ch : Fin 256) (s : Fin 4096),
      f (ix3 n ch s) = X (ix4 n ch ⟨s.val / 64, by have := s.isLt; omega⟩ ⟨s.val % 64, Nat.mod_lt _ (by decide)⟩))
    (hX : ∀ i, IsReal (X i)) (hP : ∀ i, IsReal (P i)) (hO : ∀ i, IsReal (O i)) :
    GKA a w f = GA X P O := by
  funext i
  obtain ⟨n, p, ch, rfl⟩ : ∃ (n : Fin 64) (p : Fin 1024) (ch : Fin 256), i = ix3 n p ch := ⟨i 0, i 1, i 2, eq_ix3 i⟩
  show GK a w f n p ch = G X P O n p ch
  unfold GK
  rw [ha n p 0, ha n p 1, ha n p 2, ha n p 3, hw n p 0, hw n p 1, hw n p 2, hw n p 3]
  rw [Finset.sum_congr rfl (fun s _ => by rw [hf n ch s])]
  have hy := yOf_real P O hP hO n p
  have hx := xOf_real P O hP hO n p
  refine (onehot_law (fun s : Fin 4096 => X (ix4 n ch ⟨s.val / 64, by have := s.isLt; omega⟩ ⟨s.val % 64, Nat.mod_lt _ (by decide)⟩))
    (fun s => hX _) _ _ _ _
    (col (cy P O n p 0) (cx P O n p 0)) (col (cy P O n p 1) (cx P O n p 1))
    (col (cy P O n p 2) (cx P O n p 2)) (col (cy P O n p 3) (cx P O n p 3))
    (flat_toNat _ _) (flat_toNat _ _) (flat_toNat _ _) (flat_toNat _ _)
    _ _ _ _ _ _ _ _
    (wt_real hy hx 0) (wt_real hy hx 1) (wt_real hy hx 2) (wt_real hy hx 3)
    (mask_real _ _) (mask_real _ _) (mask_real _ _) (mask_real _ _)).trans ?_
  unfold G term
  have e : ∀ k : Fin 4, X (ix4 n ch ⟨(col (cy P O n p k) (cx P O n p k)).val / 64, by have := (col (cy P O n p k) (cx P O n p k)).isLt; omega⟩
        ⟨(col (cy P O n p k) (cx P O n p k)).val % 64, Nat.mod_lt _ (by decide)⟩)
      = X (ix4 n ch (cl (cy P O n p k)) (cl (cx P O n p k))) := by
    intro k
    refine congrArg X (funext fun x => ?_)
    match x with
    | ⟨0, _⟩ => rfl
    | ⟨1, _⟩ => rfl
    | ⟨2, _⟩ => exact Fin.ext (col_div _ _)
    | ⟨3, _⟩ => exact Fin.ext (col_mod _ _)
  simp only [e]

end Cert.KernelIdeal.Val

end
-- ==== Proof.PreReal.lean ====
/-
  The precondition "every entry of each of the three argument arrays has absolute value below plus infinity" makes
  every entry a real number: the predicate is the conjunction of three all-reductions by "and" of the entrywise tests
  |a| < +inf, so each test holds at every index, and an extended real whose absolute value is below plus infinity is real.
-/
import proofs.«113401_j14955076124692_1_alg».proof.Proof.Gen.Pre_finite_inputs
import proofs.«113401_j14955076124692_1_alg».proof.Proof.LibReal
import Idealize.ShloMosaic.Lib.ReduceAll

noncomputable section

namespace Cert.Bilin

open Idealize.ShloMosaic Idealize.ShloMosaic.ValueIdx
open Cert.LibReal

/-- The rank-zero shape has one index. -/
instance subsingleton_scalar_idx : Subsingleton Cert.Pre_finite_inputs.S_.Idx := ⟨fun a b => funext fun d => d.elim0⟩

/-- Under the precondition every entry of the feature map, of the points and of the offsets is a real number. -/
theorem pre_real (X : FVec Ideal Cert.Pre_finite_inputs.S64x256x64x64 .f32) (P O : FVec Ideal Cert.Pre_finite_inputs.S64x1024x2 .f32)
    (h : Cert.Pre_finite_inputs.fn (F := Ideal) X P O = fun _ => 1#1) :
    (∀ i, IsReal (X i)) ∧ (∀ i, IsReal (P i)) ∧ (∀ i, IsReal (O i)) := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  refine ⟨fun i => ?_, fun i => ?_, fun i => ?_⟩
  · exact entry_real X _ i (Host.reduce_andi_all _ _ _ _ _ h1 i)
  · exact entry_real P _ i (Host.reduce_andi_all _ _ _ _ _ h2 i)
  · exact entry_real O _ i (Host.reduce_andi_all _ _ _ _ _ h3 i)

end Cert.Bilin

end
-- ==== Proof.KHost1.lean ====
/-
  The feature map as the region receives it. The last host operation in front of the region reshapes the feature map
  [64, 256, 64, 64] to [64, 256, 4096], merging the two spatial axes; no earlier operation writes the argument. Row-major
  order puts entry (n, ch, r, q) of the map at position ((n 256 + ch) 64 + r) 64 + q, which is where entry
  (n, ch, 64 r + q) of the reshaped array sits: the reshaped array at (n, ch, s) is the map at (n, ch, s / 64, s % 64).
-/
import proofs.«113401_j14955076124692_1_alg».proof.Proof.FrameVI
import Idealize.ShloMosaic.Lib.Pipeline.Value
import Idealize.ShloMosaic.Lib.ValueIdx

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

set_option maxRecDepth 4000 in
/-- The reshaped feature map as a whole array: the reshape of the argument. -/
theorem v119_whole :
    (Fr.V (F := Ideal) m c main_v119 : S64x256x4096.Idx → EReal)
      = shapeCast S64x256x4096 (m ((c : Thread nD τ).loc main_arg0) : S64x256x64x64.Idx → EReal)
          shapeCasts_S64x256x64x64_S64x256x4096 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

/-- The reshaped feature map at (n, ch, s): the map at (n, ch, s / 64, s % 64). -/
theorem v119_at (n : Fin 64) (ch : Fin 256) (s : Fin 4096) :
    (Fr.V (F := Ideal) m c main_v119 : S64x256x4096.Idx → EReal) (ValueIdx.ix3 n ch s)
      = (m ((c : Thread nD τ).loc main_arg0) : S64x256x64x64.Idx → EReal)
          (ValueIdx.ix4 n ch ⟨s.val / 64, by have := s.isLt; omega⟩ ⟨s.val % 64, by omega⟩) := by
  rw [v119_whole]
  refine shapeCast_apply (s := S64x256x64x64) (t := S64x256x4096) _ _ _ _ ?_
  rw [Shape.rowMajor_val_four, Shape.rowMajor_val_three]
  show ((n.val * 256 + ch.val) * 64 + s.val / 64) * 64 + s.val % 64 = (n.val * 256 + ch.val) * 4096 + s.val
  omega

end Cert.KernelIdeal.KHost

end
-- ==== Proof.LibBatch.lean ====
/-
  Host layouts and sums of batched arrays read at an index.

  * `[A, B]` laid out as `[A, B, 1]` and as `[A, 1, B]`; `[A, B, 1]` repeated along a last axis of `C` lanes and
    `[A, 1, B]` repeated down a middle axis of `C` rows; a scalar repeated over any shape;
  * the host's float sum over the last axis of `[A, B, C]`: the initial value plus the sum over the coordinate;
  * a four-piece concatenation along the last axis of equal pieces of `D` lanes: entry `(a, b, n * D + d)` is piece `n` at
    `(a, b, d)`.
-/
import Idealize.ShloMosaic.Lib.Pipeline.Value
import Idealize.ShloMosaic.Lib.ValueIdx
import Idealize.ShloMosaic.PureOps.Ideal.Laws

noncomputable section

open scoped BigOperators

namespace Cert.LibBatch

open Idealize.ShloMosaic Idealize.ShloMosaic.ValueIdx

variable {α : Type}

/-- `[A, B]` laid out as `[A, B, 1]` reads, at `(a, b, u)`, the array at `(a, b)`. -/
theorem broadcastInDim_ab_ab1_apply {A B : ℕ} (x : (⟨2, ![A, B]⟩ : Shape).Idx → α)
    (h : (⟨2, ![A, B]⟩ : Shape).BroadcastsInDim ⟨3, ![A, B, 1]⟩ ![0, 1]) (a : Fin A) (b : Fin B) (u : Fin 1) :
    broadcastInDim ⟨3, ![A, B, 1]⟩ ![0, 1] h x (ix3 a b u) = x (ix2 a b) := by
  refine broadcastInDim_apply ![0, 1] h x (ix3 a b u) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- `[A, B]` laid out as `[A, 1, B]` reads, at `(a, u, b)`, the array at `(a, b)`. -/
theorem broadcastInDim_ab_a1b_apply {A B : ℕ} (x : (⟨2, ![A, B]⟩ : Shape).Idx → α)
    (h : (⟨2, ![A, B]⟩ : Shape).BroadcastsInDim ⟨3, ![A, 1, B]⟩ ![0, 2]) (a : Fin A) (u : Fin 1) (b : Fin B) :
    broadcastInDim ⟨3, ![A, 1, B]⟩ ![0, 2] h x (ix3 a u b) = x (ix2 a b) := by
  refine broadcastInDim_apply ![0, 2] h x (ix3 a u b) (ix2 a b) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl

/-- `[A, B, 1]` repeated along `C` lanes reads, at `(a, b, c)`, the array at `(a, b, 0)`. -/
theorem broadcastInDim_ab1_abc_apply {A B C : ℕ} (v : (⟨3, ![A, B, 1]⟩ : Shape).Idx → α)
    (h : (⟨3, ![A, B, 1]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 a b (0 : Fin 1)) := by
  refine broadcastInDim_apply ![0, 1, 2] h v (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

/-- `[A, 1, B]` repeated down `C` rows reads, at `(a, c, b)`, the array at `(a, 0, b)`. -/
theorem broadcastInDim_a1b_acb_apply {A B C : ℕ} (v : (⟨3, ![A, 1, B]⟩ : Shape).Idx → α)
    (h : (⟨3, ![A, 1, B]⟩ : Shape).BroadcastsInDim ⟨3, ![A, C, B]⟩ ![0, 1, 2]) (a : Fin A) (c : Fin C) (b : Fin B) :
    broadcastInDim ⟨3, ![A, C, B]⟩ ![0, 1, 2] h v (ix3 a c b) = v (ix3 a (0 : Fin 1) b) := by
  refine broadcastInDim_apply ![0, 1, 2] h v (ix3 a c b) (ix3 a (0 : Fin 1) b) fun ax => ?_
  match ax with
  | ⟨0, _⟩ =>
    show a.val = if A = 1 then 0 else a.val
    split
    · have := a.isLt; omega
    · rfl
  | ⟨1, _⟩ => rfl
  | ⟨2, _⟩ =>
    show b.val = if B = 1 then 0 else b.val
    split
    · have := b.isLt; omega
    · rfl

/-- A scalar repeated over a shape reads the scalar everywhere. -/
theorem broadcastInDim_scalar_apply {t : Shape} (x : (⟨0, ![]⟩ : Shape).Idx → α)
    (dims : Fin 0 → Fin t.rank) (h : (⟨0, ![]⟩ : Shape).BroadcastsInDim t dims) (i : t.Idx) :
    broadcastInDim t dims h x i = x ix0 :=
  broadcastInDim_apply dims h x i ix0 fun ax => ax.elim0

/-- Reducing `[A, B, C]` over its last axis: the source index over `(a, b)` with coordinate `k` is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k :=
  funext fun d => Fin.ext (by
    match d with
    | ⟨0, _⟩ => rfl
    | ⟨1, _⟩ => rfl
    | ⟨2, _⟩ => rfl)

/-- The host's float sum over the last axis of `[A, B, C]`: entry `(a, b)` is the initial value plus the sum over `k` of
    `(a, b, k)`. -/
theorem hostReduceAdd_last3_apply {A B C : ℕ} (x : (⟨3, ![A, B, C]⟩ : Shape).Idx → EReal) (init : EReal)
    (h' : (⟨3, ![A, B, C]⟩ : Shape).ReducesTo [2] ⟨2, ![A, B]⟩) (h : (⟨3, ![A, B, C]⟩ : Shape).Reduces [2] ⟨2, ![A, B]⟩)
    (a : Fin A) (b : Fin B) :
    Ideal.hostReduceAdd h' x init (ix2 a b) = init + ∑ k : Fin C, x (ix3 a b k) :=
  (Ideal.hostReduceAdd_single h' h x init (ix2 a b)).trans
    (congrArg (init + ·) (Finset.sum_congr rfl fun k _ => congrArg x (lift_last3 h a b k)))

/-- Four equal pieces of `D` lanes joined along the last axis: entry `(a, b, n * D + d)` of the join is piece `n` at
    `(a, b, d)`. -/
theorem concatenate4_last_apply {A B D T : ℕ} (x0 x1 x2 x3 : (⟨3, ![A, B, D]⟩ : Shape).Idx → α)
    (h : Shape.Concatenates (([⟨⟨3, ![A, B, D]⟩, x0⟩, ⟨⟨3, ![A, B, D]⟩, x1⟩, ⟨⟨3, ![A, B, D]⟩, x2⟩, ⟨⟨3, ![A, B, D]⟩, x3⟩] :
      List ((s : Shape) × (s.Idx → α))).map (·.1)) ⟨3, ![A, B, T]⟩ 2)
    (a : Fin A) (b : Fin B) (d : Fin D) (c : Fin T) (n : Fin 4) (hc : c.val = n.val * D + d.val) :
    concatenate ⟨3, ![A, B, T]⟩ 2 [⟨⟨3, ![A, B, D]⟩, x0⟩, ⟨⟨3, ![A, B, D]⟩, x1⟩, ⟨⟨3, ![A, B, D]⟩, x2⟩, ⟨⟨3, ![A, B, D]⟩, x3⟩] h (ix3 a b c)
      = (![x0, x1, x2, x3] n) (ix3 a b d) := by
  have hoff : ∀ ax : Fin 3, Fin.cast (rfl : (3 : ℕ) = 3) ax ≠ (2 : Fin 3) →
      ((ix3 a b d) ax).val = ((ix3 a b c) (Fin.cast rfl ax)).val := by
    intro ax hax
    match ax with
    | ⟨0, _⟩ => rfl
    | ⟨1, _⟩ => rfl
    | ⟨2, _⟩ => exact absurd rfl hax
  match n with
  | ⟨0, _⟩ =>
    have hc' : c.val = 0 * D + d.val := hc
    refine concatenate_apply_piece 2 _ h _ 0 (Nat.succ_pos _) _ _ rfl rfl _ rfl (ix3 a b d) hoff ?_
    show 0 + d.val = c.val
    omega
  | ⟨1, _⟩ =>
    have hc' : c.val = 1 * D + d.val := hc
    refine concatenate_apply_piece 2 _ h _ 1 (by show 1 < 4; omega) _ _ rfl rfl _ rfl (ix3 a b d) hoff ?_
    show D + 0 + d.val = c.val
    omega
  | ⟨2, _⟩ =>
    have hc' : c.val = 2 * D + d.val := hc
    refine concatenate_apply_piece 2 _ h _ 2 (by show 2 < 4; omega) _ _ rfl rfl _ rfl (ix3 a b d) hoff ?_
    show D + (D + 0) + d.val = c.val
    omega
  | ⟨3, _⟩ =>
    have hc' : c.val = 3 * D + d.val := hc
    refine concatenate_apply_piece 2 _ h _ 3 (by show 3 < 4; omega) _ _ rfl rfl _ rfl (ix3 a b d) hoff ?_
    show D + (D + (D + 0)) + d.val = c.val
    omega

end Cert.LibBatch

end
-- ==== Proof.KHostA.lean ====
/-
  The arrays the host computes in front of the region, as functions of the point array P and the offset array O, each
  read at an index.

  The position array is P + 1 * O; its two coordinate planes y and x are [64, 1024] arrays. From them: the fractional
  parts ly = y - floor y and lx = x - floor x, their complements hy = 1 - ly and hx = 1 - lx, and the cells y0 = floor y
  and x0 = floor x as 32-bit integers. A corner adds a constant a to y0 and a constant b to x0; its mask bit says both
  sums lie in [0, 64), its flat position is 64 * (the first sum clipped into [0, 63]) + (the second sum clipped), and its
  weight is a product of two of ly, hy, lx, hx times the mask bit as a float. The region's two index arrays put the four
  corners' flat positions, and their weights, side by side along a last axis of four lanes.

  Every array here is elementwise in (n, p), so each one read at (n, p) is the specification's scalar of the same name
  at the two coordinates of point p of batch entry n.
-/
import proofs.«113401_j14955076124692_1_alg».proof.Proof.Gen.KernelIdeal
import proofs.«113401_j14955076124692_1_alg».proof.Proof.Spec
import proofs.«113401_j14955076124692_1_alg».proof.Proof.LibBatch

noncomputable section

namespace Cert.KernelIdeal.KHost

open Idealize.ShloMosaic Idealize.ShloMosaic.ValueIdx
open Cert.KernelIdeal Cert.KernelIdeal.Gen
open Cert.Bilin (oneW posOf fl lo hi cellOf inb clip flat mask wt yOf xOf cy cx dy dx)

/-! ## The specification's corner constants and weights at each of the four corners -/

theorem dy_0 (h : 0 < 4) : dy ⟨0, h⟩ = 0#32 := by simp [dy]
theorem dy_1 (h : 1 < 4) : dy ⟨1, h⟩ = 0#32 := by simp [dy]
theorem dy_2 (h : 2 < 4) : dy ⟨2, h⟩ = 1#32 := by simp [dy]
theorem dy_3 (h : 3 < 4) : dy ⟨3, h⟩ = 1#32 := by simp [dy]
theorem dx_0 (h : 0 < 4) : dx ⟨0, h⟩ = 0#32 := by simp [dx]
theorem dx_1 (h : 1 < 4) : dx ⟨1, h⟩ = 1#32 := by simp [dx]
theorem dx_2 (h : 2 < 4) : dx ⟨2, h⟩ = 0#32 := by simp [dx]
theorem dx_3 (h : 3 < 4) : dx ⟨3, h⟩ = 1#32 := by simp [dx]
theorem wt_0 (y x : EReal) (h : 0 < 4) : wt y x ⟨0, h⟩ = hi y * hi x := by simp [wt]
theorem wt_1 (y x : EReal) (h : 1 < 4) : wt y x ⟨1, h⟩ = hi y * lo x := by simp [wt]
theorem wt_2 (y x : EReal) (h : 2 < 4) : wt y x ⟨2, h⟩ = lo y * hi x := by simp [wt]
theorem wt_3 (y x : EReal) (h : 3 < 4) : wt y x ⟨3, h⟩ = lo y * lo x := by simp [wt]

/-! ## The arrays -/

/-- The float word 1.0 over the position array's shape and over a coordinate plane. -/
def one3 : S64x1024x2.Idx → EReal :=
  broadcastInDim S64x1024x2 ![] bcast_S_S64x1024x2 (constant (F := Ideal) S_ .f32 0x3F800000#32)
def one2 : S64x1024.Idx → EReal :=
  broadcastInDim S64x1024 ![] bcast_S_S64x1024 (constant (F := Ideal) S_ .f32 0x3F800000#32)

/-- An integer constant over a coordinate plane. -/
def cI (a : BitVec 32) : S64x1024.Idx → BitVec 32 :=
  broadcastInDim S64x1024 ![] bcast_S_S64x1024 (constantI S_ 32 a)

/-- A coordinate plane as an array with a last axis of one lane. -/
def col {α : Type} (v : S64x1024.Idx → α) : S64x1024x1.Idx → α :=
  broadcastInDim S64x1024x1 ![0, 1] bcast_S64x1024_S64x1024x1_0_1 v

/-- A plane of cell coordinates clipped into [0, 63]. -/
def clipA (v : S64x1024.Idx → BitVec 32) : S64x1024.Idx → BitVec 32 := minsi (cI 63#32) (maxsi (cI 0#32) v)

section Arrays
variable (P O : S64x1024x2.Idx → EReal)

/-- The positions: point + 1 * offset. -/
def posA : S64x1024x2.Idx → EReal := addf (F := Ideal) (φ := .f32) P (mulf (F := Ideal) (φ := .f32) one3 O)

/-- The two coordinate planes. -/
def yA : S64x1024.Idx → EReal :=
  shapeCast S64x1024 (extractStridedSlice S64x1024x1 ![0, 0, 0] (posA P O) slices_S64x1024x2_S64x1024x1_0_0_0)
    shapeCasts_S64x1024x1_S64x1024
def xA : S64x1024.Idx → EReal :=
  shapeCast S64x1024 (extractStridedSlice S64x1024x1 ![0, 0, 1] (posA P O) slices_S64x1024x2_S64x1024x1_0_0_1)
    shapeCasts_S64x1024x1_S64x1024

/-- The fractional parts and their complements to one. -/
def lyA : S64x1024.Idx → EReal := subf (F := Ideal) (φ := .f32) (yA P O) (Host.floor (F := Ideal) (φ := .f32) (yA P O))
def lxA : S64x1024.Idx → EReal := subf (F := Ideal) (φ := .f32) (xA P O) (Host.floor (F := Ideal) (φ := .f32) (xA P O))
def hyA : S64x1024.Idx → EReal := subf (F := Ideal) (φ := .f32) one2 (lyA P O)
def hxA : S64x1024.Idx → EReal := subf (F := Ideal) (φ := .f32) one2 (lxA P O)

/-- The cells. -/
def y0A : S64x1024.Idx → BitVec 32 := fptosi (F := Ideal) (φ := .f32) 32 (Host.floor (F := Ideal) (φ := .f32) (yA P O))
def x0A : S64x1024.Idx → BitVec 32 := fptosi (F := Ideal) (φ := .f32) 32 (Host.floor (F := Ideal) (φ := .f32) (xA P O))

/-- A corner's cell coordinates: the cell plus the corner's constants. -/
def cyA (a : BitVec 32) : S64x1024.Idx → BitVec 32 := addi (y0A P O) (cI a)
def cxA (b : BitVec 32) : S64x1024.Idx → BitVec 32 := addi (x0A P O) (cI b)

/-- A corner's mask bit. -/
def inbA (a b : BitVec 32) : S64x1024.Idx → BitVec 1 :=
  andi (andi (andi (cmpi .sge (cyA P O a) (cI 0#32)) (cmpi .slt (cyA P O a) (cI 64#32))) (cmpi .sge (cxA P O b) (cI 0#32)))
    (cmpi .slt (cxA P O b) (cI 64#32))

/-- A corner's flat position. -/
def flatA (a b : BitVec 32) : S64x1024.Idx → BitVec 32 := addi (muli (clipA (cyA P O a)) (cI 64#32)) (clipA (cxA P O b))

/-- A corner's weight times its mask, from the two weight factors. -/
def wmA (wy wx : S64x1024.Idx → EReal) (a b : BitVec 32) : S64x1024.Idx → EReal :=
  mulf (F := Ideal) (φ := .f32) (mulf (F := Ideal) (φ := .f32) wy wx) (uitofp (F := Ideal) .f32 (inbA P O a b))

/-- The four corners' flat positions side by side. -/
def idxA : S64x1024x4.Idx → BitVec 32 :=
  concatenate S64x1024x4 2 [⟨S64x1024x1, col (flatA P O 0#32 0#32)⟩, ⟨S64x1024x1, col (flatA P O 0#32 1#32)⟩,
    ⟨S64x1024x1, col (flatA P O 1#32 0#32)⟩, ⟨S64x1024x1, col (flatA P O 1#32 1#32)⟩]
    concatenates_S64x1024x1_S64x1024x1_S64x1024x1_S64x1024x1_S64x1024x4_d2

/-- The four corners' masked weights side by side. -/
def wA : S64x1024x4.Idx → EReal :=
  concatenate S64x1024x4 2 [⟨S64x1024x1, col (wmA P O (hyA P O) (hxA P O) 0#32 0#32)⟩,
    ⟨S64x1024x1, col (wmA P O (hyA P O) (lxA P O) 0#32 1#32)⟩, ⟨S64x1024x1, col (wmA P O (lyA P O) (hxA P O) 1#32 0#32)⟩,
    ⟨S64x1024x1, col (wmA P O (lyA P O) (lxA P O) 1#32 1#32)⟩]
    concatenates_S64x1024x1_S64x1024x1_S64x1024x1_S64x1024x1_S64x1024x4_d2

/-! ## Each array at an index -/

variable (n : Fin 64) (p : Fin 1024)

theorem one2_at (i : S64x1024.Idx) : one2 i = oneW := rfl
theorem cI_at (a : BitVec 32) (i : S64x1024.Idx) : cI a i = a := rfl
theorem clipA_at (v : S64x1024.Idx → BitVec 32) (i : S64x1024.Idx) : clipA v i = clip (v i) := rfl

theorem col_at {α : Type} (v : S64x1024.Idx → α) (u : Fin 1) : col v (ix3 n p u) = v (ix2 n p) :=
  Cert.LibBatch.broadcastInDim_ab_ab1_apply v _ n p u

theorem posA_at (j : Fin 2) : posA P O (ix3 n p j) = posOf (P (ix3 n p j)) (O (ix3 n p j)) := rfl

theorem yA_at : yA P O (ix2 n p) = yOf P O n p := by
  unfold yA
  refine (shapeCast_apply (s := S64x1024x1) (t := S64x1024) _ _ (ix2 n p) (ix3 n p (0 : Fin 1)) ?_).trans ?_
  · rw [Shape.rowMajor_val_three, Shape.rowMajor_val_two]
    show (n.val * 1024 + p.val) * 1 + 0 = n.val * 1024 + p.val
    omega
  refine (extractStridedSlice_apply (s := S64x1024x2) (t := S64x1024x1) _ _ _ (ix3 n p (0 : Fin 1)) (ix3 n p (0 : Fin 2)) ?_).trans ?_
  · intro a
    match a with
    | ⟨0, _⟩ => show n.val = 0 + n.val; omega
    | ⟨1, _⟩ => show p.val = 0 + p.val; omega
    | ⟨2, _⟩ => rfl
  rfl

theorem xA_at : xA P O (ix2 n p) = xOf P O n p := by
  unfold xA
  refine (shapeCast_apply (s := S64x1024x1) (t := S64x1024) _ _ (ix2 n p) (ix3 n p (0 : Fin 1)) ?_).trans ?_
  · rw [Shape.rowMajor_val_three, Shape.rowMajor_val_two]
    show (n.val * 1024 + p.val) * 1 + 0 = n.val * 1024 + p.val
    omega
  refine (extractStridedSlice_apply (s := S64x1024x2) (t := S64x1024x1) _ _ _ (ix3 n p (0 : Fin 1)) (ix3 n p (1 : Fin 2)) ?_).trans ?_
  · intro a
    match a with
    | ⟨0, _⟩ => show n.val = 0 + n.val; omega
    | ⟨1, _⟩ => show p.val = 0 + p.val; omega
    | ⟨2, _⟩ => rfl
  rfl

theorem lyA_at : lyA P O (ix2 n p) = lo (yOf P O n p) := by
  show yA P O (ix2 n p) - Ideal.liftRound Int.floor (yA P O (ix2 n p)) = _
  rw [yA_at]; rfl
theorem lxA_at : lxA P O (ix2 n p) = lo (xOf P O n p) := by
  show xA P O (ix2 n p) - Ideal.liftRound Int.floor (xA P O (ix2 n p)) = _
  rw [xA_at]; rfl
theorem hyA_at : hyA P O (ix2 n p) = hi (yOf P O n p) := by
  show oneW - lyA P O (ix2 n p) = _
  rw [lyA_at]; rfl
theorem hxA_at : hxA P O (ix2 n p) = hi (xOf P O n p) := by
  show oneW - lxA P O (ix2 n p) = _
  rw [lxA_at]; rfl
theorem y0A_at : y0A P O (ix2 n p) = cellOf (yOf P O n p) := by
  show Ideal.fptosi 32 (Ideal.liftRound Int.floor (yA P O (ix2 n p))) = _
  rw [yA_at]; rfl
theorem x0A_at : x0A P O (ix2 n p) = cellOf (xOf P O n p) := by
  show Ideal.fptosi 32 (Ideal.liftRound Int.floor (xA P O (ix2 n p))) = _
  rw [xA_at]; rfl

theorem cyA_at (a : BitVec 32) : cyA P O a (ix2 n p) = IntOp.addi (cellOf (yOf P O n p)) a := by
  show IntOp.addi (y0A P O (ix2 n p)) a = _
  rw [y0A_at]
theorem cxA_at (b : BitVec 32) : cxA P O b (ix2 n p) = IntOp.addi (cellOf (xOf P O n p)) b := by
  show IntOp.addi (x0A P O (ix2 n p)) b = _
  rw [x0A_at]

/-- A corner's flat position at (n, p): the specification's, at the cell plus the corner's constants. -/
theorem flatA_at (a b : BitVec 32) :
    flatA P O a b (ix2 n p) = flat (IntOp.addi (cellOf (yOf P O n p)) a) (IntOp.addi (cellOf (xOf P O n p)) b) := by
  show flat (cyA P O a (ix2 n p)) (cxA P O b (ix2 n p)) = _
  rw [cyA_at, cxA_at]

/-- A corner's masked weight at (n, p): the product of the two factors there, times the specification's mask. -/
theorem wmA_at (wy wx : S64x1024.Idx → EReal) (a b : BitVec 32) :
    wmA P O wy wx a b (ix2 n p)
      = wy (ix2 n p) * wx (ix2 n p) * mask (IntOp.addi (cellOf (yOf P O n p)) a) (IntOp.addi (cellOf (xOf P O n p)) b) := by
  show wy (ix2 n p) * wx (ix2 n p) * mask (cyA P O a (ix2 n p)) (cxA P O b (ix2 n p)) = _
  rw [cyA_at, cxA_at]

/-- The flat positions at (n, p, k): corner k's. -/
theorem idxA_at : (k : Fin 4) → idxA P O (ix3 n p k) = flat (cy P O n p k) (cx P O n p k)
  | ⟨0, h⟩ => (Cert.LibBatch.concatenate4_last_apply (A := 64) (B := 1024) (D := 1) (T := 4) _ _ _ _ _ n p (0 : Fin 1) ⟨0, h⟩ ⟨0, h⟩ rfl).trans
      ((col_at n p _ 0).trans ((flatA_at P O n p 0#32 0#32).trans (by rw [cy, cx, dy_0, dx_0])))
  | ⟨1, h⟩ => (Cert.LibBatch.concatenate4_last_apply (A := 64) (B := 1024) (D := 1) (T := 4) _ _ _ _ _ n p (0 : Fin 1) ⟨1, h⟩ ⟨1, h⟩ rfl).trans
      ((col_at n p _ 0).trans ((flatA_at P O n p 0#32 1#32).trans (by rw [cy, cx, dy_1, dx_1])))
  | ⟨2, h⟩ => (Cert.LibBatch.concatenate4_last_apply (A := 64) (B := 1024) (D := 1) (T := 4) _ _ _ _ _ n p (0 : Fin 1) ⟨2, h⟩ ⟨2, h⟩ rfl).trans
      ((col_at n p _ 0).trans ((flatA_at P O n p 1#32 0#32).trans (by rw [cy, cx, dy_2, dx_2])))
  | ⟨3, h⟩ => (Cert.LibBatch.concatenate4_last_apply (A := 64) (B := 1024) (D := 1) (T := 4) _ _ _ _ _ n p (0 : Fin 1) ⟨3, h⟩ ⟨3, h⟩ rfl).trans
      ((col_at n p _ 0).trans ((flatA_at P O n p 1#32 1#32).trans (by rw [cy, cx, dy_3, dx_3])))

/-- The masked weights at (n, p, k): corner k's weight times its mask. -/
theorem wA_at : (k : Fin 4) →
    wA P O (ix3 n p k) = wt (yOf P O n p) (xOf P O n p) k * mask (cy P O n p k) (cx P O n p k)
  | ⟨0, h⟩ => (Cert.LibBatch.concatenate4_last_apply (A := 64) (B := 1024) (D := 1) (T := 4) _ _ _ _ _ n p (0 : Fin 1) ⟨0, h⟩ ⟨0, h⟩ rfl).trans
      ((col_at n p _ 0).trans ((wmA_at P O n p _ _ 0#32 0#32).trans (by rw [hyA_at, hxA_at, cy, cx, dy_0, dx_0, wt_0])))
  | ⟨1, h⟩ => (Cert.LibBatch.concatenate4_last_apply (A := 64) (B := 1024) (D := 1) (T := 4) _ _ _ _ _ n p (0 : Fin 1) ⟨1, h⟩ ⟨1, h⟩ rfl).trans
      ((col_at n p _ 0).trans ((wmA_at P O n p _ _ 0#32 1#32).trans (by rw [hyA_at, lxA_at, cy, cx, dy_1, dx_1, wt_1])))
  | ⟨2, h⟩ => (Cert.LibBatch.concatenate4_last_apply (A := 64) (B := 1024) (D := 1) (T := 4) _ _ _ _ _ n p (0 : Fin 1) ⟨2, h⟩ ⟨2, h⟩ rfl).trans
      ((col_at n p _ 0).trans ((wmA_at P O n p _ _ 1#32 0#32).trans (by rw [lyA_at, hxA_at, cy, cx, dy_2, dx_2, wt_2])))
  | ⟨3, h⟩ => (Cert.LibBatch.concatenate4_last_apply (A := 64) (B := 1024) (D := 1) (T := 4) _ _ _ _ _ n p (0 : Fin 1) ⟨3, h⟩ ⟨3, h⟩ rfl).trans
      ((col_at n p _ 0).trans ((wmA_at P O n p _ _ 1#32 1#32).trans (by rw [lyA_at, lxA_at, cy, cx, dy_3, dx_3, wt_3])))

end Arrays

end Cert.KernelIdeal.KHost

end
-- ==== Proof.KHostT.lean ====
/-
  The last eleven host operations in front of the region, run from any contents. They lay the four corners' flat
  positions and masked weights out with a last axis of one lane, join each four along that axis, and reshape the feature
  map; none of them writes the eight arrays they read. So the two joined arrays when the region is entered are the joins
  of the eight arrays as they are when the region is entered.
-/
import proofs.«113401_j14955076124692_1_alg».proof.Proof.FrameVI
import Idealize.ShloMosaic.Lib.Pipeline.Frame
import proofs.«113401_j14955076124692_1_alg».proof.Proof.KHostA

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The contents after all but the last eleven host operations. -/
def Wpre : Valuation τ sig (Elt Ideal) :=
  after (List.take 6 (hostOps0_16 (F := Ideal)))
    (after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b)))

/-- The contents when the region is entered: the last eleven operations run from there. -/
theorem V_tail (b : Ref sig .tc) :
    Fr.V (F := Ideal) m c b = after (List.drop 6 (hostOps0_16 (F := Ideal))) (Wpre m c) (Proc.devRef .tc b) := by
  unfold Wpre
  rw [← StableHlo.after_append, ← StableHlo.after_append]
  rfl

section Tail
variable (W : Valuation τ sig (Elt Ideal))

/-- The last eleven operations leave the joined flat positions: the join of the four corners' arrays. -/
theorem tail_v113 :
    (after (List.drop 6 (hostOps0_16 (F := Ideal))) W (Proc.devRef .tc main_v113) : S64x1024x4.Idx → BitVec 32)
      = concatenate S64x1024x4 2 [⟨S64x1024x1, col (W (Proc.devRef .tc main_v37))⟩, ⟨S64x1024x1, col (W (Proc.devRef .tc main_v60))⟩,
          ⟨S64x1024x1, col (W (Proc.devRef .tc main_v83))⟩, ⟨S64x1024x1, col (W (Proc.devRef .tc main_v106))⟩]
          concatenates_S64x1024x1_S64x1024x1_S64x1024x1_S64x1024x1_S64x1024x4_d2 := by
  simp only [hostOps0_16, List.drop_succ_cons, List.drop_zero]
  after_results
  rfl

/-- The last eleven operations leave the joined masked weights: the join of the four corners' arrays. -/
theorem tail_v118 :
    (after (List.drop 6 (hostOps0_16 (F := Ideal))) W (Proc.devRef .tc main_v118) : S64x1024x4.Idx → EReal)
      = concatenate S64x1024x4 2 [⟨S64x1024x1, col (W (Proc.devRef .tc main_v39))⟩, ⟨S64x1024x1, col (W (Proc.devRef .tc main_v62))⟩,
          ⟨S64x1024x1, col (W (Proc.devRef .tc main_v85))⟩, ⟨S64x1024x1, col (W (Proc.devRef .tc main_v108))⟩]
          concatenates_S64x1024x1_S64x1024x1_S64x1024x1_S64x1024x1_S64x1024x4_d2 := by
  simp only [hostOps0_16, List.drop_succ_cons, List.drop_zero]
  after_results
  rfl

/-- The last eleven operations write none of the eight arrays they read. -/
theorem tail_keep (b : Ref sig .tc)
    (hb : b ∉ [main_v109, main_v110, main_v111, main_v112, main_v113, main_v114, main_v115, main_v116, main_v117, main_v118, main_v119]) :
    after (List.drop 6 (hostOps0_16 (F := Ideal))) W (Proc.devRef .tc b) = W (Proc.devRef .tc b) :=
  after_of_writes_sub _ W (by
    simp only [hostOps0_16, List.drop_succ_cons, List.drop_zero]
    simp [List.Forall]) hb

end Tail

/-- The joined flat positions when the region is entered: the join of the four corners' arrays then. -/
theorem v113_join :
    (Fr.V (F := Ideal) m c main_v113 : S64x1024x4.Idx → BitVec 32)
      = concatenate S64x1024x4 2 [⟨S64x1024x1, col (Fr.V (F := Ideal) m c main_v37 : S64x1024.Idx → BitVec 32)⟩,
          ⟨S64x1024x1, col (Fr.V (F := Ideal) m c main_v60 : S64x1024.Idx → BitVec 32)⟩,
          ⟨S64x1024x1, col (Fr.V (F := Ideal) m c main_v83 : S64x1024.Idx → BitVec 32)⟩,
          ⟨S64x1024x1, col (Fr.V (F := Ideal) m c main_v106 : S64x1024.Idx → BitVec 32)⟩]
          concatenates_S64x1024x1_S64x1024x1_S64x1024x1_S64x1024x1_S64x1024x4_d2 := by
  rw [V_tail m c main_v113, V_tail m c main_v37, V_tail m c main_v60, V_tail m c main_v83, V_tail m c main_v106,
    tail_keep _ main_v37 (by decide), tail_keep _ main_v60 (by decide), tail_keep _ main_v83 (by decide),
    tail_keep _ main_v106 (by decide)]
  exact tail_v113 _

/-- The joined masked weights when the region is entered: the join of the four corners' arrays then. -/
theorem v118_join :
    (Fr.V (F := Ideal) m c main_v118 : S64x1024x4.Idx → EReal)
      = concatenate S64x1024x4 2 [⟨S64x1024x1, col (Fr.V (F := Ideal) m c main_v39 : S64x1024.Idx → EReal)⟩,
          ⟨S64x1024x1, col (Fr.V (F := Ideal) m c main_v62 : S64x1024.Idx → EReal)⟩,
          ⟨S64x1024x1, col (Fr.V (F := Ideal) m c main_v85 : S64x1024.Idx → EReal)⟩,
          ⟨S64x1024x1, col (Fr.V (F := Ideal) m c main_v108 : S64x1024.Idx → EReal)⟩]
          concatenates_S64x1024x1_S64x1024x1_S64x1024x1_S64x1024x1_S64x1024x4_d2 := by
  rw [V_tail m c main_v118, V_tail m c main_v39, V_tail m c main_v62, V_tail m c main_v85, V_tail m c main_v108,
    tail_keep _ main_v39 (by decide), tail_keep _ main_v62 (by decide), tail_keep _ main_v85 (by decide),
    tail_keep _ main_v108 (by decide)]
  exact tail_v118 _

end Cert.KernelIdeal.KHost

end
-- ==== Proof.KHost2a.lean ====
/-
  The flat positions of the first two corners, (0, 0) and (0, 1), when the region is entered: running the host
  operations from the launch memory leaves each as the specification's array of the point and offset arguments.
-/
import proofs.«113401_j14955076124692_1_alg».proof.Proof.FrameVI
import proofs.«113401_j14955076124692_1_alg».proof.Proof.KHostA

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

set_option maxRecDepth 4000 in
/-- Corner (0, 0)'s flat positions. -/
theorem v37_whole :
    (Fr.V (F := Ideal) m c main_v37 : S64x1024.Idx → BitVec 32) = flatA (m ((c : Thread nD τ).loc main_arg1) : S64x1024x2.Idx → EReal) (m ((c : Thread nD τ).loc main_arg2) : S64x1024x2.Idx → EReal) 0#32 0#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

set_option maxRecDepth 4000 in
/-- Corner (0, 1)'s flat positions. -/
theorem v60_whole :
    (Fr.V (F := Ideal) m c main_v60 : S64x1024.Idx → BitVec 32) = flatA (m ((c : Thread nD τ).loc main_arg1) : S64x1024x2.Idx → EReal) (m ((c : Thread nD τ).loc main_arg2) : S64x1024x2.Idx → EReal) 0#32 1#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

end Cert.KernelIdeal.KHost

end
-- ==== Proof.KHost2b.lean ====
/-
  The flat positions of the last two corners, (1, 0) and (1, 1), when the region is entered: running the host
  operations from the launch memory leaves each as the specification's array of the point and offset arguments.
-/
import proofs.«113401_j14955076124692_1_alg».proof.Proof.FrameVI
import proofs.«113401_j14955076124692_1_alg».proof.Proof.KHostA

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

set_option maxHeartbeats 4000000 in  -- a fold over 207 operations
set_option maxRecDepth 4000 in
/-- Corner (1, 0)'s flat positions. -/
theorem v83_whole :
    (Fr.V (F := Ideal) m c main_v83 : S64x1024.Idx → BitVec 32) = flatA (m ((c : Thread nD τ).loc main_arg1) : S64x1024x2.Idx → EReal) (m ((c : Thread nD τ).loc main_arg2) : S64x1024x2.Idx → EReal) 1#32 0#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

set_option maxHeartbeats 4000000 in  -- a fold over 207 operations
set_option maxRecDepth 4000 in
/-- Corner (1, 1)'s flat positions. -/
theorem v106_whole :
    (Fr.V (F := Ideal) m c main_v106 : S64x1024.Idx → BitVec 32) = flatA (m ((c : Thread nD τ).loc main_arg1) : S64x1024x2.Idx → EReal) (m ((c : Thread nD τ).loc main_arg2) : S64x1024x2.Idx → EReal) 1#32 1#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

end Cert.KernelIdeal.KHost

end
-- ==== Proof.KHost2.lean ====
/-
  The four corners' flat positions as the region receives them. The region's first input array is the join, along a last
  axis of four lanes, of the four corners' flat positions, each the specification's array of the point and offset
  arguments; read at (n, p, k) that is the specification's flat position of corner k.
-/
import proofs.«113401_j14955076124692_1_alg».proof.Proof.KHostT
import proofs.«113401_j14955076124692_1_alg».proof.Proof.KHost2a
import proofs.«113401_j14955076124692_1_alg».proof.Proof.KHost2b

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The region's first input as a whole array: the corners' flat positions of the point and offset arguments. -/
theorem v113_whole :
    (Fr.V (F := Ideal) m c main_v113 : S64x1024x4.Idx → BitVec 32) = idxA (m ((c : Thread nD τ).loc main_arg1) : S64x1024x2.Idx → EReal) (m ((c : Thread nD τ).loc main_arg2) : S64x1024x2.Idx → EReal) := by
  rw [v113_join, v37_whole, v60_whole, v83_whole, v106_whole]
  rfl

/-- The region's first input at (n, p, k): the flat position of corner k. -/
theorem v113_at (n : Fin 64) (p : Fin 1024) (k : Fin 4) :
    (Fr.V (F := Ideal) m c main_v113 : S64x1024x4.Idx → BitVec 32) (ValueIdx.ix3 n p k)
      = Cert.Bilin.flat (Cert.Bilin.cy (m ((c : Thread nD τ).loc main_arg1) : S64x1024x2.Idx → EReal) (m ((c : Thread nD τ).loc main_arg2) : S64x1024x2.Idx → EReal) n p k) (Cert.Bilin.cx (m ((c : Thread nD τ).loc main_arg1) : S64x1024x2.Idx → EReal) (m ((c : Thread nD τ).loc main_arg2) : S64x1024x2.Idx → EReal) n p k) := by
  rw [v113_whole]
  exact idxA_at _ _ n p k

end Cert.KernelIdeal.KHost

end
-- ==== Proof.KHost3a.lean ====
/-
  The masked weights of the first two corners, (0, 0) and (0, 1), when the region is entered: running the host
  operations from the launch memory leaves each as the specification's array of the point and offset arguments.
-/
import proofs.«113401_j14955076124692_1_alg».proof.Proof.FrameVI
import proofs.«113401_j14955076124692_1_alg».proof.Proof.KHostA

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

set_option maxHeartbeats 4000000 in  -- a fold over 207 operations
set_option maxRecDepth 4000 in
/-- Corner (0, 0)'s masked weights: hy * hx times the mask. -/
theorem v39_whole :
    (Fr.V (F := Ideal) m c main_v39 : S64x1024.Idx → EReal) = wmA (m ((c : Thread nD τ).loc main_arg1) : S64x1024x2.Idx → EReal) (m ((c : Thread nD τ).loc main_arg2) : S64x1024x2.Idx → EReal) (hyA (m ((c : Thread nD τ).loc main_arg1) : S64x1024x2.Idx → EReal) (m ((c : Thread nD τ).loc main_arg2) : S64x1024x2.Idx → EReal)) (hxA (m ((c : Thread nD τ).loc main_arg1) : S64x1024x2.Idx → EReal) (m ((c : Thread nD τ).loc main_arg2) : S64x1024x2.Idx → EReal)) 0#32 0#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

set_option maxHeartbeats 4000000 in  -- a fold over 207 operations
set_option maxRecDepth 4000 in
/-- Corner (0, 1)'s masked weights: hy * lx times the mask. -/
theorem v62_whole :
    (Fr.V (F := Ideal) m c main_v62 : S64x1024.Idx → EReal) = wmA (m ((c : Thread nD τ).loc main_arg1) : S64x1024x2.Idx → EReal) (m ((c : Thread nD τ).loc main_arg2) : S64x1024x2.Idx → EReal) (hyA (m ((c : Thread nD τ).loc main_arg1) : S64x1024x2.Idx → EReal) (m ((c : Thread nD τ).loc main_arg2) : S64x1024x2.Idx → EReal)) (lxA (m ((c : Thread nD τ).loc main_arg1) : S64x1024x2.Idx → EReal) (m ((c : Thread nD τ).loc main_arg2) : S64x1024x2.Idx → EReal)) 0#32 1#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

end Cert.KernelIdeal.KHost

end
-- ==== Proof.KHost3b.lean ====
/-
  The masked weights of the last two corners, (1, 0) and (1, 1), when the region is entered: running the host
  operations from the launch memory leaves each as the specification's array of the point and offset arguments.
-/
import proofs.«113401_j14955076124692_1_alg».proof.Proof.FrameVI
import proofs.«113401_j14955076124692_1_alg».proof.Proof.KHostA

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

set_option maxHeartbeats 4000000 in  -- a fold over 207 operations
set_option maxRecDepth 4000 in
/-- Corner (1, 0)'s masked weights: ly * hx times the mask. -/
theorem v85_whole :
    (Fr.V (F := Ideal) m c main_v85 : S64x1024.Idx → EReal) = wmA (m ((c : Thread nD τ).loc main_arg1) : S64x1024x2.Idx → EReal) (m ((c : Thread nD τ).loc main_arg2) : S64x1024x2.Idx → EReal) (lyA (m ((c : Thread nD τ).loc main_arg1) : S64x1024x2.Idx → EReal) (m ((c : Thread nD τ).loc main_arg2) : S64x1024x2.Idx → EReal)) (hxA (m ((c : Thread nD τ).loc main_arg1) : S64x1024x2.Idx → EReal) (m ((c : Thread nD τ).loc main_arg2) : S64x1024x2.Idx → EReal)) 1#32 0#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

set_option maxHeartbeats 4000000 in  -- a fold over 207 operations
set_option maxRecDepth 4000 in
/-- Corner (1, 1)'s masked weights: ly * lx times the mask. -/
theorem v108_whole :
    (Fr.V (F := Ideal) m c main_v108 : S64x1024.Idx → EReal) = wmA (m ((c : Thread nD τ).loc main_arg1) : S64x1024x2.Idx → EReal) (m ((c : Thread nD τ).loc main_arg2) : S64x1024x2.Idx → EReal) (lyA (m ((c : Thread nD τ).loc main_arg1) : S64x1024x2.Idx → EReal) (m ((c : Thread nD τ).loc main_arg2) : S64x1024x2.Idx → EReal)) (lxA (m ((c : Thread nD τ).loc main_arg1) : S64x1024x2.Idx → EReal) (m ((c : Thread nD τ).loc main_arg2) : S64x1024x2.Idx → EReal)) 1#32 1#32 := by
  dsimp only [Fr.V, Fr.prefixOps]
  simp only [Gen.hostOps0, Gen.hostOps0_1, Gen.hostOps0_2, Gen.hostOps0_3, Gen.hostOps0_4, Gen.hostOps0_5, Gen.hostOps0_6, Gen.hostOps0_7,
    Gen.hostOps0_8, Gen.hostOps0_9, Gen.hostOps0_10, Gen.hostOps0_11, Gen.hostOps0_12, Gen.hostOps0_13, Gen.hostOps0_14, Gen.hostOps0_15,
    Gen.hostOps0_16, List.flatten_cons, List.flatten_nil, List.append_nil, List.cons_append, List.nil_append]
  after_results_simp
  rfl

end Cert.KernelIdeal.KHost

end
-- ==== Proof.KHost3.lean ====
/-
  The four corners' masked weights as the region receives them. The region's second input array is the join, along a
  last axis of four lanes, of the four corners' weights times their masks, each the specification's array of the point
  and offset arguments; read at (n, p, k) that is the specification's weight of corner k times its mask.
-/
import proofs.«113401_j14955076124692_1_alg».proof.Proof.KHostT
import proofs.«113401_j14955076124692_1_alg».proof.Proof.KHost3a
import proofs.«113401_j14955076124692_1_alg».proof.Proof.KHost3b

noncomputable section

namespace Cert.KernelIdeal.KHost

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The region's second input as a whole array: the corners' masked weights of the point and offset arguments. -/
theorem v118_whole :
    (Fr.V (F := Ideal) m c main_v118 : S64x1024x4.Idx → EReal) = wA (m ((c : Thread nD τ).loc main_arg1) : S64x1024x2.Idx → EReal) (m ((c : Thread nD τ).loc main_arg2) : S64x1024x2.Idx → EReal) := by
  rw [v118_join, v39_whole, v62_whole, v85_whole, v108_whole]
  rfl

/-- The region's second input at (n, p, k): the weight of corner k times its mask. -/
theorem v118_at (n : Fin 64) (p : Fin 1024) (k : Fin 4) :
    (Fr.V (F := Ideal) m c main_v118 : S64x1024x4.Idx → EReal) (ValueIdx.ix3 n p k)
      = Cert.Bilin.wt (Cert.Bilin.yOf (m ((c : Thread nD τ).loc main_arg1) : S64x1024x2.Idx → EReal) (m ((c : Thread nD τ).loc main_arg2) : S64x1024x2.Idx → EReal) n p) (Cert.Bilin.xOf (m ((c : Thread nD τ).loc main_arg1) : S64x1024x2.Idx → EReal) (m ((c : Thread nD τ).loc main_arg2) : S64x1024x2.Idx → EReal) n p) k
          * Cert.Bilin.mask (Cert.Bilin.cy (m ((c : Thread nD τ).loc main_arg1) : S64x1024x2.Idx → EReal) (m ((c : Thread nD τ).loc main_arg2) : S64x1024x2.Idx → EReal) n p k) (Cert.Bilin.cx (m ((c : Thread nD τ).loc main_arg1) : S64x1024x2.Idx → EReal) (m ((c : Thread nD τ).loc main_arg2) : S64x1024x2.Idx → EReal) n p k) := by
  rw [v118_whole]
  exact wA_at _ _ n p k

end Cert.KernelIdeal.KHost

end
-- ==== Proof.LibTriple.lean ====
/-
  Three arrays of one shape [A, B, K] joined along the last axis, read at an index: the entry at (a, b, f) of the
  join is the entry (a, b, g) of piece n when f = n K + g. And two arrays [A, B₁, K], [A, B₂, K] joined along
  the MIDDLE axis: the entry at (a, s, g) is the first piece's while s < B₁ and the second's at s - B₁ after.
-/
import Idealize.ShloMosaic.Lib.Pipeline.Value
import Idealize.ShloMosaic.Lib.ValueIdx

noncomputable section

namespace Cert.LibTriple

open Idealize.ShloMosaic Idealize.ShloMosaic.ValueIdx

variable {α : Type} {A B K N : ℕ}

/-- The join of three pieces along the last axis at (a, b, f), f = n K + g: piece n at (a, b, g). -/
theorem concat3_last_apply (x0 x1 x2 : (⟨3, ![A, B, K]⟩ : Shape).Idx → α)
    (h : Shape.Concatenates [(⟨3, ![A, B, K]⟩ : Shape), ⟨3, ![A, B, K]⟩, ⟨3, ![A, B, K]⟩] ⟨3, ![A, B, N]⟩ 2)
    (a : Fin A) (b : Fin B) (f : Fin N) (n : Fin 3) (g : Fin K) (hf : f.val = n.val * K + g.val) :
    concatenate ⟨3, ![A, B, N]⟩ 2 [⟨⟨3, ![A, B, K]⟩, x0⟩, ⟨⟨3, ![A, B, K]⟩, x1⟩, ⟨⟨3, ![A, B, K]⟩, x2⟩] h (ix3 a b f)
      = (match n with | 0 => x0 | 1 => x1 | 2 => x2) (ix3 a b g) := by
  have hi : ∀ bb : Fin 3, bb.cast (rfl : (⟨3, ![A, B, K]⟩ : Shape).rank = (⟨3, ![A, B, N]⟩ : Shape).rank) ≠ (2 : Fin 3) →
      ((ix3 a b g : (⟨3, ![A, B, K]⟩ : Shape).Idx) bb).val = ((ix3 a b f : (⟨3, ![A, B, N]⟩ : Shape).Idx) (bb.cast rfl)).val := fun bb hb => by
    match bb with
    | ⟨0, _⟩ => rfl
    | ⟨1, _⟩ => rfl
    | ⟨2, _⟩ => exact absurd rfl hb
  match n with
  | ⟨0, _⟩ =>
    have hf' : f.val = 0 * K + g.val := hf
    exact concatenate_apply_piece 2 [⟨⟨3, ![A, B, K]⟩, x0⟩, ⟨⟨3, ![A, B, K]⟩, x1⟩, ⟨⟨3, ![A, B, K]⟩, x2⟩] h (ix3 a b f) 0
      (by show (0 : ℕ) < 3; omega) ⟨3, ![A, B, K]⟩ x0 rfl rfl 0 rfl (ix3 a b g) hi
      (by show 0 + g.val = f.val; omega)
  | ⟨1, _⟩ =>
    have hf' : f.val = 1 * K + g.val := hf
    exact concatenate_apply_piece 2 [⟨⟨3, ![A, B, K]⟩, x0⟩, ⟨⟨3, ![A, B, K]⟩, x1⟩, ⟨⟨3, ![A, B, K]⟩, x2⟩] h (ix3 a b f) 1
      (by show (1 : ℕ) < 3; omega) ⟨3, ![A, B, K]⟩ x1 rfl rfl K (by simp) (ix3 a b g) hi
      (by show K + g.val = f.val; omega)
  | ⟨2, _⟩ =>
    have hf' : f.val = 2 * K + g.val := hf
    exact concatenate_apply_piece 2 [⟨⟨3, ![A, B, K]⟩, x0⟩, ⟨⟨3, ![A, B, K]⟩, x1⟩, ⟨⟨3, ![A, B, K]⟩, x2⟩] h (ix3 a b f) 2
      (by show (2 : ℕ) < 3; omega) ⟨3, ![A, B, K]⟩ x2 rfl rfl (K + K) (by simp) (ix3 a b g) hi
      (by show K + K + g.val = f.val; omega)

variable {B₁ B₂ B' : ℕ}

/-- The join of two pieces along the middle axis at (a, s, g) with s inside the first piece. -/
theorem concat2_mid_left (x1 : (⟨3, ![A, B₁, K]⟩ : Shape).Idx → α) (x2 : (⟨3, ![A, B₂, K]⟩ : Shape).Idx → α)
    (h : Shape.Concatenates [(⟨3, ![A, B₁, K]⟩ : Shape), ⟨3, ![A, B₂, K]⟩] ⟨3, ![A, B', K]⟩ 1)
    (a : Fin A) (s : Fin B') (g : Fin K) (s1 : Fin B₁) (hs : s1.val = s.val) :
    concatenate ⟨3, ![A, B', K]⟩ 1 [⟨⟨3, ![A, B₁, K]⟩, x1⟩, ⟨⟨3, ![A, B₂, K]⟩, x2⟩] h (ix3 a s g) = x1 (ix3 a s1 g) :=
  concatenate_pair_apply_left 1 x1 x2 h (ix3 a s g) rfl (ix3 a s1 g) fun bb => by
    match bb with
    | ⟨0, _⟩ => rfl
    | ⟨1, _⟩ => exact hs
    | ⟨2, _⟩ => rfl

/-- The join of two pieces along the middle axis at (a, s, g) with s past the first piece. -/
theorem concat2_mid_right (x1 : (⟨3, ![A, B₁, K]⟩ : Shape).Idx → α) (x2 : (⟨3, ![A, B₂, K]⟩ : Shape).Idx → α)
    (h : Shape.Concatenates [(⟨3, ![A, B₁, K]⟩ : Shape), ⟨3, ![A, B₂, K]⟩] ⟨3, ![A, B', K]⟩ 1)
    (a : Fin A) (s : Fin B') (g : Fin K) (s2 : Fin B₂) (hs : s2.val + B₁ = s.val) :
    concatenate ⟨3, ![A, B', K]⟩ 1 [⟨⟨3, ![A, B₁, K]⟩, x1⟩, ⟨⟨3, ![A, B₂, K]⟩, x2⟩] h (ix3 a s g) = x2 (ix3 a s2 g) :=
  concatenate_pair_apply_right 1 x1 x2 h (ix3 a s g) rfl rfl (ix3 a s2 g) (fun bb hb => by
    match bb with
    | ⟨0, _⟩ => rfl
    | ⟨1, _⟩ => exact absurd rfl hb
    | ⟨2, _⟩ => rfl) hs

end Cert.LibTriple

end
-- ==== Proof.LibWordOrder.lean ====
/-
  Signed comparisons of small 32-bit words: a word holding a number below 2³¹ reads, as a signed integer, that number,
  so the signed tests "less than" and "greater or equal" between two such words are the tests on the numbers; a select
  on such a test is the `if` on the numbers. And the word arithmetic `q * B + r` of small numbers is the word of the
  number `q * B + r`. Independent of any program.
-/
import Idealize.ShloMosaic.PureOps.Ideal

namespace Cert.LibWordOrder

open Idealize.ShloMosaic

/-- A 32-bit word holding a number below 2³¹ reads, signed, as that number. -/
theorem toInt_ofNat_small (n : ℕ) (hn : n < 2147483648) : (BitVec.ofNat 32 n).toInt = (n : ℤ) := by
  rw [BitVec.toInt_eq_toNat_cond, BitVec.toNat_ofNat]
  have h : n % 2 ^ 32 = n := Nat.mod_eq_of_lt (by omega)
  rw [h]
  split
  · rfl
  · omega

/-- The signed test "less than" on two such words is the test on the numbers. -/
theorem cmpi_slt_small (n k : ℕ) (hn : n < 2147483648) (hk : k < 2147483648) :
    IntOp.cmpi .slt (BitVec.ofNat 32 n) (BitVec.ofNat 32 k) = BitVec.ofBool (decide (n < k)) := by
  simp only [IntOp.cmpi, BitVec.slt, toInt_ofNat_small n hn, toInt_ofNat_small k hk, Nat.cast_lt]

/-- The signed test "greater or equal" on two such words is the test on the numbers. -/
theorem cmpi_sge_small (n k : ℕ) (hn : n < 2147483648) (hk : k < 2147483648) :
    IntOp.cmpi .sge (BitVec.ofNat 32 n) (BitVec.ofNat 32 k) = BitVec.ofBool (decide (k ≤ n)) := by
  simp only [IntOp.cmpi, BitVec.sle, toInt_ofNat_small n hn, toInt_ofNat_small k hk, Nat.cast_le]

/-- A select on "n < k" between two such words is the `if` on the numbers. -/
theorem select_slt_small {α : Type} (n k : ℕ) (hn : n < 2147483648) (hk : k < 2147483648) (A B : α) :
    Scalar.select (IntOp.cmpi .slt (BitVec.ofNat 32 n) (BitVec.ofNat 32 k)) A B = if n < k then A else B := by
  rw [cmpi_slt_small n k hn hk]
  by_cases h : n < k <;> simp [Scalar.select, h]

/-- A select on "n ≥ k" between two such words is the `if` on the numbers. -/
theorem select_sge_small {α : Type} (n k : ℕ) (hn : n < 2147483648) (hk : k < 2147483648) (A B : α) :
    Scalar.select (IntOp.cmpi .sge (BitVec.ofNat 32 n) (BitVec.ofNat 32 k)) A B = if k ≤ n then A else B := by
  rw [cmpi_sge_small n k hn hk]
  by_cases h : k ≤ n <;> simp [Scalar.select, h]

/-- Word arithmetic on small numbers: the word of `q` times the word of `B`, plus the word of `r`, is the word of
    `q * B + r` (no wrap is even needed: the word of a number is taken modulo 2³² on both sides). -/
theorem mul_add_word (q B r : ℕ) :
    IntOp.addi (Scalar.muli (BitVec.ofNat 32 q) (BitVec.ofNat 32 B)) (BitVec.ofNat 32 r) = BitVec.ofNat 32 (q * B + r) := by
  simp only [IntOp.addi, Scalar.muli, IntOp.muli]
  rw [← BitVec.ofNat_mul, ← BitVec.ofNat_add]

/-- Adding the zero word changes nothing. -/
theorem add_zero_word (x : BitVec 32) : IntOp.addi x 0#32 = x := by
  simp [IntOp.addi]

end Cert.LibWordOrder
-- ==== Proof.RefG1.lean ====
/-
  Three facts that read the reference's feature lookup at an entry.
  The lookup gathers, from the feature map transposed to [n, h, w, c], the 256 channels at an index triple
  [n, row, column] per sample point: entry (n, p, c) of the result is the transposed map at the three components of the
  triple of (n, p), each read as a signed integer and clamped into [0, 63], and at channel c.
  The triples' array is three one-wide pieces joined along the last axis: its entry (n, p, k) is piece k at (n, p, 0).
  And the word facts behind a component: the reference adds 64 to a negative component, which a clipped coordinate and
  a batch number never are; read signed and clamped into [0, 63], a clipped coordinate is its own position and a batch
  number is itself.
-/
import proofs.«113401_j14955076124692_1_alg».proof.Proof.Gen.ReferenceIdeal
import proofs.«113401_j14955076124692_1_alg».proof.Proof.SpecFacts
import proofs.«113401_j14955076124692_1_alg».proof.Proof.LibTriple
import proofs.«113401_j14955076124692_1_alg».proof.Proof.LibWordOrder
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-- The lookup's dimension numbers: the three leading axes of the table are addressed by the triple and collapsed, the
    channel axis is kept whole. -/
abbrev gdims : GatherDims S64x64x64x256 S64x1024x3 S64x1024x256 :=
  gather_S64x64x64x256_S64x1024x3_S64x1024x256_2_012_n_n_012_2_111256

theorem h30 : (3 : Fin 4) ≠ 0 := by decide
theorem h31 : (3 : Fin 4) ≠ 1 := by decide
theorem h32 : (3 : Fin 4) ≠ 2 := by decide

/-- Entry (n, p, c) of the lookup: the table at the clamped components of the triple of (n, p), channel c. -/
theorem gather_apply (x : S64x64x64x256.Idx → α) (idx : IVec S64x1024x3 32) (n : Fin 64) (p : Fin 1024) (c : Fin 256)
    (a0 a1 a2 : Fin 64)
    (h0 : min (idx (ix3 n p (0 : Fin 3))).toInt.toNat 63 = a0.val)
    (h1 : min (idx (ix3 n p (1 : Fin 3))).toInt.toNat 63 = a1.val)
    (h2 : min (idx (ix3 n p (2 : Fin 3))).toInt.toNat 63 = a2.val) :
    Host.gather gdims x idx (ix3 n p c) = x (ix4 a0 a1 a2 c) := by
  unfold Host.gather
  congr 1
  funext a
  refine Fin.ext ?_
  show gdims.start (ix3 n p c) idx a + gdims.batchCoord (ix3 n p c) a + gdims.offCoord (ix3 n p c) a = _
  rw [GatherDims.batchCoord_eq_zero _ _ _ List.not_mem_nil]
  match a with
  | ⟨0, _⟩ =>
    refine Eq.trans ?_ h0
    show gdims.start (ix3 n p c) idx (0 : Fin 4) + 0 + gdims.offCoord (ix3 n p c) (0 : Fin 4)
      = min (idx (ix3 n p (0 : Fin 3))).toInt.toNat 63
    rw [GatherDims.offCoord_eq_zero _ _ _ (fun h => ((GatherDims.mem_sKept _ _).mp h).1 (by decide))]
    simp only [Nat.add_zero]
    unfold GatherDims.start
    rw [dif_pos (show (0 : Fin 4) ∈ gdims.startIndexMap from by decide)]
    have hsi : gdims.siIdx (ix3 n p c) ⟨List.idxOf (0 : Fin 4) gdims.startIndexMap,
        List.idxOf_lt_length_iff.2 (by decide)⟩ = ix3 n p (0 : Fin 3) := by
      funext b; refine Fin.ext ?_
      match b with
      | ⟨0, _⟩ => rfl
      | ⟨1, _⟩ => rfl
      | ⟨2, _⟩ => rfl
    rw [hsi]
    rfl
  | ⟨1, _⟩ =>
    refine Eq.trans ?_ h1
    show gdims.start (ix3 n p c) idx (1 : Fin 4) + 0 + gdims.offCoord (ix3 n p c) (1 : Fin 4)
      = min (idx (ix3 n p (1 : Fin 3))).toInt.toNat 63
    rw [GatherDims.offCoord_eq_zero _ _ _ (fun h => ((GatherDims.mem_sKept _ _).mp h).1 (by decide))]
    simp only [Nat.add_zero]
    unfold GatherDims.start
    rw [dif_pos (show (1 : Fin 4) ∈ gdims.startIndexMap from by decide)]
    have hsi : gdims.siIdx (ix3 n p c) ⟨List.idxOf (1 : Fin 4) gdims.startIndexMap,
        List.idxOf_lt_length_iff.2 (by decide)⟩ = ix3 n p (1 : Fin 3) := by
      funext b; refine Fin.ext ?_
      match b with
      | ⟨0, _⟩ => rfl
      | ⟨1, _⟩ => rfl
      | ⟨2, _⟩ => rfl
    rw [hsi]
    rfl
  | ⟨2, _⟩ =>
    refine Eq.trans ?_ h2
    show gdims.start (ix3 n p c) idx (2 : Fin 4) + 0 + gdims.offCoord (ix3 n p c) (2 : Fin 4)
      = min (idx (ix3 n p (2 : Fin 3))).toInt.toNat 63
    rw [GatherDims.offCoord_eq_zero _ _ _ (fun h => ((GatherDims.mem_sKept _ _).mp h).1 (by decide))]
    simp only [Nat.add_zero]
    unfold GatherDims.start
    rw [dif_pos (show (2 : Fin 4) ∈ gdims.startIndexMap from by decide)]
    have hsi : gdims.siIdx (ix3 n p c) ⟨List.idxOf (2 : Fin 4) gdims.startIndexMap,
        List.idxOf_lt_length_iff.2 (by decide)⟩ = ix3 n p (2 : Fin 3) := by
      funext b; refine Fin.ext ?_
      match b with
      | ⟨0, _⟩ => rfl
      | ⟨1, _⟩ => rfl
      | ⟨2, _⟩ => rfl
    rw [hsi]
    rfl
  | ⟨3, _⟩ =>
    show gdims.start (ix3 n p c) idx (3 : Fin 4) + 0 + gdims.offCoord (ix3 n p c) (3 : Fin 4) = c.val
    unfold GatherDims.start
    rw [dif_neg (show (3 : Fin 4) ∉ gdims.startIndexMap from by decide)]
    unfold GatherDims.offCoord
    have hk : gdims.sKept = [(3 : Fin 4)] := rfl
    rw [dif_pos (show (3 : Fin 4) ∈ gdims.sKept from by rw [hk]; exact List.mem_singleton.mpr rfl)]
    have key : ∀ (l : List (Fin 4)) (hl : l = [3]) (hp : List.idxOf (3 : Fin 4) l < [(2 : Fin 3)].length),
        ([(2 : Fin 3)])[List.idxOf (3 : Fin 4) l]'hp = 2 := by
      intro l hl hp; subst hl; rfl
    refine (congrArg (fun z : Fin 3 => 0 + 0 + (ix3 n p c z).val) (key _ hk _)).trans ?_
    show 0 + 0 + c.val = c.val
    omega

/-- Entry (n, p, 0) of three one-wide pieces joined along the last axis is the first piece's entry (n, p, 0), -/
theorem triple_apply0 (x0 x1 x2 : S64x1024x1.Idx → α) (n : Fin 64) (p : Fin 1024) :
    concatenate S64x1024x3 2 [⟨S64x1024x1, x0⟩, ⟨S64x1024x1, x1⟩, ⟨S64x1024x1, x2⟩]
      concatenates_S64x1024x1_S64x1024x1_S64x1024x1_S64x1024x3_d2 (ix3 n p (0 : Fin 3)) = x0 (ix3 n p (0 : Fin 1)) :=
  Cert.LibTriple.concat3_last_apply x0 x1 x2 _ n p (0 : Fin 3) (0 : Fin 3) (0 : Fin 1) (by decide)

/-- entry (n, p, 1) the second piece's, -/
theorem triple_apply1 (x0 x1 x2 : S64x1024x1.Idx → α) (n : Fin 64) (p : Fin 1024) :
    concatenate S64x1024x3 2 [⟨S64x1024x1, x0⟩, ⟨S64x1024x1, x1⟩, ⟨S64x1024x1, x2⟩]
      concatenates_S64x1024x1_S64x1024x1_S64x1024x1_S64x1024x3_d2 (ix3 n p (1 : Fin 3)) = x1 (ix3 n p (0 : Fin 1)) :=
  Cert.LibTriple.concat3_last_apply x0 x1 x2 _ n p (1 : Fin 3) (1 : Fin 3) (0 : Fin 1) (by decide)

/-- and entry (n, p, 2) the third piece's. -/
theorem triple_apply2 (x0 x1 x2 : S64x1024x1.Idx → α) (n : Fin 64) (p : Fin 1024) :
    concatenate S64x1024x3 2 [⟨S64x1024x1, x0⟩, ⟨S64x1024x1, x1⟩, ⟨S64x1024x1, x2⟩]
      concatenates_S64x1024x1_S64x1024x1_S64x1024x1_S64x1024x3_d2 (ix3 n p (2 : Fin 3)) = x2 (ix3 n p (0 : Fin 1)) :=
  Cert.LibTriple.concat3_last_apply x0 x1 x2 _ n p (2 : Fin 3) (2 : Fin 3) (0 : Fin 1) (by decide)

open Cert.Bilin in
/-- A clipped coordinate is not negative, so adding 64 to a negative component leaves it as it is. -/
theorem wrap_clip (a : BitVec 32) :
    Scalar.select (IntOp.cmpi .slt (clip a) 0#32) (IntOp.addi (clip a) 64#32) (clip a) = clip a := by
  have h : IntOp.cmpi .slt (clip a) 0#32 = 0#1 := by
    have hn := clip_toInt_nonneg a
    have h0 : (0#32 : BitVec 32).toInt = 0 := by decide
    simp only [IntOp.cmpi, BitVec.slt, h0]
    rw [decide_eq_false (by omega)]
    rfl
  rw [h]
  exact select_zero _ _

/-- A batch number is not negative either. -/
theorem wrap_iota (n : Fin 64) :
    Scalar.select (IntOp.cmpi .slt (BitVec.ofNat 32 n.val) 0#32) (IntOp.addi (BitVec.ofNat 32 n.val) 64#32)
      (BitVec.ofNat 32 n.val) = BitVec.ofNat 32 n.val := by
  have h := Cert.LibWordOrder.select_slt_small n.val 0 (by omega) (by omega)
    (IntOp.addi (BitVec.ofNat 32 n.val) 64#32) (BitVec.ofNat 32 n.val)
  rw [if_neg (Nat.not_lt_zero _)] at h
  exact h

open Cert.Bilin in
/-- Read signed and clamped into [0, 63], a clipped coordinate is its position on the 64-wide axis. -/
theorem clamp_clip (a : BitVec 32) : min (clip a).toInt.toNat 63 = (cl a).val := by
  rw [clip_toInt_eq, Int.toNat_natCast, cl_val]
  have := clip_toNat_lt a
  omega

/-- Read signed and clamped into [0, 63], a batch number is itself. -/
theorem clamp_iota (n : Fin 64) : min (BitVec.ofNat 32 n.val).toInt.toNat 63 = n.val := by
  rw [Cert.LibWordOrder.toInt_ofNat_small n.val (by omega), Int.toNat_natCast]
  omega

end Cert.ReferenceIdeal.RefValue

end
-- ==== Proof.RefG2.lean ====
/-
  The reference's per-point quantities, read at a sample point (n, p): the two coordinates y, x = point + 1 * offset
  (a slice of the last axis, reshaped to [n, p]), their floors, fractional parts and complements to one, their cells as
  32-bit integers, and the four products of weights. Each is the specification's quantity of the same name.
-/
import proofs.«113401_j14955076124692_1_alg».proof.Proof.ReadP
import proofs.«113401_j14955076124692_1_alg».proof.Proof.Spec
import Idealize.ShloMosaic.Lib.ValueIdx

noncomputable section

namespace Cert.ReferenceIdeal.RefValue

open Cert.ReferenceIdeal Cert.ReferenceIdeal.Gen Cert.ReferenceIdeal.ReadP Cert.Bilin Idealize.ShloMosaic Idealize.ShloMosaic.ValueIdx

variable (P O : (⟨S64x1024x2, .f32⟩ : BufTy).Contents (Elt Ideal)) (n : Fin 64) (p : Fin 1024)

/-- The first coordinate at (n, p) is the specification's y. -/
theorem y_at : val_main_v4 (F := Ideal) P O (ix2 n p) = yOf P O n p := by
  rw [val_main_v4_apply, val_main_v3_apply]
  have hi : idx_main_v3 (idx_main_v4 (ix2 n p)) = ix3 n p (0 : Fin 2) := funext fun a => Fin.ext (by
    have hn := n.isLt; have hp := p.isLt
    match a with
    | ⟨0, _⟩ => show (n.val * 1024 + p.val) / 1024 = n.val; omega
    | ⟨1, _⟩ => show (n.val * 1024 + p.val) / 1 % 1024 = p.val; omega
    | ⟨2, _⟩ => rfl)
  rw [hi, val_main_v2_apply, val_main_v1_apply, val_main_v0_apply, val_main_cst_apply]
  rfl

/-- The second coordinate at (n, p) is the specification's x. -/
theorem x_at : val_main_v6 (F := Ideal) P O (ix2 n p) = xOf P O n p := by
  rw [val_main_v6_apply, val_main_v5_apply]
  have hi : idx_main_v5 (idx_main_v6 (ix2 n p)) = ix3 n p (1 : Fin 2) := funext fun a => Fin.ext (by
    have hn := n.isLt; have hp := p.isLt
    match a with
    | ⟨0, _⟩ => show (n.val * 1024 + p.val) / 1024 = n.val; omega
    | ⟨1, _⟩ => show (n.val * 1024 + p.val) / 1 % 1024 = p.val; omega
    | ⟨2, _⟩ => rfl)
  rw [hi, val_main_v2_apply, val_main_v1_apply, val_main_v0_apply, val_main_cst_apply]
  rfl

/-- The floors. -/
theorem fl_y_at : val_main_v7 (F := Ideal) P O (ix2 n p) = fl (yOf P O n p) := by
  rw [val_main_v7_apply, y_at]; rfl
theorem fl_x_at : val_main_v8 (F := Ideal) P O (ix2 n p) = fl (xOf P O n p) := by
  rw [val_main_v8_apply, x_at]; rfl

/-- The fractional parts. -/
theorem lo_y_at : val_main_v9 (F := Ideal) P O (ix2 n p) = lo (yOf P O n p) := by
  rw [val_main_v9_apply, fl_y_at, y_at]; rfl
theorem lo_x_at : val_main_v10 (F := Ideal) P O (ix2 n p) = lo (xOf P O n p) := by
  rw [val_main_v10_apply, fl_x_at, x_at]; rfl

/-- Their complements to one. -/
theorem hi_y_at : val_main_v12 (F := Ideal) P O (ix2 n p) = hi (yOf P O n p) := by
  rw [val_main_v12_apply, val_main_v11_apply, val_main_cst_0_apply, lo_y_at]; rfl
theorem hi_x_at : val_main_v14 (F := Ideal) P O (ix2 n p) = hi (xOf P O n p) := by
  rw [val_main_v14_apply, val_main_v13_apply, val_main_cst_1_apply, lo_x_at]; rfl

/-- The cells. -/
theorem cell_y_at : val_main_v15 (F := Ideal) P O (ix2 n p) = cellOf (yOf P O n p) := by
  rw [val_main_v15_apply, fl_y_at]; rfl
theorem cell_x_at : val_main_v16 (F := Ideal) P O (ix2 n p) = cellOf (xOf P O n p) := by
  rw [val_main_v16_apply, fl_x_at]; rfl

/-- The four products of weights, corner by corner. -/
theorem wt0_at : val_main_v180 (F := Ideal) P O (ix2 n p) = wt (yOf P O n p) (xOf P O n p) 0 := by
  rw [val_main_v180_apply, hi_y_at, hi_x_at]; rfl
theorem wt1_at : val_main_v182 (F := Ideal) P O (ix2 n p) = wt (yOf P O n p) (xOf P O n p) 1 := by
  rw [val_main_v182_apply, hi_y_at, lo_x_at]; rfl
theorem wt2_at : val_main_v184 (F := Ideal) P O (ix2 n p) = wt (yOf P O n p) (xOf P O n p) 2 := by
  rw [val_main_v184_apply, lo_y_at, hi_x_at]; rfl
theorem wt3_at : val_main_v186 (F := Ideal) P O (ix2 n p) = wt (yOf P O n p) (xOf P O n p) 3 := by
  rw [val_main_v186_apply, lo_y_at, lo_x_at]; rfl

/-- The batch number of an entry, as the reference's lookup reads it: the word of n. -/
theorem iota_at : val_main_v19 (F := Ideal) (ix2 n (0 : Fin 1)) = BitVec.ofNat 32 n.val := by
  rw [val_main_v19_apply, val_main_v18_apply]

/-- The corner offsets of the specification, spelt out. -/
theorem dy_0 : dy 0 = 0#32 := rfl
theorem dy_1 : dy 1 = 0#32 := rfl
theorem dy_2 : dy 2 = 1#32 := rfl
theorem dy_3 : dy 3 = 1#32 := rfl
theorem dx_0 : dx 0 = 0#32 := rfl
theorem dx_1 : dx 1 = 1#32 := rfl
theorem dx_2 : dx 2 = 0#32 := rfl
theorem dx_3 : dx 3 = 1#32 := rfl

end Cert.ReferenceIdeal.RefValue

end
-- ==== Proof.RefG3_0.lean ====
/-
  The first (y0, x0) corner of the reference, read at an entry (n, p, c): its two cell coordinates, its in-range bit, the
  clipped coordinates, the index triple of its lookup, the looked-up feature, the mask as a float and the weight; their
  product is the specification's contribution of corner 0.
-/
import proofs.«113401_j14955076124692_1_alg».proof.Proof.RefG1
import proofs.«113401_j14955076124692_1_alg».proof.Proof.RefG2

noncomputable section

namespace Cert.ReferenceIdeal.RefValue

open Cert.ReferenceIdeal Cert.ReferenceIdeal.Gen Cert.ReferenceIdeal.ReadP Cert.Bilin Idealize.ShloMosaic Idealize.ShloMosaic.ValueIdx

variable (X : (⟨S64x256x64x64, .f32⟩ : BufTy).Contents (Elt Ideal)) (P O : (⟨S64x1024x2, .f32⟩ : BufTy).Contents (Elt Ideal)) (n : Fin 64) (p : Fin 1024) (c : Fin 256)

/-- The corner's cell coordinates. -/
theorem cy0_at : val_main_v15 (F := Ideal) P O (ix2 n p) = cy P O n p 0 := by
  rw [cell_y_at]
  exact (Cert.LibWordOrder.add_zero_word _).symm
theorem cx0_at : val_main_v16 (F := Ideal) P O (ix2 n p) = cx P O n p 0 := by
  rw [cell_x_at]
  exact (Cert.LibWordOrder.add_zero_word _).symm

/-- Its in-range bit. -/
theorem inb0_at : val_main_v30 (F := Ideal) P O (ix2 n p) = inb (cy P O n p 0) (cx P O n p 0) := by
  rw [val_main_v30_apply, val_main_v29_apply, val_main_v28_apply, val_main_c_4_apply, val_main_v27_apply,
    val_main_v26_apply, val_main_v25_apply, val_main_c_3_apply, val_main_v24_apply, val_main_v23_apply,
    val_main_v22_apply, val_main_c_2_apply, val_main_v21_apply, val_main_v20_apply, val_main_c_apply, cy0_at, cx0_at]
  rfl

/-- The clipped coordinates. -/
theorem clipY0_at : val_main_v31 (F := Ideal) P O (ix2 n p) = clip (cy P O n p 0) := by
  rw [val_main_v31_apply, val_main_call0_v2_apply, val_main_call0_v1_apply, val_main_call0_v0_apply, val_main_c_5_apply,
    val_main_call0_v4_apply, val_main_call0_v3_apply, val_main_c_6_apply, cy0_at]
  rfl
theorem clipX0_at : val_main_v32 (F := Ideal) P O (ix2 n p) = clip (cx P O n p 0) := by
  rw [val_main_v32_apply, val_main_call1_v2_apply, val_main_call1_v1_apply, val_main_call1_v0_apply, val_main_c_7_apply,
    val_main_call1_v4_apply, val_main_call1_v3_apply, val_main_c_8_apply, cx0_at]
  rfl

/-- The lookup's components for the two clipped coordinates: never negative, so left as they are. -/
theorem wrapY0_at : val_main_v42 (F := Ideal) P O (ix2 n p) = clip (cy P O n p 0) := by
  rw [val_main_v42_apply, val_main_v41_apply, val_main_v40_apply, val_main_c_12_apply, val_main_v39_apply,
    val_main_v38_apply, val_main_c_11_apply, clipY0_at]
  exact wrap_clip _
theorem wrapX0_at : val_main_v47 (F := Ideal) P O (ix2 n p) = clip (cx P O n p 0) := by
  rw [val_main_v47_apply, val_main_v46_apply, val_main_v45_apply, val_main_c_14_apply, val_main_v44_apply,
    val_main_v43_apply, val_main_c_13_apply, clipX0_at]
  exact wrap_clip _

/-- The lookup's component for the batch number. -/
theorem batch0_at : val_main_v37 (F := Ideal) (ix2 n (0 : Fin 1)) = BitVec.ofNat 32 n.val := by
  rw [val_main_v37_apply, val_main_v36_apply, val_main_v35_apply, val_main_c_10_apply, val_main_v34_apply,
    val_main_v33_apply, val_main_c_9_apply, iota_at]
  exact wrap_iota n

/-- The index triple of (n, p): batch number, clipped row, clipped column. -/
theorem trip0_0 : val_main_v52 (F := Ideal) P O (ix3 n p (0 : Fin 3)) = BitVec.ofNat 32 n.val := by
  unfold val_main_v52
  rw [triple_apply0, val_main_v49_apply, val_main_v48_apply]
  have hi : idx_main_v48 (idx_main_v49 (ix3 n p (0 : Fin 1))) = ix2 n (0 : Fin 1) :=
    funext fun a => Fin.ext (by match a with | ⟨0, _⟩ => rfl | ⟨1, _⟩ => rfl)
  rw [hi, batch0_at]
theorem trip0_1 : val_main_v52 (F := Ideal) P O (ix3 n p (1 : Fin 3)) = clip (cy P O n p 0) := by
  unfold val_main_v52
  rw [triple_apply1, val_main_v50_apply]
  have hi : idx_main_v50 (ix3 n p (0 : Fin 1)) = ix2 n p :=
    funext fun a => Fin.ext (by match a with | ⟨0, _⟩ => rfl | ⟨1, _⟩ => rfl)
  rw [hi, wrapY0_at]
theorem trip0_2 : val_main_v52 (F := Ideal) P O (ix3 n p (2 : Fin 3)) = clip (cx P O n p 0) := by
  unfold val_main_v52
  rw [triple_apply2, val_main_v51_apply]
  have hi : idx_main_v51 (ix3 n p (0 : Fin 1)) = ix2 n p :=
    funext fun a => Fin.ext (by match a with | ⟨0, _⟩ => rfl | ⟨1, _⟩ => rfl)
  rw [hi, wrapX0_at]

/-- The looked-up feature: the map at batch n, channel c, and the clipped cell. -/
theorem feat0_at : val_main_v53 (F := Ideal) X P O (ix3 n p c) = X (ix4 n c (cl (cy P O n p 0)) (cl (cx P O n p 0))) := by
  have h0 : min (val_main_v52 (F := Ideal) P O (ix3 n p (0 : Fin 3))).toInt.toNat 63 = n.val := by
    rw [trip0_0]; exact clamp_iota n
  have h1 : min (val_main_v52 (F := Ideal) P O (ix3 n p (1 : Fin 3))).toInt.toNat 63 = (cl (cy P O n p 0)).val := by
    rw [trip0_1]; exact clamp_clip _
  have h2 : min (val_main_v52 (F := Ideal) P O (ix3 n p (2 : Fin 3))).toInt.toNat 63 = (cl (cx P O n p 0)).val := by
    rw [trip0_2]; exact clamp_clip _
  unfold val_main_v53
  refine (gather_apply (val_main_v17 (F := Ideal) X) (val_main_v52 (F := Ideal) P O) n p c n (cl (cy P O n p 0)) (cl (cx P O n p 0)) h0 h1 h2).trans ?_
  rw [val_main_v17_apply]
  exact congrArg X (funext fun a => Fin.ext (by match a with | ⟨0, _⟩ => rfl | ⟨1, _⟩ => rfl | ⟨2, _⟩ => rfl | ⟨3, _⟩ => rfl))

/-- The mask as a float, at every channel. -/
theorem maskf0_at : val_main_v56 (F := Ideal) P O (ix3 n p c) = mask (cy P O n p 0) (cx P O n p 0) := by
  rw [val_main_v56_apply, val_main_v55_apply, val_main_v54_apply]
  have hi : idx_main_v54 (idx_main_v56 (ix3 n p c)) = ix2 n p :=
    funext fun a => Fin.ext (by match a with | ⟨0, _⟩ => rfl | ⟨1, _⟩ => rfl)
  rw [hi, inb0_at]
  rfl

/-- The weight, at every channel. -/
theorem wt0_at3 : val_main_v188 (F := Ideal) P O (ix3 n p c) = wt (yOf P O n p) (xOf P O n p) 0 := by
  rw [val_main_v188_apply, val_main_v181_apply]
  have hi : idx_main_v181 (idx_main_v188 (ix3 n p c)) = ix2 n p :=
    funext fun a => Fin.ext (by match a with | ⟨0, _⟩ => rfl | ⟨1, _⟩ => rfl)
  rw [hi, wt0_at]

/-- The corner's contribution is the specification's. -/
theorem corner_0 : val_main_v189 (F := Ideal) X P O (ix3 n p c) = term X P O n p c 0 := by
  rw [val_main_v189_apply, val_main_v57_apply, feat0_at, maskf0_at, wt0_at3]
  rfl

end Cert.ReferenceIdeal.RefValue

end
-- ==== Proof.RefG3_1.lean ====
/-
  The second (y0, x0 + 1) corner of the reference, read at an entry (n, p, c): its two cell coordinates, its in-range bit, the
  clipped coordinates, the index triple of its lookup, the looked-up feature, the mask as a float and the weight; their
  product is the specification's contribution of corner 1.
-/
import proofs.«113401_j14955076124692_1_alg».proof.Proof.RefG1
import proofs.«113401_j14955076124692_1_alg».proof.Proof.RefG2

noncomputable section

namespace Cert.ReferenceIdeal.RefValue

open Cert.ReferenceIdeal Cert.ReferenceIdeal.Gen Cert.ReferenceIdeal.ReadP Cert.Bilin Idealize.ShloMosaic Idealize.ShloMosaic.ValueIdx

variable (X : (⟨S64x256x64x64, .f32⟩ : BufTy).Contents (Elt Ideal)) (P O : (⟨S64x1024x2, .f32⟩ : BufTy).Contents (Elt Ideal)) (n : Fin 64) (p : Fin 1024) (c : Fin 256)

/-- The corner's cell coordinates. -/
theorem cy1_at : val_main_v15 (F := Ideal) P O (ix2 n p) = cy P O n p 1 := by
  rw [cell_y_at]
  exact (Cert.LibWordOrder.add_zero_word _).symm
theorem cx1_at : val_main_v59 (F := Ideal) P O (ix2 n p) = cx P O n p 1 := by
  rw [val_main_v59_apply, val_main_v58_apply, val_main_c_15_apply, cell_x_at]
  rfl

/-- Its in-range bit. -/
theorem inb1_at : val_main_v70 (F := Ideal) P O (ix2 n p) = inb (cy P O n p 1) (cx P O n p 1) := by
  rw [val_main_v70_apply, val_main_v69_apply, val_main_v68_apply, val_main_c_19_apply, val_main_v67_apply,
    val_main_v66_apply, val_main_v65_apply, val_main_c_18_apply, val_main_v64_apply, val_main_v63_apply,
    val_main_v62_apply, val_main_c_17_apply, val_main_v61_apply, val_main_v60_apply, val_main_c_16_apply, cy1_at,
    cx1_at]
  rfl

/-- The clipped coordinates. -/
theorem clipY1_at : val_main_v71 (F := Ideal) P O (ix2 n p) = clip (cy P O n p 1) := by
  rw [val_main_v71_apply, val_main_call2_v2_apply, val_main_call2_v1_apply, val_main_call2_v0_apply,
    val_main_c_20_apply, val_main_call2_v4_apply, val_main_call2_v3_apply, val_main_c_21_apply, cy1_at]
  rfl
theorem clipX1_at : val_main_v72 (F := Ideal) P O (ix2 n p) = clip (cx P O n p 1) := by
  rw [val_main_v72_apply, val_main_call3_v2_apply, val_main_call3_v1_apply, val_main_call3_v0_apply,
    val_main_c_22_apply, val_main_call3_v4_apply, val_main_call3_v3_apply, val_main_c_23_apply, cx1_at]
  rfl

/-- The lookup's components for the two clipped coordinates: never negative, so left as they are. -/
theorem wrapY1_at : val_main_v82 (F := Ideal) P O (ix2 n p) = clip (cy P O n p 1) := by
  rw [val_main_v82_apply, val_main_v81_apply, val_main_v80_apply, val_main_c_27_apply, val_main_v79_apply,
    val_main_v78_apply, val_main_c_26_apply, clipY1_at]
  exact wrap_clip _
theorem wrapX1_at : val_main_v87 (F := Ideal) P O (ix2 n p) = clip (cx P O n p 1) := by
  rw [val_main_v87_apply, val_main_v86_apply, val_main_v85_apply, val_main_c_29_apply, val_main_v84_apply,
    val_main_v83_apply, val_main_c_28_apply, clipX1_at]
  exact wrap_clip _

/-- The lookup's component for the batch number. -/
theorem batch1_at : val_main_v77 (F := Ideal) (ix2 n (0 : Fin 1)) = BitVec.ofNat 32 n.val := by
  rw [val_main_v77_apply, val_main_v76_apply, val_main_v75_apply, val_main_c_25_apply, val_main_v74_apply,
    val_main_v73_apply, val_main_c_24_apply, iota_at]
  exact wrap_iota n

/-- The index triple of (n, p): batch number, clipped row, clipped column. -/
theorem trip1_0 : val_main_v92 (F := Ideal) P O (ix3 n p (0 : Fin 3)) = BitVec.ofNat 32 n.val := by
  unfold val_main_v92
  rw [triple_apply0, val_main_v89_apply, val_main_v88_apply]
  have hi : idx_main_v88 (idx_main_v89 (ix3 n p (0 : Fin 1))) = ix2 n (0 : Fin 1) :=
    funext fun a => Fin.ext (by match a with | ⟨0, _⟩ => rfl | ⟨1, _⟩ => rfl)
  rw [hi, batch1_at]
theorem trip1_1 : val_main_v92 (F := Ideal) P O (ix3 n p (1 : Fin 3)) = clip (cy P O n p 1) := by
  unfold val_main_v92
  rw [triple_apply1, val_main_v90_apply]
  have hi : idx_main_v90 (ix3 n p (0 : Fin 1)) = ix2 n p :=
    funext fun a => Fin.ext (by match a with | ⟨0, _⟩ => rfl | ⟨1, _⟩ => rfl)
  rw [hi, wrapY1_at]
theorem trip1_2 : val_main_v92 (F := Ideal) P O (ix3 n p (2 : Fin 3)) = clip (cx P O n p 1) := by
  unfold val_main_v92
  rw [triple_apply2, val_main_v91_apply]
  have hi : idx_main_v91 (ix3 n p (0 : Fin 1)) = ix2 n p :=
    funext fun a => Fin.ext (by match a with | ⟨0, _⟩ => rfl | ⟨1, _⟩ => rfl)
  rw [hi, wrapX1_at]

/-- The looked-up feature: the map at batch n, channel c, and the clipped cell. -/
theorem feat1_at : val_main_v93 (F := Ideal) X P O (ix3 n p c) = X (ix4 n c (cl (cy P O n p 1)) (cl (cx P O n p 1))) := by
  have h0 : min (val_main_v92 (F := Ideal) P O (ix3 n p (0 : Fin 3))).toInt.toNat 63 = n.val := by
    rw [trip1_0]; exact clamp_iota n
  have h1 : min (val_main_v92 (F := Ideal) P O (ix3 n p (1 : Fin 3))).toInt.toNat 63 = (cl (cy P O n p 1)).val := by
    rw [trip1_1]; exact clamp_clip _
  have h2 : min (val_main_v92 (F := Ideal) P O (ix3 n p (2 : Fin 3))).toInt.toNat 63 = (cl (cx P O n p 1)).val := by
    rw [trip1_2]; exact clamp_clip _
  unfold val_main_v93
  refine (gather_apply (val_main_v17 (F := Ideal) X) (val_main_v92 (F := Ideal) P O) n p c n (cl (cy P O n p 1)) (cl (cx P O n p 1)) h0 h1 h2).trans ?_
  rw [val_main_v17_apply]
  exact congrArg X (funext fun a => Fin.ext (by match a with | ⟨0, _⟩ => rfl | ⟨1, _⟩ => rfl | ⟨2, _⟩ => rfl | ⟨3, _⟩ => rfl))

/-- The mask as a float, at every channel. -/
theorem maskf1_at : val_main_v96 (F := Ideal) P O (ix3 n p c) = mask (cy P O n p 1) (cx P O n p 1) := by
  rw [val_main_v96_apply, val_main_v95_apply, val_main_v94_apply]
  have hi : idx_main_v94 (idx_main_v96 (ix3 n p c)) = ix2 n p :=
    funext fun a => Fin.ext (by match a with | ⟨0, _⟩ => rfl | ⟨1, _⟩ => rfl)
  rw [hi, inb1_at]
  rfl

/-- The weight, at every channel. -/
theorem wt1_at3 : val_main_v190 (F := Ideal) P O (ix3 n p c) = wt (yOf P O n p) (xOf P O n p) 1 := by
  rw [val_main_v190_apply, val_main_v183_apply]
  have hi : idx_main_v183 (idx_main_v190 (ix3 n p c)) = ix2 n p :=
    funext fun a => Fin.ext (by match a with | ⟨0, _⟩ => rfl | ⟨1, _⟩ => rfl)
  rw [hi, wt1_at]

/-- The corner's contribution is the specification's. -/
theorem corner_1 : val_main_v191 (F := Ideal) X P O (ix3 n p c) = term X P O n p c 1 := by
  rw [val_main_v191_apply, val_main_v97_apply, feat1_at, maskf1_at, wt1_at3]
  rfl

end Cert.ReferenceIdeal.RefValue

end
-- ==== Proof.RefG3_2.lean ====
/-
  The third (y0 + 1, x0) corner of the reference, read at an entry (n, p, c): its two cell coordinates, its in-range bit, the
  clipped coordinates, the index triple of its lookup, the looked-up feature, the mask as a float and the weight; their
  product is the specification's contribution of corner 2.
-/
import proofs.«113401_j14955076124692_1_alg».proof.Proof.RefG1
import proofs.«113401_j14955076124692_1_alg».proof.Proof.RefG2

noncomputable section

namespace Cert.ReferenceIdeal.RefValue

open Cert.ReferenceIdeal Cert.ReferenceIdeal.Gen Cert.ReferenceIdeal.ReadP Cert.Bilin Idealize.ShloMosaic Idealize.ShloMosaic.ValueIdx

variable (X : (⟨S64x256x64x64, .f32⟩ : BufTy).Contents (Elt Ideal)) (P O : (⟨S64x1024x2, .f32⟩ : BufTy).Contents (Elt Ideal)) (n : Fin 64) (p : Fin 1024) (c : Fin 256)

/-- The corner's cell coordinates. -/
theorem cy2_at : val_main_v99 (F := Ideal) P O (ix2 n p) = cy P O n p 2 := by
  rw [val_main_v99_apply, val_main_v98_apply, val_main_c_30_apply, cell_y_at]
  rfl
theorem cx2_at : val_main_v16 (F := Ideal) P O (ix2 n p) = cx P O n p 2 := by
  rw [cell_x_at]
  exact (Cert.LibWordOrder.add_zero_word _).symm

/-- Its in-range bit. -/
theorem inb2_at : val_main_v110 (F := Ideal) P O (ix2 n p) = inb (cy P O n p 2) (cx P O n p 2) := by
  rw [val_main_v110_apply, val_main_v109_apply, val_main_v108_apply, val_main_c_34_apply, val_main_v107_apply,
    val_main_v106_apply, val_main_v105_apply, val_main_c_33_apply, val_main_v104_apply, val_main_v103_apply,
    val_main_v102_apply, val_main_c_32_apply, val_main_v101_apply, val_main_v100_apply, val_main_c_31_apply, cy2_at,
    cx2_at]
  rfl

/-- The clipped coordinates. -/
theorem clipY2_at : val_main_v111 (F := Ideal) P O (ix2 n p) = clip (cy P O n p 2) := by
  rw [val_main_v111_apply, val_main_call4_v2_apply, val_main_call4_v1_apply, val_main_call4_v0_apply,
    val_main_c_35_apply, val_main_call4_v4_apply, val_main_call4_v3_apply, val_main_c_36_apply, cy2_at]
  rfl
theorem clipX2_at : val_main_v112 (F := Ideal) P O (ix2 n p) = clip (cx P O n p 2) := by
  rw [val_main_v112_apply, val_main_call5_v2_apply, val_main_call5_v1_apply, val_main_call5_v0_apply,
    val_main_c_37_apply, val_main_call5_v4_apply, val_main_call5_v3_apply, val_main_c_38_apply, cx2_at]
  rfl

/-- The lookup's components for the two clipped coordinates: never negative, so left as they are. -/
theorem wrapY2_at : val_main_v122 (F := Ideal) P O (ix2 n p) = clip (cy P O n p 2) := by
  rw [val_main_v122_apply, val_main_v121_apply, val_main_v120_apply, val_main_c_42_apply, val_main_v119_apply,
    val_main_v118_apply, val_main_c_41_apply, clipY2_at]
  exact wrap_clip _
theorem wrapX2_at : val_main_v127 (F := Ideal) P O (ix2 n p) = clip (cx P O n p 2) := by
  rw [val_main_v127_apply, val_main_v126_apply, val_main_v125_apply, val_main_c_44_apply, val_main_v124_apply,
    val_main_v123_apply, val_main_c_43_apply, clipX2_at]
  exact wrap_clip _

/-- The lookup's component for the batch number. -/
theorem batch2_at : val_main_v117 (F := Ideal) (ix2 n (0 : Fin 1)) = BitVec.ofNat 32 n.val := by
  rw [val_main_v117_apply, val_main_v116_apply, val_main_v115_apply, val_main_c_40_apply, val_main_v114_apply,
    val_main_v113_apply, val_main_c_39_apply, iota_at]
  exact wrap_iota n

/-- The index triple of (n, p): batch number, clipped row, clipped column. -/
theorem trip2_0 : val_main_v132 (F := Ideal) P O (ix3 n p (0 : Fin 3)) = BitVec.ofNat 32 n.val := by
  unfold val_main_v132
  rw [triple_apply0, val_main_v129_apply, val_main_v128_apply]
  have hi : idx_main_v128 (idx_main_v129 (ix3 n p (0 : Fin 1))) = ix2 n (0 : Fin 1) :=
    funext fun a => Fin.ext (by match a with | ⟨0, _⟩ => rfl | ⟨1, _⟩ => rfl)
  rw [hi, batch2_at]
theorem trip2_1 : val_main_v132 (F := Ideal) P O (ix3 n p (1 : Fin 3)) = clip (cy P O n p 2) := by
  unfold val_main_v132
  rw [triple_apply1, val_main_v130_apply]
  have hi : idx_main_v130 (ix3 n p (0 : Fin 1)) = ix2 n p :=
    funext fun a => Fin.ext (by match a with | ⟨0, _⟩ => rfl | ⟨1, _⟩ => rfl)
  rw [hi, wrapY2_at]
theorem trip2_2 : val_main_v132 (F := Ideal) P O (ix3 n p (2 : Fin 3)) = clip (cx P O n p 2) := by
  unfold val_main_v132
  rw [triple_apply2, val_main_v131_apply]
  have hi : idx_main_v131 (ix3 n p (0 : Fin 1)) = ix2 n p :=
    funext fun a => Fin.ext (by match a with | ⟨0, _⟩ => rfl | ⟨1, _⟩ => rfl)
  rw [hi, wrapX2_at]

/-- The looked-up feature: the map at batch n, channel c, and the clipped cell. -/
theorem feat2_at : val_main_v133 (F := Ideal) X P O (ix3 n p c) = X (ix4 n c (cl (cy P O n p 2)) (cl (cx P O n p 2))) := by
  have h0 : min (val_main_v132 (F := Ideal) P O (ix3 n p (0 : Fin 3))).toInt.toNat 63 = n.val := by
    rw [trip2_0]; exact clamp_iota n
  have h1 : min (val_main_v132 (F := Ideal) P O (ix3 n p (1 : Fin 3))).toInt.toNat 63 = (cl (cy P O n p 2)).val := by
    rw [trip2_1]; exact clamp_clip _
  have h2 : min (val_main_v132 (F := Ideal) P O (ix3 n p (2 : Fin 3))).toInt.toNat 63 = (cl (cx P O n p 2)).val := by
    rw [trip2_2]; exact clamp_clip _
  unfold val_main_v133
  refine (gather_apply (val_main_v17 (F := Ideal) X) (val_main_v132 (F := Ideal) P O) n p c n (cl (cy P O n p 2)) (cl (cx P O n p 2)) h0 h1 h2).trans ?_
  rw [val_main_v17_apply]
  exact congrArg X (funext fun a => Fin.ext (by match a with | ⟨0, _⟩ => rfl | ⟨1, _⟩ => rfl | ⟨2, _⟩ => rfl | ⟨3, _⟩ => rfl))

/-- The mask as a float, at every channel. -/
theorem maskf2_at : val_main_v136 (F := Ideal) P O (ix3 n p c) = mask (cy P O n p 2) (cx P O n p 2) := by
  rw [val_main_v136_apply, val_main_v135_apply, val_main_v134_apply]
  have hi : idx_main_v134 (idx_main_v136 (ix3 n p c)) = ix2 n p :=
    funext fun a => Fin.ext (by match a with | ⟨0, _⟩ => rfl | ⟨1, _⟩ => rfl)
  rw [hi, inb2_at]
  rfl

/-- The weight, at every channel. -/
theorem wt2_at3 : val_main_v193 (F := Ideal) P O (ix3 n p c) = wt (yOf P O n p) (xOf P O n p) 2 := by
  rw [val_main_v193_apply, val_main_v185_apply]
  have hi : idx_main_v185 (idx_main_v193 (ix3 n p c)) = ix2 n p :=
    funext fun a => Fin.ext (by match a with | ⟨0, _⟩ => rfl | ⟨1, _⟩ => rfl)
  rw [hi, wt2_at]

/-- The corner's contribution is the specification's. -/
theorem corner_2 : val_main_v194 (F := Ideal) X P O (ix3 n p c) = term X P O n p c 2 := by
  rw [val_main_v194_apply, val_main_v137_apply, feat2_at, maskf2_at, wt2_at3]
  rfl

end Cert.ReferenceIdeal.RefValue

end
-- ==== Proof.RefG3_3.lean ====
/-
  The fourth (y0 + 1, x0 + 1) corner of the reference, read at an entry (n, p, c): its two cell coordinates, its in-range bit, the
  clipped coordinates, the index triple of its lookup, the looked-up feature, the mask as a float and the weight; their
  product is the specification's contribution of corner 3.
-/
import proofs.«113401_j14955076124692_1_alg».proof.Proof.RefG1
import proofs.«113401_j14955076124692_1_alg».proof.Proof.RefG2

noncomputable section

namespace Cert.ReferenceIdeal.RefValue

open Cert.ReferenceIdeal Cert.ReferenceIdeal.Gen Cert.ReferenceIdeal.ReadP Cert.Bilin Idealize.ShloMosaic Idealize.ShloMosaic.ValueIdx

variable (X : (⟨S64x256x64x64, .f32⟩ : BufTy).Contents (Elt Ideal)) (P O : (⟨S64x1024x2, .f32⟩ : BufTy).Contents (Elt Ideal)) (n : Fin 64) (p : Fin 1024) (c : Fin 256)

/-- The corner's cell coordinates. -/
theorem cy3_at : val_main_v139 (F := Ideal) P O (ix2 n p) = cy P O n p 3 := by
  rw [val_main_v139_apply, val_main_v138_apply, val_main_c_45_apply, cell_y_at]
  rfl
theorem cx3_at : val_main_v141 (F := Ideal) P O (ix2 n p) = cx P O n p 3 := by
  rw [val_main_v141_apply, val_main_v140_apply, val_main_c_46_apply, cell_x_at]
  rfl

/-- Its in-range bit. -/
theorem inb3_at : val_main_v152 (F := Ideal) P O (ix2 n p) = inb (cy P O n p 3) (cx P O n p 3) := by
  rw [val_main_v152_apply, val_main_v151_apply, val_main_v150_apply, val_main_c_50_apply, val_main_v149_apply,
    val_main_v148_apply, val_main_v147_apply, val_main_c_49_apply, val_main_v146_apply, val_main_v145_apply,
    val_main_v144_apply, val_main_c_48_apply, val_main_v143_apply, val_main_v142_apply, val_main_c_47_apply, cy3_at,
    cx3_at]
  rfl

/-- The clipped coordinates. -/
theorem clipY3_at : val_main_v153 (F := Ideal) P O (ix2 n p) = clip (cy P O n p 3) := by
  rw [val_main_v153_apply, val_main_call6_v2_apply, val_main_call6_v1_apply, val_main_call6_v0_apply,
    val_main_c_51_apply, val_main_call6_v4_apply, val_main_call6_v3_apply, val_main_c_52_apply, cy3_at]
  rfl
theorem clipX3_at : val_main_v154 (F := Ideal) P O (ix2 n p) = clip (cx P O n p 3) := by
  rw [val_main_v154_apply, val_main_call7_v2_apply, val_main_call7_v1_apply, val_main_call7_v0_apply,
    val_main_c_53_apply, val_main_call7_v4_apply, val_main_call7_v3_apply, val_main_c_54_apply, cx3_at]
  rfl

/-- The lookup's components for the two clipped coordinates: never negative, so left as they are. -/
theorem wrapY3_at : val_main_v164 (F := Ideal) P O (ix2 n p) = clip (cy P O n p 3) := by
  rw [val_main_v164_apply, val_main_v163_apply, val_main_v162_apply, val_main_c_58_apply, val_main_v161_apply,
    val_main_v160_apply, val_main_c_57_apply, clipY3_at]
  exact wrap_clip _
theorem wrapX3_at : val_main_v169 (F := Ideal) P O (ix2 n p) = clip (cx P O n p 3) := by
  rw [val_main_v169_apply, val_main_v168_apply, val_main_v167_apply, val_main_c_60_apply, val_main_v166_apply,
    val_main_v165_apply, val_main_c_59_apply, clipX3_at]
  exact wrap_clip _

/-- The lookup's component for the batch number. -/
theorem batch3_at : val_main_v159 (F := Ideal) (ix2 n (0 : Fin 1)) = BitVec.ofNat 32 n.val := by
  rw [val_main_v159_apply, val_main_v158_apply, val_main_v157_apply, val_main_c_56_apply, val_main_v156_apply,
    val_main_v155_apply, val_main_c_55_apply, iota_at]
  exact wrap_iota n

/-- The index triple of (n, p): batch number, clipped row, clipped column. -/
theorem trip3_0 : val_main_v174 (F := Ideal) P O (ix3 n p (0 : Fin 3)) = BitVec.ofNat 32 n.val := by
  unfold val_main_v174
  rw [triple_apply0, val_main_v171_apply, val_main_v170_apply]
  have hi : idx_main_v170 (idx_main_v171 (ix3 n p (0 : Fin 1))) = ix2 n (0 : Fin 1) :=
    funext fun a => Fin.ext (by match a with | ⟨0, _⟩ => rfl | ⟨1, _⟩ => rfl)
  rw [hi, batch3_at]
theorem trip3_1 : val_main_v174 (F := Ideal) P O (ix3 n p (1 : Fin 3)) = clip (cy P O n p 3) := by
  unfold val_main_v174
  rw [triple_apply1, val_main_v172_apply]
  have hi : idx_main_v172 (ix3 n p (0 : Fin 1)) = ix2 n p :=
    funext fun a => Fin.ext (by match a with | ⟨0, _⟩ => rfl | ⟨1, _⟩ => rfl)
  rw [hi, wrapY3_at]
theorem trip3_2 : val_main_v174 (F := Ideal) P O (ix3 n p (2 : Fin 3)) = clip (cx P O n p 3) := by
  unfold val_main_v174
  rw [triple_apply2, val_main_v173_apply]
  have hi : idx_main_v173 (ix3 n p (0 : Fin 1)) = ix2 n p :=
    funext fun a => Fin.ext (by match a with | ⟨0, _⟩ => rfl | ⟨1, _⟩ => rfl)
  rw [hi, wrapX3_at]

/-- The looked-up feature: the map at batch n, channel c, and the clipped cell. -/
theorem feat3_at : val_main_v175 (F := Ideal) X P O (ix3 n p c) = X (ix4 n c (cl (cy P O n p 3)) (cl (cx P O n p 3))) := by
  have h0 : min (val_main_v174 (F := Ideal) P O (ix3 n p (0 : Fin 3))).toInt.toNat 63 = n.val := by
    rw [trip3_0]; exact clamp_iota n
  have h1 : min (val_main_v174 (F := Ideal) P O (ix3 n p (1 : Fin 3))).toInt.toNat 63 = (cl (cy P O n p 3)).val := by
    rw [trip3_1]; exact clamp_clip _
  have h2 : min (val_main_v174 (F := Ideal) P O (ix3 n p (2 : Fin 3))).toInt.toNat 63 = (cl (cx P O n p 3)).val := by
    rw [trip3_2]; exact clamp_clip _
  unfold val_main_v175
  refine (gather_apply (val_main_v17 (F := Ideal) X) (val_main_v174 (F := Ideal) P O) n p c n (cl (cy P O n p 3)) (cl (cx P O n p 3)) h0 h1 h2).trans ?_
  rw [val_main_v17_apply]
  exact congrArg X (funext fun a => Fin.ext (by match a with | ⟨0, _⟩ => rfl | ⟨1, _⟩ => rfl | ⟨2, _⟩ => rfl | ⟨3, _⟩ => rfl))

/-- The mask as a float, at every channel. -/
theorem maskf3_at : val_main_v178 (F := Ideal) P O (ix3 n p c) = mask (cy P O n p 3) (cx P O n p 3) := by
  rw [val_main_v178_apply, val_main_v177_apply, val_main_v176_apply]
  have hi : idx_main_v176 (idx_main_v178 (ix3 n p c)) = ix2 n p :=
    funext fun a => Fin.ext (by match a with | ⟨0, _⟩ => rfl | ⟨1, _⟩ => rfl)
  rw [hi, inb3_at]
  rfl

/-- The weight, at every channel. -/
theorem wt3_at3 : val_main_v196 (F := Ideal) P O (ix3 n p c) = wt (yOf P O n p) (xOf P O n p) 3 := by
  rw [val_main_v196_apply, val_main_v187_apply]
  have hi : idx_main_v187 (idx_main_v196 (ix3 n p c)) = ix2 n p :=
    funext fun a => Fin.ext (by match a with | ⟨0, _⟩ => rfl | ⟨1, _⟩ => rfl)
  rw [hi, wt3_at]

/-- The corner's contribution is the specification's. -/
theorem corner_3 : val_main_v197 (F := Ideal) X P O (ix3 n p c) = term X P O n p c 3 := by
  rw [val_main_v197_apply, val_main_v179_apply, feat3_at, maskf3_at, wt3_at3]
  rfl

end Cert.ReferenceIdeal.RefValue

end
-- ==== Proof.RefG.lean ====
/-
  The reference computes the specification: at every entry (n, p, c) its result is the sum, left to right, of the four
  corners' contributions, each of which is the specification's.
-/
import proofs.«113401_j14955076124692_1_alg».proof.Proof.RefG3_0
import proofs.«113401_j14955076124692_1_alg».proof.Proof.RefG3_1
import proofs.«113401_j14955076124692_1_alg».proof.Proof.RefG3_2
import proofs.«113401_j14955076124692_1_alg».proof.Proof.RefG3_3

noncomputable section

namespace Cert.ReferenceIdeal.RefValue

open Cert.ReferenceIdeal Cert.ReferenceIdeal.Gen Cert.ReferenceIdeal.ReadP Cert.Bilin Idealize.ShloMosaic Idealize.ShloMosaic.ValueIdx

/-- The reference's result, as a whole array, is the specification's. -/
theorem ref_is_G (X : (⟨S64x256x64x64, .f32⟩ : BufTy).Contents (Elt Ideal)) (P O : (⟨S64x1024x2, .f32⟩ : BufTy).Contents (Elt Ideal)) :
    Cert.ReferenceIdeal.ReadP.val_main_v198 (F := Ideal) X P O = Cert.Bilin.GA X P O := by
  funext i
  obtain ⟨n, p, c, rfl⟩ : ∃ (n : Fin 64) (p : Fin 1024) (c : Fin 256), i = ix3 n p c := ⟨i 0, i 1, i 2, eq_ix3 i⟩
  rw [val_main_v198_apply, val_main_v195_apply, val_main_v192_apply, corner_0, corner_1, corner_2, corner_3]
  rfl

end Cert.ReferenceIdeal.RefValue

end
-- ==== Proof.LibSsa.lean ====
/-
  A straight line of host operations in which every operation writes one buffer of its own that no later operation
  writes again. After the whole line a buffer the line does not write holds what it held before, and the buffer an
  operation writes holds that operation's function of the contents, AFTER THE WHOLE LINE, of the buffers it reads:
  the final contents satisfy every operation's defining equation at once. Stated for the operations built from zero to
  three operands, from a family of operands, and for a reshape. Independent of any program.
-/
import Idealize.ShloMosaic.Lib.StableHlo.Run

namespace Cert.LibSsa

open Idealize.ShloMosaic Idealize.ShloMosaic.StableHlo

variable {τ : Topo} {sig : RefSig} {Val : EltTy → Type}

/-- The operations write, one buffer each and in order, the buffers of the references `W`. -/
def Aligned : List (HloOp τ sig Val) → List (Ref sig .tc) → Prop
  | [], [] => True
  | op :: ops, r :: W => op.writes = {Proc.devRef (τ := τ) .tc r} ∧ Aligned ops W
  | [], _ :: _ => False
  | _ :: _, [] => False

theorem Aligned.nil : Aligned ([] : List (HloOp τ sig Val)) [] := trivial

theorem Aligned.cons {op : HloOp τ sig Val} {ops : List (HloOp τ sig Val)} {r : Ref sig .tc} {W : List (Ref sig .tc)}
    (h1 : op.writes = {Proc.devRef (τ := τ) .tc r}) (h2 : Aligned ops W) : Aligned (op :: ops) (r :: W) := ⟨h1, h2⟩

/-- As many operations as references. -/
theorem Aligned.length_eq : ∀ {ops : List (HloOp τ sig Val)} {W : List (Ref sig .tc)}, Aligned ops W → ops.length = W.length
  | [], [], _ => rfl
  | _ :: _, _ :: _, h => congrArg (· + 1) (Aligned.length_eq h.2)
  | [], _ :: _, h => h.elim
  | _ :: _, [], h => h.elim

/-- The operations from position k on write the references from position k on. -/
theorem Aligned.drop : ∀ {ops : List (HloOp τ sig Val)} {W : List (Ref sig .tc)} (k : Nat),
    Aligned ops W → Aligned (ops.drop k) (W.drop k)
  | _, _, 0, h => h
  | [], [], _ + 1, _ => trivial
  | _ :: _, _ :: _, k + 1, h => Aligned.drop k h.2
  | [], _ :: _, _ + 1, h => h.elim
  | _ :: _, [], _ + 1, h => h.elim

/-- A buffer whose reference is none of those the line writes keeps its contents. -/
theorem after_keep : ∀ {ops : List (HloOp τ sig Val)} {W : List (Ref sig .tc)}, Aligned ops W →
    ∀ (V : Valuation τ sig Val) (r : Ref sig .tc), r ∉ W → after ops V (Proc.devRef .tc r) = V (Proc.devRef .tc r)
  | [], [], _, _, _, _ => rfl
  | op :: ops, r' :: W, h, V, r, hr => by
    rw [after_cons, after_keep h.2 _ r (fun hm => hr (List.mem_cons_of_mem _ hm)),
      op.result_of_not_mem V (by
        rw [h.1, Finset.mem_singleton]
        exact fun e => hr (by rw [Proc.devRef_injective _ e]; exact List.mem_cons_self))]
  | [], _ :: _, h, _, _, _ => h.elim
  | _ :: _, [], h, _, _, _ => h.elim

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {W : List (Ref sig .tc)}

/-- The buffer the operation at position k writes, never written later, holds after the whole line that operation's
    result on the contents after the first k operations. -/
theorem after_at (h : Aligned ops W) (k : Nat) (hk : k < W.length) (V : Valuation τ sig Val) (y : Ref sig .tc)
    (hy : y ∉ W.drop (k + 1)) :
    after ops V (Proc.devRef .tc y)
      = (ops[k]'(h.length_eq ▸ hk)).result (after (ops.take k) V) (Proc.devRef .tc y) := by
  have hk' : k < ops.length := h.length_eq ▸ hk
  have hs : ops = ops.take k ++ ops[k] :: ops.drop (k + 1) := by
    rw [← List.drop_eq_getElem_cons hk', List.take_append_drop]
  conv_lhs => rw [hs]
  rw [after_append, after_cons, after_keep (h.drop (k + 1)) _ y hy]

/-- A buffer the operations from position k on do not write holds after the whole line what it held after the first k. -/
theorem after_from (h : Aligned ops W) (k : Nat) (V : Valuation τ sig Val) (x : Ref sig .tc) (hx : x ∉ W.drop k) :
    after ops V (Proc.devRef .tc x) = after (ops.take k) V (Proc.devRef .tc x) := by
  conv_lhs => rw [← List.take_append_drop k ops]
  rw [after_append, after_keep (h.drop k) _ x hx]

/-- The defining equation of an operation without operands, -/
theorem nullary_fix (h : Aligned ops W) (k : Nat) (hk : k < W.length) (V : Valuation τ sig Val)
    (y : Ref sig .tc) (v : y.ty.Contents Val) (hy)
    (hop : ops[k]'(h.length_eq ▸ hk) = nullary y v hy) (hy' : y ∉ W.drop (k + 1)) :
    after ops V (Proc.devRef .tc y) = v := by
  rw [after_at h k hk V y hy', hop, nullary_result]

/-- of one operand, -/
theorem unary_fix (h : Aligned ops W) (k : Nat) (hk : k < W.length) (V : Valuation τ sig Val)
    (x y : Ref sig .tc) (f : x.ty.Contents Val → y.ty.Contents Val) (hx hy)
    (hop : ops[k]'(h.length_eq ▸ hk) = unary x y f hx hy) (hy' : y ∉ W.drop (k + 1)) (hx' : x ∉ W.drop k) :
    after ops V (Proc.devRef .tc y) = f (after ops V (Proc.devRef .tc x)) := by
  rw [after_at h k hk V y hy', hop, unary_result, after_from h k V x hx']

/-- of two, -/
theorem binary_fix (h : Aligned ops W) (k : Nat) (hk : k < W.length) (V : Valuation τ sig Val)
    (a b y : Ref sig .tc) (f : a.ty.Contents Val → b.ty.Contents Val → y.ty.Contents Val) (ha hb hy)
    (hop : ops[k]'(h.length_eq ▸ hk) = binary a b y f ha hb hy) (hy' : y ∉ W.drop (k + 1)) (ha' : a ∉ W.drop k) (hb' : b ∉ W.drop k) :
    after ops V (Proc.devRef .tc y) = f (after ops V (Proc.devRef .tc a)) (after ops V (Proc.devRef .tc b)) := by
  rw [after_at h k hk V y hy', hop, binary_result, after_from h k V a ha', after_from h k V b hb']

/-- of three, -/
theorem ternary_fix (h : Aligned ops W) (k : Nat) (hk : k < W.length) (V : Valuation τ sig Val)
    (c a b y : Ref sig .tc) (f : c.ty.Contents Val → a.ty.Contents Val → b.ty.Contents Val → y.ty.Contents Val)
    (hc ha hb hy) (hop : ops[k]'(h.length_eq ▸ hk) = ternary c a b y f hc ha hb hy) (hy' : y ∉ W.drop (k + 1)) (hc' : c ∉ W.drop k)
    (ha' : a ∉ W.drop k) (hb' : b ∉ W.drop k) :
    after ops V (Proc.devRef .tc y)
      = f (after ops V (Proc.devRef .tc c)) (after ops V (Proc.devRef .tc a)) (after ops V (Proc.devRef .tc b)) := by
  rw [after_at h k hk V y hy', hop, ternary_result, after_from h k V c hc', after_from h k V a ha',
    after_from h k V b hb']

/-- of a family of operands, -/
theorem nary_fix (h : Aligned ops W) (k : Nat) (hk : k < W.length) (V : Valuation τ sig Val)
    {n : Nat} (xs : Fin n → Ref sig .tc) (y : Ref sig .tc)
    (f : ((j : Fin n) → (xs j).ty.Contents Val) → y.ty.Contents Val) (hxs hy)
    (hop : ops[k]'(h.length_eq ▸ hk) = nary xs y f hxs hy) (hy' : y ∉ W.drop (k + 1)) (hxs' : ∀ j, xs j ∉ W.drop k) :
    after ops V (Proc.devRef .tc y) = f (fun j => after ops V (Proc.devRef .tc (xs j))) := by
  rw [after_at h k hk V y hy', hop, nary_result]
  exact congrArg f (funext fun j => (after_from h k V (xs j) (hxs' j)).symm)

/-- and of a reshape. -/
theorem reshape_fix (h : Aligned ops W) (k : Nat) (hk : k < W.length) (V : Valuation τ sig Val)
    (x y : Ref sig .tc) (he : x.ty.elt = y.ty.elt) (hn : x.ty.shape.ShapeCasts y.ty.shape) (hx hy)
    (hop : ops[k]'(h.length_eq ▸ hk) = reshape x y he hn hx hy) (hy' : y ∉ W.drop (k + 1)) (hx' : x ∉ W.drop k) :
    after ops V (Proc.devRef .tc y)
      = fun i => he ▸ shapeCast y.ty.shape (after ops V (Proc.devRef .tc x)) hn i := by
  rw [after_at h k hk V y hy', hop, reshape_result, after_from h k V x hx']

end Cert.LibSsa
-- ==== Proof.RefSt0.lean ====
/-
  The reference's buffers after its whole line of operations, one by one: each operation writes a buffer of its own,
  never written again, so the final contents of that buffer are the operation's function of the final contents of its
  operands; by induction along the line each buffer ends holding its stage's value as a function of the three argument
  arrays, and the argument arrays, which no operation writes, end unchanged. One lemma per operation, in the line's order.
-/
import proofs.«113401_j14955076124692_1_alg».proof.Proof.RunPa
import proofs.«113401_j14955076124692_1_alg».proof.Proof.ReadP
import proofs.«113401_j14955076124692_1_alg».proof.Proof.LibSsa

noncomputable section

namespace Cert.ReferenceIdeal.RefValue

open Cert.ReferenceIdeal Cert.ReferenceIdeal.Gen Cert.ReferenceIdeal.ValueP Cert.LibSsa Idealize.ShloMosaic Idealize.ShloMosaic.TcCoe Idealize.SL.Sem Idealize.ShloMosaic.StableHlo

variable {F : FTy → Type} [FloatOps F]

/-- The buffers the operations write, in the operations' order. -/
abbrev wlist : List (Ref sig .tc) :=
  [main_cst, main_v0, main_v1, main_v2, main_v3, main_v4, main_v5, main_v6, main_v7, main_v8, main_v9, main_v10,
   main_cst_0, main_v11, main_v12, main_cst_1, main_v13, main_v14, main_v15, main_v16, main_v17, main_v18, main_v19,
   main_c, main_v20, main_v21, main_c_2, main_v22, main_v23, main_v24, main_c_3, main_v25, main_v26, main_v27,
   main_c_4, main_v28, main_v29, main_v30, main_c_5, main_c_6, main_call0_v0, main_call0_v1, main_call0_v2,
   main_call0_v3, main_call0_v4, main_v31, main_c_7, main_c_8, main_call1_v0, main_call1_v1, main_call1_v2,
   main_call1_v3, main_call1_v4, main_v32, main_c_9, main_v33, main_v34, main_c_10, main_v35, main_v36, main_v37,
   main_c_11, main_v38, main_v39, main_c_12, main_v40, main_v41, main_v42, main_c_13, main_v43, main_v44, main_c_14,
   main_v45, main_v46, main_v47, main_v48, main_v49, main_v50, main_v51, main_v52, main_v53, main_v54, main_v55,
   main_v56, main_v57, main_c_15, main_v58, main_v59, main_c_16, main_v60, main_v61, main_c_17, main_v62, main_v63,
   main_v64, main_c_18, main_v65, main_v66, main_v67, main_c_19, main_v68, main_v69, main_v70, main_c_20, main_c_21,
   main_call2_v0, main_call2_v1, main_call2_v2, main_call2_v3, main_call2_v4, main_v71, main_c_22, main_c_23,
   main_call3_v0, main_call3_v1, main_call3_v2, main_call3_v3, main_call3_v4, main_v72, main_c_24, main_v73,
   main_v74, main_c_25, main_v75, main_v76, main_v77, main_c_26, main_v78, main_v79, main_c_27, main_v80, main_v81,
   main_v82, main_c_28, main_v83, main_v84, main_c_29, main_v85, main_v86, main_v87, main_v88, main_v89, main_v90,
   main_v91, main_v92, main_v93, main_v94, main_v95, main_v96, main_v97, main_c_30, main_v98, main_v99, main_c_31,
   main_v100, main_v101, main_c_32, main_v102, main_v103, main_v104, main_c_33, main_v105, main_v106, main_v107,
   main_c_34, main_v108, main_v109, main_v110, main_c_35, main_c_36, main_call4_v0, main_call4_v1, main_call4_v2,
   main_call4_v3, main_call4_v4, main_v111, main_c_37, main_c_38, main_call5_v0, main_call5_v1, main_call5_v2,
   main_call5_v3, main_call5_v4, main_v112, main_c_39, main_v113, main_v114, main_c_40, main_v115, main_v116,
   main_v117, main_c_41, main_v118, main_v119, main_c_42, main_v120, main_v121, main_v122, main_c_43, main_v123,
   main_v124, main_c_44, main_v125, main_v126, main_v127, main_v128, main_v129, main_v130, main_v131, main_v132,
   main_v133, main_v134, main_v135, main_v136, main_v137, main_c_45, main_v138, main_v139, main_c_46, main_v140,
   main_v141, main_c_47, main_v142, main_v143, main_c_48, main_v144, main_v145, main_v146, main_c_49, main_v147,
   main_v148, main_v149, main_c_50, main_v150, main_v151, main_v152, main_c_51, main_c_52, main_call6_v0,
   main_call6_v1, main_call6_v2, main_call6_v3, main_call6_v4, main_v153, main_c_53, main_c_54, main_call7_v0,
   main_call7_v1, main_call7_v2, main_call7_v3, main_call7_v4, main_v154, main_c_55, main_v155, main_v156,
   main_c_56, main_v157, main_v158, main_v159, main_c_57, main_v160, main_v161, main_c_58, main_v162, main_v163,
   main_v164, main_c_59, main_v165, main_v166, main_c_60, main_v167, main_v168, main_v169, main_v170, main_v171,
   main_v172, main_v173, main_v174, main_v175, main_v176, main_v177, main_v178, main_v179, main_v180, main_v181,
   main_v182, main_v183, main_v184, main_v185, main_v186, main_v187, main_v188, main_v189, main_v190, main_v191,
   main_v192, main_v193, main_v194, main_v195, main_v196, main_v197, main_v198]

/-- Every operation writes the buffer listed at its position, and no other. -/
theorem aligned : Aligned (ops (F := F)) wlist := by
  repeat (first | exact Aligned.nil | refine Aligned.cons rfl ?_)

variable (V : Valuation τ sig (Elt F))

/-- No operation writes an argument array. -/
theorem st_arg0 : after (ops (F := F)) V (Proc.devRef .tc main_arg0) = V (Proc.devRef .tc main_arg0) := after_keep aligned V main_arg0 (by decide)
theorem st_arg1 : after (ops (F := F)) V (Proc.devRef .tc main_arg1) = V (Proc.devRef .tc main_arg1) := after_keep aligned V main_arg1 (by decide)
theorem st_arg2 : after (ops (F := F)) V (Proc.devRef .tc main_arg2) = V (Proc.devRef .tc main_arg2) := after_keep aligned V main_arg2 (by decide)

/-- Stage by stage. -/
theorem st_cst : after (ops (F := F)) V (Proc.devRef .tc main_cst) = ReadP.val_main_cst (F := F) :=
  (nullary_fix aligned 0 (by decide) V main_cst _ ⟨by decide, rfl⟩ rfl (by decide)).trans rfl
theorem st_v0 : after (ops (F := F)) V (Proc.devRef .tc main_v0) = ReadP.val_main_v0 (F := F) :=
  (unary_fix aligned 1 (by decide) V main_cst main_v0 _ ⟨by decide, rfl⟩ ⟨by decide, rfl⟩ rfl (by decide) (by decide)).trans (by rw [st_cst V] <;> rfl)
theorem st_v1 : after (ops (F := F)) V (Proc.devRef .tc main_v1) = ReadP.val_main_v1 (F := F) (V (Proc.devRef .tc main_arg2)) :=
  (binary_fix aligned 2 (by decide) V main_v0 main_arg2 main_v1 _ ⟨by decide, rfl⟩ ⟨by decide, rfl⟩ ⟨by decide, rfl⟩ rfl (by decide) (by decide) (by decide)).trans (by rw [st_v0 V, st_arg2 V] <;> rfl)
theorem st_v2 : after (ops (F := F)) V (Proc.devRef .tc main_v2) = ReadP.val_main_v2 (F := F) (V (Proc.devRef .tc main_arg1)) (V (Proc.devRef .tc main_arg2)) :=
  (binary_fix aligned 3 (by decide) V main_arg1 main_v1 main_v2 _ ⟨by decide, rfl⟩ ⟨by decide, rfl⟩ ⟨by decide, rfl⟩ rfl (by decide) (by decide) (by decide)).trans (by rw [st_arg1 V, st_v1 V] <;> rfl)
theorem st_v3 : after (ops (F := F)) V (Proc.devRef .tc main_v3) = ReadP.val_main_v3 (F := F) (V (Proc.devRef .tc main_arg1)) (V (Proc.devRef .tc main_arg2)) :=
  (unary_fix aligned 4 (by decide) V main_v2 main_v3 ((extractStridedSlice S64x1024x1 ![0, 0, 0] · slices_S64x1024x2_S64x1024x1_0_0_0) : (⟨S64x1024x2, .f32⟩ : BufTy).Contents (Elt F) → (⟨S64x1024x1, .f32⟩ : BufTy).Contents (Elt F)) ⟨by decide, rfl⟩ ⟨by decide, rfl⟩ rfl (by decide) (by decide)).trans (by rw [st_v2 V] <;> rfl)
theorem st_v4 : after (ops (F := F)) V (Proc.devRef .tc main_v4) = ReadP.val_main_v4 (F := F) (V (Proc.devRef .tc main_arg1)) (V (Proc.devRef .tc main_arg2)) :=
  (reshape_fix aligned 5 (by decide) V main_v3 main_v4 rfl _ ⟨by decide, rfl⟩ ⟨by decide, rfl⟩ rfl (by decide) (by decide)).trans (by rw [st_v3 V] <;> rfl)
theorem st_v5 : after (ops (F := F)) V (Proc.devRef .tc main_v5) = ReadP.val_main_v5 (F := F) (V (Proc.devRef .tc main_arg1)) (V (Proc.devRef .tc main_arg2)) :=
  (unary_fix aligned 6 (by decide) V main_v2 main_v5 ((extractStridedSlice S64x1024x1 ![0, 0, 1] · slices_S64x1024x2_S64x1024x1_0_0_1) : (⟨S64x1024x2, .f32⟩ : BufTy).Contents (Elt F) → (⟨S64x1024x1, .f32⟩ : BufTy).Contents (Elt F)) ⟨by decide, rfl⟩ ⟨by decide, rfl⟩ rfl (by decide) (by decide)).trans (by rw [st_v2 V] <;> rfl)
theorem st_v6 : after (ops (F := F)) V (Proc.devRef .tc main_v6) = ReadP.val_main_v6 (F := F) (V (Proc.devRef .tc main_arg1)) (V (Proc.devRef .tc main_arg2)) :=
  (reshape_fix aligned 7 (by decide) V main_v5 main_v6 rfl _ ⟨by decide, rfl⟩ ⟨by decide, rfl⟩ rfl (by decide) (by decide)).trans (by rw [st_v5 V] <;> rfl)
theorem st_v7 : after (ops (F := F)) V (Proc.devRef .tc main_v7) = ReadP.val_main_v7 (F := F) (V (Proc.devRef .tc main_arg1)) (V (Proc.devRef .tc main_arg2)) :=
  (unary_fix aligned 8 (by decide) V main_v4 main_v7 _ ⟨by decide, rfl⟩ ⟨by decide, rfl⟩ rfl (by decide) (by decide)).trans (by rw [st_v4 V] <;> rfl)
theorem st_v8 : after (ops (F := F)) V (Proc.devRef .tc main_v8) = ReadP.val_main_v8 (F := F) (V (Proc.devRef .tc main_arg1)) (V (Proc.devRef .tc main_arg2)) :=
  (unary_fix aligned 9 (by decide) V main_v6 main_v8 _ ⟨by decide, rfl⟩ ⟨by decide, rfl⟩ rfl (by decide) (by decide)).trans (by rw [st_v6 V] <;> rfl)
theorem st_v9 : after (ops (F := F)) V (Proc.devRef .tc main_v9) = ReadP.val_main_v9 (F := F) (V (Proc.devRef .tc main_arg1)) (V (Proc.devRef .tc main_arg2)) :=
  (binary_fix aligned 10 (by decide) V main_v4 main_v7 main_v9 _ ⟨by decide, rfl⟩ ⟨by decide, rfl⟩ ⟨by decide, rfl⟩ rfl (by decide) (by decide) (by decide)).trans (by rw [st_v4 V, st_v7 V] <;> rfl)
theorem st_v10 : after (ops (F := F)) V (Proc.devRef .tc main_v10) = ReadP.val_main_v10 (F := F) (V (Proc.devRef .tc main_arg1)) (V (Proc.devRef .tc main_arg2)) :=
  (binary_fix aligned 11 (by decide) V main_v6 main_v8 main_v10 _ ⟨by decide, rfl⟩ ⟨by decide, rfl⟩ ⟨by decide, rfl⟩ rfl (by decide) (by decide) (by decide)).trans (by rw [st_v6 V, st_v8 V] <;> rfl)
theorem st_cst_0 : after (ops (F := F)) V (Proc.devRef .tc main_cst_0) = ReadP.val_main_cst_0 (F := F) :=
  (nullary_fix aligned 12 (by decide) V main_cst_0 _ ⟨by decide, rfl⟩ rfl (by decide)).trans rfl
theorem st_v11 : after (ops (F := F)) V (Proc.devRef .tc main_v11) = ReadP.val_main_v11 (F := F) :=
  (unary_fix aligned 13 (by decide) V main_cst_0 main_v11 _ ⟨by decide, rfl⟩ ⟨by decide, rfl⟩ rfl (by decide) (by decide)).trans (by rw [st_cst_0 V] <;> rfl)
theorem st_v12 : after (ops (F := F)) V (Proc.devRef .tc main_v12) = ReadP.val_main_v12 (F := F) (V (Proc.devRef .tc main_arg1)) (V (Proc.devRef .tc main_arg2)) :=
  (binary_fix aligned 14 (by decide) V main_v11 main_v9 main_v12 _ ⟨by decide, rfl⟩ ⟨by decide, rfl⟩ ⟨by decide, rfl⟩ rfl (by decide) (by decide) (by decide)).trans (by rw [st_v11 V, st_v9 V] <;> rfl)
theorem st_cst_1 : after (ops (F := F)) V (Proc.devRef .tc main_cst_1) = ReadP.val_main_cst_1 (F := F) :=
  (nullary_fix aligned 15 (by decide) V main_cst_1 _ ⟨by decide, rfl⟩ rfl (by decide)).trans rfl
theorem st_v13 : after (ops (F := F)) V (Proc.devRef .tc main_v13) = ReadP.val_main_v13 (F := F) :=
  (unary_fix aligned 16 (by decide) V main_cst_1 main_v13 _ ⟨by decide, rfl⟩ ⟨by decide, rfl⟩ rfl (by decide) (by decide)).trans (by rw [st_cst_1 V] <;> rfl)
theorem st_v14 : after (ops (F := F)) V (Proc.devRef .tc main_v14) = ReadP.val_main_v14 (F := F) (V (Proc.devRef .tc main_arg1)) (V (Proc.devRef .tc main_arg2)) :=
  (binary_fix aligned 17 (by decide) V main_v13 main_v10 main_v14 _ ⟨by decide, rfl⟩ ⟨by decide, rfl⟩ ⟨by decide, rfl⟩ rfl (by decide) (by decide) (by decide)).trans (by rw [st_v13 V, st_v10 V] <;> rfl)
theorem st_v15 : after (ops (F := F)) V (Proc.devRef .tc main_v15) = ReadP.val_main_v15 (F := F) (V (Proc.devRef .tc main_arg1)) (V (Proc.devRef .tc main_arg2)) :=
  (unary_fix aligned 18 (by decide) V main_v7 main_v15 _ ⟨by decide, rfl⟩ ⟨by decide, rfl⟩ rfl (by decide) (by decide)).trans (by rw [st_v7 V] <;> rfl)
theorem st_v16 : after (ops (F := F)) V (Proc.devRef .tc main_v16) = ReadP.val_main_v16 (F := F) (V (Proc.devRef .tc main_arg1)) (V (Proc.devRef .tc main_arg2)) :=
  (unary_fix aligned 19 (by decide) V main_v8 main_v16 _ ⟨by decide, rfl⟩ ⟨by decide, rfl⟩ rfl (by decide) (by decide)).trans (by rw [st_v8 V] <;> rfl)
theorem st_v17 : after (ops (F := F)) V (Proc.devRef .tc main_v17) = ReadP.val_main_v17 (F := F) (V (Proc.devRef .tc main_arg0)) :=
  (unary_fix aligned 20 (by decide) V main_arg0 main_v17 ((transpose S64x64x64x256 [0, 2, 3, 1] · transposes_S64x256x64x64_S64x64x64x256_0_2_3_1) : (⟨S64x256x64x64, .f32⟩ : BufTy).Contents (Elt F) → (⟨S64x64x64x256, .f32⟩ : BufTy).Contents (Elt F)) ⟨by decide, rfl⟩ ⟨by decide, rfl⟩ rfl (by decide) (by decide)).trans (by rw [st_arg0 V] <;> rfl)
theorem st_v18 : after (ops (F := F)) V (Proc.devRef .tc main_v18) = ReadP.val_main_v18 (F := F) :=
  (nullary_fix aligned 21 (by decide) V main_v18 _ ⟨by decide, rfl⟩ rfl (by decide)).trans rfl
theorem st_v19 : after (ops (F := F)) V (Proc.devRef .tc main_v19) = ReadP.val_main_v19 (F := F) :=
  (unary_fix aligned 22 (by decide) V main_v18 main_v19 _ ⟨by decide, rfl⟩ ⟨by decide, rfl⟩ rfl (by decide) (by decide)).trans (by rw [st_v18 V] <;> rfl)
theorem st_c : after (ops (F := F)) V (Proc.devRef .tc main_c) = ReadP.val_main_c (F := F) :=
  (nullary_fix aligned 23 (by decide) V main_c _ ⟨by decide, rfl⟩ rfl (by decide)).trans rfl
theorem st_v20 : after (ops (F := F)) V (Proc.devRef .tc main_v20) = ReadP.val_main_v20 (F := F) :=
  (unary_fix aligned 24 (by decide) V main_c main_v20 _ ⟨by decide, rfl⟩ ⟨by decide, rfl⟩ rfl (by decide) (by decide)).trans (by rw [st_c V] <;> rfl)
theorem st_v21 : after (ops (F := F)) V (Proc.devRef .tc main_v21) = ReadP.val_main_v21 (F := F) (V (Proc.devRef .tc main_arg1)) (V (Proc.devRef .tc main_arg2)) :=
  (binary_fix aligned 25 (by decide) V main_v15 main_v20 main_v21 _ ⟨by decide, rfl⟩ ⟨by decide, rfl⟩ ⟨by decide, rfl⟩ rfl (by decide) (by decide) (by decide)).trans (by rw [st_v15 V, st_v20 V] <;> rfl)
theorem st_c_2 : after (ops (F := F)) V (Proc.devRef .tc main_c_2) = ReadP.val_main_c_2 (F := F) :=
  (nullary_fix aligned 26 (by decide) V main_c_2 _ ⟨by decide, rfl⟩ rfl (by decide)).trans rfl
theorem st_v22 : after (ops (F := F)) V (Proc.devRef .tc main_v22) = ReadP.val_main_v22 (F := F) :=
  (unary_fix aligned 27 (by decide) V main_c_2 main_v22 _ ⟨by decide, rfl⟩ ⟨by decide, rfl⟩ rfl (by decide) (by decide)).trans (by rw [st_c_2 V] <;> rfl)
theorem st_v23 : after (ops (F := F)) V (Proc.devRef .tc main_v23) = ReadP.val_main_v23 (F := F) (V (Proc.devRef .tc main_arg1)) (V (Proc.devRef .tc main_arg2)) :=
  (binary_fix aligned 28 (by decide) V main_v15 main_v22 main_v23 _ ⟨by decide, rfl⟩ ⟨by decide, rfl⟩ ⟨by decide, rfl⟩ rfl (by decide) (by decide) (by decide)).trans (by rw [st_v15 V, st_v22 V] <;> rfl)
theorem st_v24 : after (ops (F := F)) V (Proc.devRef .tc main_v24) = ReadP.val_main_v24 (F := F) (V (Proc.devRef .tc main_arg1)) (V (Proc.devRef .tc main_arg2)) :=
  (binary_fix aligned 29 (by decide) V main_v21 main_v23 main_v24 _ ⟨by decide, rfl⟩ ⟨by decide, rfl⟩ ⟨by decide, rfl⟩ rfl (by decide) (by decide) (by decide)).trans (by rw [st_v21 V, st_v23 V] <;> rfl)
theorem st_c_3 : after (ops (F := F)) V (Proc.devRef .tc main_c_3) = ReadP.val_main_c_3 (F := F) :=
  (nullary_fix aligned 30 (by decide) V main_c_3 _ ⟨by decide, rfl⟩ rfl (by decide)).trans rfl
theorem st_v25 : after (ops (F := F)) V (Proc.devRef .tc main_v25) = ReadP.val_main_v25 (F := F) :=
  (unary_fix aligned 31 (by decide) V main_c_3 main_v25 _ ⟨by decide, rfl⟩ ⟨by decide, rfl⟩ rfl (by decide) (by decide)).trans (by rw [st_c_3 V] <;> rfl)
theorem st_v26 : after (ops (F := F)) V (Proc.devRef .tc main_v26) = ReadP.val_main_v26 (F := F) (V (Proc.devRef .tc main_arg1)) (V (Proc.devRef .tc main_arg2)) :=
  (binary_fix aligned 32 (by decide) V main_v16 main_v25 main_v26 _ ⟨by decide, rfl⟩ ⟨by decide, rfl⟩ ⟨by decide, rfl⟩ rfl (by decide) (by decide) (by decide)).trans (by rw [st_v16 V, st_v25 V] <;> rfl)
theorem st_v27 : after (ops (F := F)) V (Proc.devRef .tc main_v27) = ReadP.val_main_v27 (F := F) (V (Proc.devRef .tc main_arg1)) (V (Proc.devRef .tc main_arg2)) :=
  (binary_fix aligned 33 (by decide) V main_v24 main_v26 main_v27 _ ⟨by decide, rfl⟩ ⟨by decide, rfl⟩ ⟨by decide, rfl⟩ rfl (by decide) (by decide) (by decide)).trans (by rw [st_v24 V, st_v26 V] <;> rfl)
theorem st_c_4 : after (ops (F := F)) V (Proc.devRef .tc main_c_4) = ReadP.val_main_c_4 (F := F) :=
  (nullary_fix aligned 34 (by decide) V main_c_4 _ ⟨by decide, rfl⟩ rfl (by decide)).trans rfl
theorem st_v28 : after (ops (F := F)) V (Proc.devRef .tc main_v28) = ReadP.val_main_v28 (F := F) :=
  (unary_fix aligned 35 (by decide) V main_c_4 main_v28 _ ⟨by decide, rfl⟩ ⟨by decide, rfl⟩ rfl (by decide) (by decide)).trans (by rw [st_c_4 V] <;> rfl)
theorem st_v29 : after (ops (F := F)) V (Proc.devRef .tc main_v29) = ReadP.val_main_v29 (F := F) (V (Proc.devRef .tc main_arg1)) (V (Proc.devRef .tc main_arg2)) :=
  (binary_fix aligned 36 (by decide) V main_v16 main_v28 main_v29 _ ⟨by decide, rfl⟩ ⟨by decide, rfl⟩ ⟨by decide, rfl⟩ rfl (by decide) (by decide) (by decide)).trans (by rw [st_v16 V, st_v28 V] <;> rfl)
theorem st_v30 : after (ops (F := F)) V (Proc.devRef .tc main_v30) = ReadP.val_main_v30 (F := F) (V (Proc.devRef .tc main_arg1)) (V (Proc.devRef .tc main_arg2)) :=
  (binary_fix aligned 37 (by decide) V main_v27 main_v29 main_v30 _ ⟨by decide, rfl⟩ ⟨by decide, rfl⟩ ⟨by decide, rfl⟩ rfl (by decide) (by decide) (by decide)).trans (by rw [st_v27 V, st_v29 V] <;> rfl)
theorem st_c_5 : after (ops (F := F)) V (Proc.devRef .tc main_c_5) = ReadP.val_main_c_5 (F := F) :=
  (nullary_fix aligned 38 (by decide) V main_c_5 _ ⟨by decide, rfl⟩ rfl (by decide)).trans rfl
theorem st_c_6 : after (ops (F := F)) V (Proc.devRef .tc main_c_6) = ReadP.val_main_c_6 (F := F) :=
  (nullary_fix aligned 39 (by decide) V main_c_6 _ ⟨by decide, rfl⟩ rfl (by decide)).trans rfl
theorem st_call0_v0 : after (ops (F := F)) V (Proc.devRef .tc main_call0_v0) = ReadP.val_main_call0_v0 (F := F) :=
  (unary_fix aligned 40 (by decide) V main_c_5 main_call0_v0 _ ⟨by decide, rfl⟩ ⟨by decide, rfl⟩ rfl (by decide) (by decide)).trans (by rw [st_c_5 V] <;> rfl)
theorem st_call0_v1 : after (ops (F := F)) V (Proc.devRef .tc main_call0_v1) = ReadP.val_main_call0_v1 (F := F) :=
  (unary_fix aligned 41 (by decide) V main_call0_v0 main_call0_v1 _ ⟨by decide, rfl⟩ ⟨by decide, rfl⟩ rfl (by decide) (by decide)).trans (by rw [st_call0_v0 V] <;> rfl)
theorem st_call0_v2 : after (ops (F := F)) V (Proc.devRef .tc main_call0_v2) = ReadP.val_main_call0_v2 (F := F) (V (Proc.devRef .tc main_arg1)) (V (Proc.devRef .tc main_arg2)) :=
  (binary_fix aligned 42 (by decide) V main_call0_v1 main_v15 main_call0_v2 _ ⟨by decide, rfl⟩ ⟨by decide, rfl⟩ ⟨by decide, rfl⟩ rfl (by decide) (by decide) (by decide)).trans (by rw [st_call0_v1 V, st_v15 V] <;> rfl)
theorem st_call0_v3 : after (ops (F := F)) V (Proc.devRef .tc main_call0_v3) = ReadP.val_main_call0_v3 (F := F) :=
  (unary_fix aligned 43 (by decide) V main_c_6 main_call0_v3 _ ⟨by decide, rfl⟩ ⟨by decide, rfl⟩ rfl (by decide) (by decide)).trans (by rw [st_c_6 V] <;> rfl)
theorem st_call0_v4 : after (ops (F := F)) V (Proc.devRef .tc main_call0_v4) = ReadP.val_main_call0_v4 (F := F) :=
  (unary_fix aligned 44 (by decide) V main_call0_v3 main_call0_v4 _ ⟨by decide, rfl⟩ ⟨by decide, rfl⟩ rfl (by decide) (by decide)).trans (by rw [st_call0_v3 V] <;> rfl)
theorem st_v31 : after (ops (F := F)) V (Proc.devRef .tc main_v31) = ReadP.val_main_v31 (F := F) (V (Proc.devRef .tc main_arg1)) (V (Proc.devRef .tc main_arg2)) :=
  (binary_fix aligned 45 (by decide) V main_call0_v4 main_call0_v2 main_v31 _ ⟨by decide, rfl⟩ ⟨by decide, rfl⟩ ⟨by decide, rfl⟩ rfl (by decide) (by decide) (by decide)).trans (by rw [st_call0_v4 V, st_call0_v2 V] <;> rfl)
theorem st_c_7 : after (ops (F := F)) V (Proc.devRef .tc main_c_7) = ReadP.val_main_c_7 (F := F) :=
  (nullary_fix aligned 46 (by decide) V main_c_7 _ ⟨by decide, rfl⟩ rfl (by decide)).trans rfl
theorem st_c_8 : after (ops (F := F)) V (Proc.devRef .tc main_c_8) = ReadP.val_main_c_8 (F := F) :=
  (nullary_fix aligned 47 (by decide) V main_c_8 _ ⟨by decide, rfl⟩ rfl (by decide)).trans rfl
theorem st_call1_v0 : after (ops (F := F)) V (Proc.devRef .tc main_call1_v0) = ReadP.val_main_call1_v0 (F := F) :=
  (unary_fix aligned 48 (by decide) V main_c_7 main_call1_v0 _ ⟨by decide, rfl⟩ ⟨by decide, rfl⟩ rfl (by decide) (by decide)).trans (by rw [st_c_7 V] <;> rfl)
theorem st_call1_v1 : after (ops (F := F)) V (Proc.devRef .tc main_call1_v1) = ReadP.val_main_call1_v1 (F := F) :=
  (unary_fix aligned 49 (by decide) V main_call1_v0 main_call1_v1 _ ⟨by decide, rfl⟩ ⟨by decide, rfl⟩ rfl (by decide) (by decide)).trans (by rw [st_call1_v0 V] <;> rfl)
theorem st_call1_v2 : after (ops (F := F)) V (Proc.devRef .tc main_call1_v2) = ReadP.val_main_call1_v2 (F := F) (V (Proc.devRef .tc main_arg1)) (V (Proc.devRef .tc main_arg2)) :=
  (binary_fix aligned 50 (by decide) V main_call1_v1 main_v16 main_call1_v2 _ ⟨by decide, rfl⟩ ⟨by decide, rfl⟩ ⟨by decide, rfl⟩ rfl (by decide) (by decide) (by decide)).trans (by rw [st_call1_v1 V, st_v16 V] <;> rfl)
theorem st_call1_v3 : after (ops (F := F)) V (Proc.devRef .tc main_call1_v3) = ReadP.val_main_call1_v3 (F := F) :=
  (unary_fix aligned 51 (by decide) V main_c_8 main_call1_v3 _ ⟨by decide, rfl⟩ ⟨by decide, rfl⟩ rfl (by decide) (by decide)).trans (by rw [st_c_8 V] <;> rfl)
theorem st_call1_v4 : after (ops (F := F)) V (Proc.devRef .tc main_call1_v4) = ReadP.val_main_call1_v4 (F := F) :=
  (unary_fix aligned 52 (by decide) V main_call1_v3 main_call1_v4 _ ⟨by decide, rfl⟩ ⟨by decide, rfl⟩ rfl (by decide) (by decide)).trans (by rw [st_call1_v3 V] <;> rfl)
theorem st_v32 : after (ops (F := F)) V (Proc.devRef .tc main_v32) = ReadP.val_main_v32 (F := F) (V (Proc.devRef .tc main_arg1)) (V (Proc.devRef .tc main_arg2)) :=
  (binary_fix aligned 53 (by decide) V main_call1_v4 main_call1_v2 main_v32 _ ⟨by decide, rfl⟩ ⟨by decide, rfl⟩ ⟨by decide, rfl⟩ rfl (by decide) (by decide) (by decide)).trans (by rw [st_call1_v4 V, st_call1_v2 V] <;> rfl)
theorem st_c_9 : after (ops (F := F)) V (Proc.devRef .tc main_c_9) = ReadP.val_main_c_9 (F := F) :=
  (nullary_fix aligned 54 (by decide) V main_c_9 _ ⟨by decide, rfl⟩ rfl (by decide)).trans rfl
theorem st_v33 : after (ops (F := F)) V (Proc.devRef .tc main_v33) = ReadP.val_main_v33 (F := F) :=
  (unary_fix aligned 55 (by decide) V main_c_9 main_v33 _ ⟨by decide, rfl⟩ ⟨by decide, rfl⟩ rfl (by decide) (by decide)).trans (by rw [st_c_9 V] <;> rfl)
theorem st_v34 : after (ops (F := F)) V (Proc.devRef .tc main_v34) = ReadP.val_main_v34 (F := F) :=
  (binary_fix aligned 56 (by decide) V main_v19 main_v33 main_v34 _ ⟨by decide, rfl⟩ ⟨by decide, rfl⟩ ⟨by decide, rfl⟩ rfl (by decide) (by decide) (by decide)).trans (by rw [st_v19 V, st_v33 V] <;> rfl)
theorem st_c_10 : after (ops (F := F)) V (Proc.devRef .tc main_c_10) = ReadP.val_main_c_10 (F := F) :=
  (nullary_fix aligned 57 (by decide) V main_c_10 _ ⟨by decide, rfl⟩ rfl (by decide)).trans rfl
theorem st_v35 : after (ops (F := F)) V (Proc.devRef .tc main_v35) = ReadP.val_main_v35 (F := F) :=
  (unary_fix aligned 58 (by decide) V main_c_10 main_v35 _ ⟨by decide, rfl⟩ ⟨by decide, rfl⟩ rfl (by decide) (by decide)).trans (by rw [st_c_10 V] <;> rfl)
theorem st_v36 : after (ops (F := F)) V (Proc.devRef .tc main_v36) = ReadP.val_main_v36 (F := F) :=
  (binary_fix aligned 59 (by decide) V main_v19 main_v35 main_v36 _ ⟨by decide, rfl⟩ ⟨by decide, rfl⟩ ⟨by decide, rfl⟩ rfl (by decide) (by decide) (by decide)).trans (by rw [st_v19 V, st_v35 V] <;> rfl)
theorem st_v37 : after (ops (F := F)) V (Proc.devRef .tc main_v37) = ReadP.val_main_v37 (F := F) :=
  (ternary_fix aligned 60 (by decide) V main_v34 main_v36 main_v19 main_v37 _ ⟨by decide, rfl⟩ ⟨by decide, rfl⟩ ⟨by decide, rfl⟩ ⟨by decide, rfl⟩ rfl (by decide) (by decide) (by decide) (by decide)).trans (by rw [st_v34 V, st_v36 V, st_v19 V] <;> rfl)
theorem st_c_11 : after (ops (F := F)) V (Proc.devRef .tc main_c_11) = ReadP.val_main_c_11 (F := F) :=
  (nullary_fix aligned 61 (by decide) V main_c_11 _ ⟨by decide, rfl⟩ rfl (by decide)).trans rfl
theorem st_v38 : after (ops (F := F)) V (Proc.devRef .tc main_v38) = ReadP.val_main_v38 (F := F) :=
  (unary_fix aligned 62 (by decide) V main_c_11 main_v38 _ ⟨by decide, rfl⟩ ⟨by decide, rfl⟩ rfl (by decide) (by decide)).trans (by rw [st_c_11 V] <;> rfl)
theorem st_v39 : after (ops (F := F)) V (Proc.devRef .tc main_v39) = ReadP.val_main_v39 (F := F) (V (Proc.devRef .tc main_arg1)) (V (Proc.devRef .tc main_arg2)) :=
  (binary_fix aligned 63 (by decide) V main_v31 main_v38 main_v39 _ ⟨by decide, rfl⟩ ⟨by decide, rfl⟩ ⟨by decide, rfl⟩ rfl (by decide) (by decide) (by decide)).trans (by rw [st_v31 V, st_v38 V] <;> rfl)
theorem st_c_12 : after (ops (F := F)) V (Proc.devRef .tc main_c_12) = ReadP.val_main_c_12 (F := F) :=
  (nullary_fix aligned 64 (by decide) V main_c_12 _ ⟨by decide, rfl⟩ rfl (by decide)).trans rfl
theorem st_v40 : after (ops (F := F)) V (Proc.devRef .tc main_v40) = ReadP.val_main_v40 (F := F) :=
  (unary_fix aligned 65 (by decide) V main_c_12 main_v40 _ ⟨by decide, rfl⟩ ⟨by decide, rfl⟩ rfl (by decide) (by decide)).trans (by rw [st_c_12 V] <;> rfl)
theorem st_v41 : after (ops (F := F)) V (Proc.devRef .tc main_v41) = ReadP.val_main_v41 (F := F) (V (Proc.devRef .tc main_arg1)) (V (Proc.devRef .tc main_arg2)) :=
  (binary_fix aligned 66 (by decide) V main_v31 main_v40 main_v41 _ ⟨by decide, rfl⟩ ⟨by decide, rfl⟩ ⟨by decide, rfl⟩ rfl (by decide) (by decide) (by decide)).trans (by rw [st_v31 V, st_v40 V] <;> rfl)
theorem st_v42 : after (ops (F := F)) V (Proc.devRef .tc main_v42) = ReadP.val_main_v42 (F := F) (V (Proc.devRef .tc main_arg1)) (V (Proc.devRef .tc main_arg2)) :=
  (ternary_fix aligned 67 (by decide) V main_v39 main_v41 main_v31 main_v42 _ ⟨by decide, rfl⟩ ⟨by decide, rfl⟩ ⟨by decide, rfl⟩ ⟨by decide, rfl⟩ rfl (by decide) (by decide) (by decide) (by decide)).trans (by rw [st_v39 V, st_v41 V, st_v31 V] <;> rfl)
theorem st_c_13 : after (ops (F := F)) V (Proc.devRef .tc main_c_13) = ReadP.val_main_c_13 (F := F) :=
  (nullary_fix aligned 68 (by decide) V main_c_13 _ ⟨by decide, rfl⟩ rfl (by decide)).trans rfl
theorem st_v43 : after (ops (F := F)) V (Proc.devRef .tc main_v43) = ReadP.val_main_v43 (F := F) :=
  (unary_fix aligned 69 (by decide) V main_c_13 main_v43 _ ⟨by decide, rfl⟩ ⟨by decide, rfl⟩ rfl (by decide) (by decide)).trans (by rw [st_c_13 V] <;> rfl)
theorem st_v44 : after (ops (F := F)) V (Proc.devRef .tc main_v44) = ReadP.val_main_v44 (F := F) (V (Proc.devRef .tc main_arg1)) (V (Proc.devRef .tc main_arg2)) :=
  (binary_fix aligned 70 (by decide) V main_v32 main_v43 main_v44 _ ⟨by decide, rfl⟩ ⟨by decide, rfl⟩ ⟨by decide, rfl⟩ rfl (by decide) (by decide) (by decide)).trans (by rw [st_v32 V, st_v43 V] <;> rfl)
theorem st_c_14 : after (ops (F := F)) V (Proc.devRef .tc main_c_14) = ReadP.val_main_c_14 (F := F) :=
  (nullary_fix aligned 71 (by decide) V main_c_14 _ ⟨by decide, rfl⟩ rfl (by decide)).trans rfl
theorem st_v45 : after (ops (F := F)) V (Proc.devRef .tc main_v45) = ReadP.val_main_v45 (F := F) :=
  (unary_fix aligned 72 (by decide) V main_c_14 main_v45 _ ⟨by decide, rfl⟩ ⟨by decide, rfl⟩ rfl (by decide) (by decide)).trans (by rw [st_c_14 V] <;> rfl)
theorem st_v46 : after (ops (F := F)) V (Proc.devRef .tc main_v46) = ReadP.val_main_v46 (F := F) (V (Proc.devRef .tc main_arg1)) (V (Proc.devRef .tc main_arg2)) :=
  (binary_fix aligned 73 (by decide) V main_v32 main_v45 main_v46 _ ⟨by decide, rfl⟩ ⟨by decide, rfl⟩ ⟨by decide, rfl⟩ rfl (by decide) (by decide) (by decide)).trans (by rw [st_v32 V, st_v45 V] <;> rfl)
theorem st_v47 : after (ops (F := F)) V (Proc.devRef .tc main_v47) = ReadP.val_main_v47 (F := F) (V (Proc.devRef .tc main_arg1)) (V (Proc.devRef .tc main_arg2)) :=
  (ternary_fix aligned 74 (by decide) V main_v44 main_v46 main_v32 main_v47 _ ⟨by decide, rfl⟩ ⟨by decide, rfl⟩ ⟨by decide, rfl⟩ ⟨by decide, rfl⟩ rfl (by decide) (by decide) (by decide) (by decide)).trans (by rw [st_v44 V, st_v46 V, st_v32 V] <;> rfl)
theorem st_v48 : after (ops (F := F)) V (Proc.devRef .tc main_v48) = ReadP.val_main_v48 (F := F) :=
  (unary_fix aligned 75 (by decide) V main_v37 main_v48 _ ⟨by decide, rfl⟩ ⟨by decide, rfl⟩ rfl (by decide) (by decide)).trans (by rw [st_v37 V] <;> rfl)
theorem st_v49 : after (ops (F := F)) V (Proc.devRef .tc main_v49) = ReadP.val_main_v49 (F := F) :=
  (unary_fix aligned 76 (by decide) V main_v48 main_v49 _ ⟨by decide, rfl⟩ ⟨by decide, rfl⟩ rfl (by decide) (by decide)).trans (by rw [st_v48 V] <;> rfl)
theorem st_v50 : after (ops (F := F)) V (Proc.devRef .tc main_v50) = ReadP.val_main_v50 (F := F) (V (Proc.devRef .tc main_arg1)) (V (Proc.devRef .tc main_arg2)) :=
  (unary_fix aligned 77 (by decide) V main_v42 main_v50 _ ⟨by decide, rfl⟩ ⟨by decide, rfl⟩ rfl (by decide) (by decide)).trans (by rw [st_v42 V] <;> rfl)
theorem st_v51 : after (ops (F := F)) V (Proc.devRef .tc main_v51) = ReadP.val_main_v51 (F := F) (V (Proc.devRef .tc main_arg1)) (V (Proc.devRef .tc main_arg2)) :=
  (unary_fix aligned 78 (by decide) V main_v47 main_v51 _ ⟨by decide, rfl⟩ ⟨by decide, rfl⟩ rfl (by decide) (by decide)).trans (by rw [st_v47 V] <;> rfl)
theorem st_v52 : after (ops (F := F)) V (Proc.devRef .tc main_v52) = ReadP.val_main_v52 (F := F) (V (Proc.devRef .tc main_arg1)) (V (Proc.devRef .tc main_arg2)) :=
  (nary_fix aligned 79 (by decide) V ![main_v49, main_v50, main_v51] main_v52 (fun u => concatenate S64x1024x3 2 [⟨S64x1024x1, u 0⟩, ⟨S64x1024x1, u 1⟩, ⟨S64x1024x1, u 2⟩] concatenates_S64x1024x1_S64x1024x1_S64x1024x1_S64x1024x3_d2) (by decide) ⟨by decide, rfl⟩ rfl (by decide) (by decide)).trans (by
    show concatenate S64x1024x3 2 [⟨S64x1024x1, after (ops (F := F)) V (Proc.devRef .tc main_v49)⟩, ⟨S64x1024x1, after (ops (F := F)) V (Proc.devRef .tc main_v50)⟩, ⟨S64x1024x1, after (ops (F := F)) V (Proc.devRef .tc main_v51)⟩] _ = _
    rw [st_v49 V, st_v50 V, st_v51 V] <;> rfl)
theorem st_v53 : after (ops (F := F)) V (Proc.devRef .tc main_v53) = ReadP.val_main_v53 (F := F) (V (Proc.devRef .tc main_arg0)) (V (Proc.devRef .tc main_arg1)) (V (Proc.devRef .tc main_arg2)) :=
  (binary_fix aligned 80 (by decide) V main_v17 main_v52 main_v53 ((fun x i => Host.gather gather_S64x64x64x256_S64x1024x3_S64x1024x256_2_012_n_n_012_2_111256 x i) : (⟨S64x64x64x256, .f32⟩ : BufTy).Contents (Elt F) → (⟨S64x1024x3, .i32⟩ : BufTy).Contents (Elt F) → (⟨S64x1024x256, .f32⟩ : BufTy).Contents (Elt F)) ⟨by decide, rfl⟩ ⟨by decide, rfl⟩ ⟨by decide, rfl⟩ rfl (by decide) (by decide) (by decide)).trans (by rw [st_v17 V, st_v52 V] <;> rfl)
theorem st_v54 : after (ops (F := F)) V (Proc.devRef .tc main_v54) = ReadP.val_main_v54 (F := F) (V (Proc.devRef .tc main_arg1)) (V (Proc.devRef .tc main_arg2)) :=
  (unary_fix aligned 81 (by decide) V main_v30 main_v54 _ ⟨by decide, rfl⟩ ⟨by decide, rfl⟩ rfl (by decide) (by decide)).trans (by rw [st_v30 V] <;> rfl)
theorem st_v55 : after (ops (F := F)) V (Proc.devRef .tc main_v55) = ReadP.val_main_v55 (F := F) (V (Proc.devRef .tc main_arg1)) (V (Proc.devRef .tc main_arg2)) :=
  (unary_fix aligned 82 (by decide) V main_v54 main_v55 _ ⟨by decide, rfl⟩ ⟨by decide, rfl⟩ rfl (by decide) (by decide)).trans (by rw [st_v54 V] <;> rfl)
theorem st_v56 : after (ops (F := F)) V (Proc.devRef .tc main_v56) = ReadP.val_main_v56 (F := F) (V (Proc.devRef .tc main_arg1)) (V (Proc.devRef .tc main_arg2)) :=
  (unary_fix aligned 83 (by decide) V main_v55 main_v56 _ ⟨by decide, rfl⟩ ⟨by decide, rfl⟩ rfl (by decide) (by decide)).trans (by rw [st_v55 V] <;> rfl)
theorem st_v57 : after (ops (F := F)) V (Proc.devRef .tc main_v57) = ReadP.val_main_v57 (F := F) (V (Proc.devRef .tc main_arg0)) (V (Proc.devRef .tc main_arg1)) (V (Proc.devRef .tc main_arg2)) :=
  (binary_fix aligned 84 (by decide) V main_v53 main_v56 main_v57 _ ⟨by decide, rfl⟩ ⟨by decide, rfl⟩ ⟨by decide, rfl⟩ rfl (by decide) (by decide) (by decide)).trans (by rw [st_v53 V, st_v56 V] <;> rfl)
theorem st_c_15 : after (ops (F := F)) V (Proc.devRef .tc main_c_15) = ReadP.val_main_c_15 (F := F) :=
  (nullary_fix aligned 85 (by decide) V main_c_15 _ ⟨by decide, rfl⟩ rfl (by decide)).trans rfl
theorem st_v58 : after (ops (F := F)) V (Proc.devRef .tc main_v58) = ReadP.val_main_v58 (F := F) :=
  (unary_fix aligned 86 (by decide) V main_c_15 main_v58 _ ⟨by decide, rfl⟩ ⟨by decide, rfl⟩ rfl (by decide) (by decide)).trans (by rw [st_c_15 V] <;> rfl)
theorem st_v59 : after (ops (F := F)) V (Proc.devRef .tc main_v59) = ReadP.val_main_v59 (F := F) (V (Proc.devRef .tc main_arg1)) (V (Proc.devRef .tc main_arg2)) :=
  (binary_fix aligned 87 (by decide) V main_v16 main_v58 main_v59 _ ⟨by decide, rfl⟩ ⟨by decide, rfl⟩ ⟨by decide, rfl⟩ rfl (by decide) (by decide) (by decide)).trans (by rw [st_v16 V, st_v58 V] <;> rfl)
theorem st_c_16 : after (ops (F := F)) V (Proc.devRef .tc main_c_16) = ReadP.val_main_c_16 (F := F) :=
  (nullary_fix aligned 88 (by decide) V main_c_16 _ ⟨by decide, rfl⟩ rfl (by decide)).trans rfl
theorem st_v60 : after (ops (F := F)) V (Proc.devRef .tc main_v60) = ReadP.val_main_v60 (F := F) :=
  (unary_fix aligned 89 (by decide) V main_c_16 main_v60 _ ⟨by decide, rfl⟩ ⟨by decide, rfl⟩ rfl (by decide) (by decide)).trans (by rw [st_c_16 V] <;> rfl)
theorem st_v61 : after (ops (F := F)) V (Proc.devRef .tc main_v61) = ReadP.val_main_v61 (F := F) (V (Proc.devRef .tc main_arg1)) (V (Proc.devRef .tc main_arg2)) :=
  (binary_fix aligned 90 (by decide) V main_v15 main_v60 main_v61 _ ⟨by decide, rfl⟩ ⟨by decide, rfl⟩ ⟨by decide, rfl⟩ rfl (by decide) (by decide) (by decide)).trans (by rw [st_v15 V, st_v60 V] <;> rfl)
theorem st_c_17 : after (ops (F := F)) V (Proc.devRef .tc main_c_17) = ReadP.val_main_c_17 (F := F) :=
  (nullary_fix aligned 91 (by decide) V main_c_17 _ ⟨by decide, rfl⟩ rfl (by decide)).trans rfl
theorem st_v62 : after (ops (F := F)) V (Proc.devRef .tc main_v62) = ReadP.val_main_v62 (F := F) :=
  (unary_fix aligned 92 (by decide) V main_c_17 main_v62 _ ⟨by decide, rfl⟩ ⟨by decide, rfl⟩ rfl (by decide) (by decide)).trans (by rw [st_c_17 V] <;> rfl)
theorem st_v63 : after (ops (F := F)) V (Proc.devRef .tc main_v63) = ReadP.val_main_v63 (F := F) (V (Proc.devRef .tc main_arg1)) (V (Proc.devRef .tc main_arg2)) :=
  (binary_fix aligned 93 (by decide) V main_v15 main_v62 main_v63 _ ⟨by decide, rfl⟩ ⟨by decide, rfl⟩ ⟨by decide, rfl⟩ rfl (by decide) (by decide) (by decide)).trans (by rw [st_v15 V, st_v62 V] <;> rfl)
theorem st_v64 : after (ops (F := F)) V (Proc.devRef .tc main_v64) = ReadP.val_main_v64 (F := F) (V (Proc.devRef .tc main_arg1)) (V (Proc.devRef .tc main_arg2)) :=
  (binary_fix aligned 94 (by decide) V main_v61 main_v63 main_v64 _ ⟨by decide, rfl⟩ ⟨by decide, rfl⟩ ⟨by decide, rfl⟩ rfl (by decide) (by decide) (by decide)).trans (by rw [st_v61 V, st_v63 V] <;> rfl)
theorem st_c_18 : after (ops (F := F)) V (Proc.devRef .tc main_c_18) = ReadP.val_main_c_18 (F := F) :=
  (nullary_fix aligned 95 (by decide) V main_c_18 _ ⟨by decide, rfl⟩ rfl (by decide)).trans rfl
theorem st_v65 : after (ops (F := F)) V (Proc.devRef .tc main_v65) = ReadP.val_main_v65 (F := F) :=
  (unary_fix aligned 96 (by decide) V main_c_18 main_v65 _ ⟨by decide, rfl⟩ ⟨by decide, rfl⟩ rfl (by decide) (by decide)).trans (by rw [st_c_18 V] <;> rfl)
theorem st_v66 : after (ops (F := F)) V (Proc.devRef .tc main_v66) = ReadP.val_main_v66 (F := F) (V (Proc.devRef .tc main_arg1)) (V (Proc.devRef .tc main_arg2)) :=
  (binary_fix aligned 97 (by decide) V main_v59 main_v65 main_v66 _ ⟨by decide, rfl⟩ ⟨by decide, rfl⟩ ⟨by decide, rfl⟩ rfl (by decide) (by decide) (by decide)).trans (by rw [st_v59 V, st_v65 V] <;> rfl)
theorem st_v67 : after (ops (F := F)) V (Proc.devRef .tc main_v67) = ReadP.val_main_v67 (F := F) (V (Proc.devRef .tc main_arg1)) (V (Proc.devRef .tc main_arg2)) :=
  (binary_fix aligned 98 (by decide) V main_v64 main_v66 main_v67 _ ⟨by decide, rfl⟩ ⟨by decide, rfl⟩ ⟨by decide, rfl⟩ rfl (by decide) (by decide) (by decide)).trans (by rw [st_v64 V, st_v66 V] <;> rfl)
theorem st_c_19 : after (ops (F := F)) V (Proc.devRef .tc main_c_19) = ReadP.val_main_c_19 (F := F) :=
  (nullary_fix aligned 99 (by decide) V main_c_19 _ ⟨by decide, rfl⟩ rfl (by decide)).trans rfl

end Cert.ReferenceIdeal.RefValue

end
-- ==== Proof.RefSt1.lean ====
/-
  The reference's buffers after its whole line of operations, continued: operations 101 to 200 of the line.
-/
import proofs.«113401_j14955076124692_1_alg».proof.Proof.RefSt0

noncomputable section

namespace Cert.ReferenceIdeal.RefValue

open Cert.ReferenceIdeal Cert.ReferenceIdeal.Gen Cert.ReferenceIdeal.ValueP Cert.LibSsa Idealize.ShloMosaic Idealize.ShloMosaic.TcCoe Idealize.SL.Sem Idealize.ShloMosaic.StableHlo

variable {F : FTy → Type} [FloatOps F]

variable (V : Valuation τ sig (Elt F))

/-- Stage by stage, continued. -/
theorem st_v68 : after (ops (F := F)) V (Proc.devRef .tc main_v68) = ReadP.val_main_v68 (F := F) :=
  (unary_fix aligned 100 (by decide) V main_c_19 main_v68 _ ⟨by decide, rfl⟩ ⟨by decide, rfl⟩ rfl (by decide) (by decide)).trans (by rw [st_c_19 V] <;> rfl)
theorem st_v69 : after (ops (F := F)) V (Proc.devRef .tc main_v69) = ReadP.val_main_v69 (F := F) (V (Proc.devRef .tc main_arg1)) (V (Proc.devRef .tc main_arg2)) :=
  (binary_fix aligned 101 (by decide) V main_v59 main_v68 main_v69 _ ⟨by decide, rfl⟩ ⟨by decide, rfl⟩ ⟨by decide, rfl⟩ rfl (by decide) (by decide) (by decide)).trans (by rw [st_v59 V, st_v68 V] <;> rfl)
theorem st_v70 : after (ops (F := F)) V (Proc.devRef .tc main_v70) = ReadP.val_main_v70 (F := F) (V (Proc.devRef .tc main_arg1)) (V (Proc.devRef .tc main_arg2)) :=
  (binary_fix aligned 102 (by decide) V main_v67 main_v69 main_v70 _ ⟨by decide, rfl⟩ ⟨by decide, rfl⟩ ⟨by decide, rfl⟩ rfl (by decide) (by decide) (by decide)).trans (by rw [st_v67 V, st_v69 V] <;> rfl)
theorem st_c_20 : after (ops (F := F)) V (Proc.devRef .tc main_c_20) = ReadP.val_main_c_20 (F := F) :=
  (nullary_fix aligned 103 (by decide) V main_c_20 _ ⟨by decide, rfl⟩ rfl (by decide)).trans rfl
theorem st_c_21 : after (ops (F := F)) V (Proc.devRef .tc main_c_21) = ReadP.val_main_c_21 (F := F) :=
  (nullary_fix aligned 104 (by decide) V main_c_21 _ ⟨by decide, rfl⟩ rfl (by decide)).trans rfl
theorem st_call2_v0 : after (ops (F := F)) V (Proc.devRef .tc main_call2_v0) = ReadP.val_main_call2_v0 (F := F) :=
  (unary_fix aligned 105 (by decide) V main_c_20 main_call2_v0 _ ⟨by decide, rfl⟩ ⟨by decide, rfl⟩ rfl (by decide) (by decide)).trans (by rw [st_c_20 V] <;> rfl)
theorem st_call2_v1 : after (ops (F := F)) V (Proc.devRef .tc main_call2_v1) = ReadP.val_main_call2_v1 (F := F) :=
  (unary_fix aligned 106 (by decide) V main_call2_v0 main_call2_v1 _ ⟨by decide, rfl⟩ ⟨by decide, rfl⟩ rfl (by decide) (by decide)).trans (by rw [st_call2_v0 V] <;> rfl)
theorem st_call2_v2 : after (ops (F := F)) V (Proc.devRef .tc main_call2_v2) = ReadP.val_main_call2_v2 (F := F) (V (Proc.devRef .tc main_arg1)) (V (Proc.devRef .tc main_arg2)) :=
  (binary_fix aligned 107 (by decide) V main_call2_v1 main_v15 main_call2_v2 _ ⟨by decide, rfl⟩ ⟨by decide, rfl⟩ ⟨by decide, rfl⟩ rfl (by decide) (by decide) (by decide)).trans (by rw [st_call2_v1 V, st_v15 V] <;> rfl)
theorem st_call2_v3 : after (ops (F := F)) V (Proc.devRef .tc main_call2_v3) = ReadP.val_main_call2_v3 (F := F) :=
  (unary_fix aligned 108 (by decide) V main_c_21 main_call2_v3 _ ⟨by decide, rfl⟩ ⟨by decide, rfl⟩ rfl (by decide) (by decide)).trans (by rw [st_c_21 V] <;> rfl)
theorem st_call2_v4 : after (ops (F := F)) V (Proc.devRef .tc main_call2_v4) = ReadP.val_main_call2_v4 (F := F) :=
  (unary_fix aligned 109 (by decide) V main_call2_v3 main_call2_v4 _ ⟨by decide, rfl⟩ ⟨by decide, rfl⟩ rfl (by decide) (by decide)).trans (by rw [st_call2_v3 V] <;> rfl)
theorem st_v71 : after (ops (F := F)) V (Proc.devRef .tc main_v71) = ReadP.val_main_v71 (F := F) (V (Proc.devRef .tc main_arg1)) (V (Proc.devRef .tc main_arg2)) :=
  (binary_fix aligned 110 (by decide) V main_call2_v4 main_call2_v2 main_v71 _ ⟨by decide, rfl⟩ ⟨by decide, rfl⟩ ⟨by decide, rfl⟩ rfl (by decide) (by decide) (by decide)).trans (by rw [st_call2_v4 V, st_call2_v2 V] <;> rfl)
theorem st_c_22 : after (ops (F := F)) V (Proc.devRef .tc main_c_22) = ReadP.val_main_c_22 (F := F) :=
  (nullary_fix aligned 111 (by decide) V main_c_22 _ ⟨by decide, rfl⟩ rfl (by decide)).trans rfl
theorem st_c_23 : after (ops (F := F)) V (Proc.devRef .tc main_c_23) = ReadP.val_main_c_23 (F := F) :=
  (nullary_fix aligned 112 (by decide) V main_c_23 _ ⟨by decide, rfl⟩ rfl (by decide)).trans rfl
theorem st_call3_v0 : after (ops (F := F)) V (Proc.devRef .tc main_call3_v0) = ReadP.val_main_call3_v0 (F := F) :=
  (unary_fix aligned 113 (by decide) V main_c_22 main_call3_v0 _ ⟨by decide, rfl⟩ ⟨by decide, rfl⟩ rfl (by decide) (by decide)).trans (by rw [st_c_22 V] <;> rfl)
theorem st_call3_v1 : after (ops (F := F)) V (Proc.devRef .tc main_call3_v1) = ReadP.val_main_call3_v1 (F := F) :=
  (unary_fix aligned 114 (by decide) V main_call3_v0 main_call3_v1 _ ⟨by decide, rfl⟩ ⟨by decide, rfl⟩ rfl (by decide) (by decide)).trans (by rw [st_call3_v0 V] <;> rfl)
theorem st_call3_v2 : after (ops (F := F)) V (Proc.devRef .tc main_call3_v2) = ReadP.val_main_call3_v2 (F := F) (V (Proc.devRef .tc main_arg1)) (V (Proc.devRef .tc main_arg2)) :=
  (binary_fix aligned 115 (by decide) V main_call3_v1 main_v59 main_call3_v2 _ ⟨by decide, rfl⟩ ⟨by decide, rfl⟩ ⟨by decide, rfl⟩ rfl (by decide) (by decide) (by decide)).trans (by rw [st_call3_v1 V, st_v59 V] <;> rfl)
theorem st_call3_v3 : after (ops (F := F)) V (Proc.devRef .tc main_call3_v3) = ReadP.val_main_call3_v3 (F := F) :=
  (unary_fix aligned 116 (by decide) V main_c_23 main_call3_v3 _ ⟨by decide, rfl⟩ ⟨by decide, rfl⟩ rfl (by decide) (by decide)).trans (by rw [st_c_23 V] <;> rfl)
theorem st_call3_v4 : after (ops (F := F)) V (Proc.devRef .tc main_call3_v4) = ReadP.val_main_call3_v4 (F := F) :=
  (unary_fix aligned 117 (by decide) V main_call3_v3 main_call3_v4 _ ⟨by decide, rfl⟩ ⟨by decide, rfl⟩ rfl (by decide) (by decide)).trans (by rw [st_call3_v3 V] <;> rfl)
theorem st_v72 : after (ops (F := F)) V (Proc.devRef .tc main_v72) = ReadP.val_main_v72 (F := F) (V (Proc.devRef .tc main_arg1)) (V (Proc.devRef .tc main_arg2)) :=
  (binary_fix aligned 118 (by decide) V main_call3_v4 main_call3_v2 main_v72 _ ⟨by decide, rfl⟩ ⟨by decide, rfl⟩ ⟨by decide, rfl⟩ rfl (by decide) (by decide) (by decide)).trans (by rw [st_call3_v4 V, st_call3_v2 V] <;> rfl)
theorem st_c_24 : after (ops (F := F)) V (Proc.devRef .tc main_c_24) = ReadP.val_main_c_24 (F := F) :=
  (nullary_fix aligned 119 (by decide) V main_c_24 _ ⟨by decide, rfl⟩ rfl (by decide)).trans rfl
theorem st_v73 : after (ops (F := F)) V (Proc.devRef .tc main_v73) = ReadP.val_main_v73 (F := F) :=
  (unary_fix aligned 120 (by decide) V main_c_24 main_v73 _ ⟨by decide, rfl⟩ ⟨by decide, rfl⟩ rfl (by decide) (by decide)).trans (by rw [st_c_24 V] <;> rfl)
theorem st_v74 : after (ops (F := F)) V (Proc.devRef .tc main_v74) = ReadP.val_main_v74 (F := F) :=
  (binary_fix aligned 121 (by decide) V main_v19 main_v73 main_v74 _ ⟨by decide, rfl⟩ ⟨by decide, rfl⟩ ⟨by decide, rfl⟩ rfl (by decide) (by decide) (by decide)).trans (by rw [st_v19 V, st_v73 V] <;> rfl)
theorem st_c_25 : after (ops (F := F)) V (Proc.devRef .tc main_c_25) = ReadP.val_main_c_25 (F := F) :=
  (nullary_fix aligned 122 (by decide) V main_c_25 _ ⟨by decide, rfl⟩ rfl (by decide)).trans rfl
theorem st_v75 : after (ops (F := F)) V (Proc.devRef .tc main_v75) = ReadP.val_main_v75 (F := F) :=
  (unary_fix aligned 123 (by decide) V main_c_25 main_v75 _ ⟨by decide, rfl⟩ ⟨by decide, rfl⟩ rfl (by decide) (by decide)).trans (by rw [st_c_25 V] <;> rfl)
theorem st_v76 : after (ops (F := F)) V (Proc.devRef .tc main_v76) = ReadP.val_main_v76 (F := F) :=
  (binary_fix aligned 124 (by decide) V main_v19 main_v75 main_v76 _ ⟨by decide, rfl⟩ ⟨by decide, rfl⟩ ⟨by decide, rfl⟩ rfl (by decide) (by decide) (by decide)).trans (by rw [st_v19 V, st_v75 V] <;> rfl)
theorem st_v77 : after (ops (F := F)) V (Proc.devRef .tc main_v77) = ReadP.val_main_v77 (F := F) :=
  (ternary_fix aligned 125 (by decide) V main_v74 main_v76 main_v19 main_v77 _ ⟨by decide, rfl⟩ ⟨by decide, rfl⟩ ⟨by decide, rfl⟩ ⟨by decide, rfl⟩ rfl (by decide) (by decide) (by decide) (by decide)).trans (by rw [st_v74 V, st_v76 V, st_v19 V] <;> rfl)
theorem st_c_26 : after (ops (F := F)) V (Proc.devRef .tc main_c_26) = ReadP.val_main_c_26 (F := F) :=
  (nullary_fix aligned 126 (by decide) V main_c_26 _ ⟨by decide, rfl⟩ rfl (by decide)).trans rfl
theorem st_v78 : after (ops (F := F)) V (Proc.devRef .tc main_v78) = ReadP.val_main_v78 (F := F) :=
  (unary_fix aligned 127 (by decide) V main_c_26 main_v78 _ ⟨by decide, rfl⟩ ⟨by decide, rfl⟩ rfl (by decide) (by decide)).trans (by rw [st_c_26 V] <;> rfl)
theorem st_v79 : after (ops (F := F)) V (Proc.devRef .tc main_v79) = ReadP.val_main_v79 (F := F) (V (Proc.devRef .tc main_arg1)) (V (Proc.devRef .tc main_arg2)) :=
  (binary_fix aligned 128 (by decide) V main_v71 main_v78 main_v79 _ ⟨by decide, rfl⟩ ⟨by decide, rfl⟩ ⟨by decide, rfl⟩ rfl (by decide) (by decide) (by decide)).trans (by rw [st_v71 V, st_v78 V] <;> rfl)
theorem st_c_27 : after (ops (F := F)) V (Proc.devRef .tc main_c_27) = ReadP.val_main_c_27 (F := F) :=
  (nullary_fix aligned 129 (by decide) V main_c_27 _ ⟨by decide, rfl⟩ rfl (by decide)).trans rfl
theorem st_v80 : after (ops (F := F)) V (Proc.devRef .tc main_v80) = ReadP.val_main_v80 (F := F) :=
  (unary_fix aligned 130 (by decide) V main_c_27 main_v80 _ ⟨by decide, rfl⟩ ⟨by decide, rfl⟩ rfl (by decide) (by decide)).trans (by rw [st_c_27 V] <;> rfl)
theorem st_v81 : after (ops (F := F)) V (Proc.devRef .tc main_v81) = ReadP.val_main_v81 (F := F) (V (Proc.devRef .tc main_arg1)) (V (Proc.devRef .tc main_arg2)) :=
  (binary_fix aligned 131 (by decide) V main_v71 main_v80 main_v81 _ ⟨by decide, rfl⟩ ⟨by decide, rfl⟩ ⟨by decide, rfl⟩ rfl (by decide) (by decide) (by decide)).trans (by rw [st_v71 V, st_v80 V] <;> rfl)
theorem st_v82 : after (ops (F := F)) V (Proc.devRef .tc main_v82) = ReadP.val_main_v82 (F := F) (V (Proc.devRef .tc main_arg1)) (V (Proc.devRef .tc main_arg2)) :=
  (ternary_fix aligned 132 (by decide) V main_v79 main_v81 main_v71 main_v82 _ ⟨by decide, rfl⟩ ⟨by decide, rfl⟩ ⟨by decide, rfl⟩ ⟨by decide, rfl⟩ rfl (by decide) (by decide) (by decide) (by decide)).trans (by rw [st_v79 V, st_v81 V, st_v71 V] <;> rfl)
theorem st_c_28 : after (ops (F := F)) V (Proc.devRef .tc main_c_28) = ReadP.val_main_c_28 (F := F) :=
  (nullary_fix aligned 133 (by decide) V main_c_28 _ ⟨by decide, rfl⟩ rfl (by decide)).trans rfl
theorem st_v83 : after (ops (F := F)) V (Proc.devRef .tc main_v83) = ReadP.val_main_v83 (F := F) :=
  (unary_fix aligned 134 (by decide) V main_c_28 main_v83 _ ⟨by decide, rfl⟩ ⟨by decide, rfl⟩ rfl (by decide) (by decide)).trans (by rw [st_c_28 V] <;> rfl)
theorem st_v84 : after (ops (F := F)) V (Proc.devRef .tc main_v84) = ReadP.val_main_v84 (F := F) (V (Proc.devRef .tc main_arg1)) (V (Proc.devRef .tc main_arg2)) :=
  (binary_fix aligned 135 (by decide) V main_v72 main_v83 main_v84 _ ⟨by decide, rfl⟩ ⟨by decide, rfl⟩ ⟨by decide, rfl⟩ rfl (by decide) (by decide) (by decide)).trans (by rw [st_v72 V, st_v83 V] <;> rfl)
theorem st_c_29 : after (ops (F := F)) V (Proc.devRef .tc main_c_29) = ReadP.val_main_c_29 (F := F) :=
  (nullary_fix aligned 136 (by decide) V main_c_29 _ ⟨by decide, rfl⟩ rfl (by decide)).trans rfl
theorem st_v85 : after (ops (F := F)) V (Proc.devRef .tc main_v85) = ReadP.val_main_v85 (F := F) :=
  (unary_fix aligned 137 (by decide) V main_c_29 main_v85 _ ⟨by decide, rfl⟩ ⟨by decide, rfl⟩ rfl (by decide) (by decide)).trans (by rw [st_c_29 V] <;> rfl)
theorem st_v86 : after (ops (F := F)) V (Proc.devRef .tc main_v86) = ReadP.val_main_v86 (F := F) (V (Proc.devRef .tc main_arg1)) (V (Proc.devRef .tc main_arg2)) :=
  (binary_fix aligned 138 (by decide) V main_v72 main_v85 main_v86 _ ⟨by decide, rfl⟩ ⟨by decide, rfl⟩ ⟨by decide, rfl⟩ rfl (by decide) (by decide) (by decide)).trans (by rw [st_v72 V, st_v85 V] <;> rfl)
theorem st_v87 : after (ops (F := F)) V (Proc.devRef .tc main_v87) = ReadP.val_main_v87 (F := F) (V (Proc.devRef .tc main_arg1)) (V (Proc.devRef .tc main_arg2)) :=
  (ternary_fix aligned 139 (by decide) V main_v84 main_v86 main_v72 main_v87 _ ⟨by decide, rfl⟩ ⟨by decide, rfl⟩ ⟨by decide, rfl⟩ ⟨by decide, rfl⟩ rfl (by decide) (by decide) (by decide) (by decide)).trans (by rw [st_v84 V, st_v86 V, st_v72 V] <;> rfl)
theorem st_v88 : after (ops (F := F)) V (Proc.devRef .tc main_v88) = ReadP.val_main_v88 (F := F) :=
  (unary_fix aligned 140 (by decide) V main_v77 main_v88 _ ⟨by decide, rfl⟩ ⟨by decide, rfl⟩ rfl (by decide) (by decide)).trans (by rw [st_v77 V] <;> rfl)
theorem st_v89 : after (ops (F := F)) V (Proc.devRef .tc main_v89) = ReadP.val_main_v89 (F := F) :=
  (unary_fix aligned 141 (by decide) V main_v88 main_v89 _ ⟨by decide, rfl⟩ ⟨by decide, rfl⟩ rfl (by decide) (by decide)).trans (by rw [st_v88 V] <;> rfl)
theorem st_v90 : after (ops (F := F)) V (Proc.devRef .tc main_v90) = ReadP.val_main_v90 (F := F) (V (Proc.devRef .tc main_arg1)) (V (Proc.devRef .tc main_arg2)) :=
  (unary_fix aligned 142 (by decide) V main_v82 main_v90 _ ⟨by decide, rfl⟩ ⟨by decide, rfl⟩ rfl (by decide) (by decide)).trans (by rw [st_v82 V] <;> rfl)
theorem st_v91 : after (ops (F := F)) V (Proc.devRef .tc main_v91) = ReadP.val_main_v91 (F := F) (V (Proc.devRef .tc main_arg1)) (V (Proc.devRef .tc main_arg2)) :=
  (unary_fix aligned 143 (by decide) V main_v87 main_v91 _ ⟨by decide, rfl⟩ ⟨by decide, rfl⟩ rfl (by decide) (by decide)).trans (by rw [st_v87 V] <;> rfl)
theorem st_v92 : after (ops (F := F)) V (Proc.devRef .tc main_v92) = ReadP.val_main_v92 (F := F) (V (Proc.devRef .tc main_arg1)) (V (Proc.devRef .tc main_arg2)) :=
  (nary_fix aligned 144 (by decide) V ![main_v89, main_v90, main_v91] main_v92 (fun u => concatenate S64x1024x3 2 [⟨S64x1024x1, u 0⟩, ⟨S64x1024x1, u 1⟩, ⟨S64x1024x1, u 2⟩] concatenates_S64x1024x1_S64x1024x1_S64x1024x1_S64x1024x3_d2) (by decide) ⟨by decide, rfl⟩ rfl (by decide) (by decide)).trans (by
    show concatenate S64x1024x3 2 [⟨S64x1024x1, after (ops (F := F)) V (Proc.devRef .tc main_v89)⟩, ⟨S64x1024x1, after (ops (F := F)) V (Proc.devRef .tc main_v90)⟩, ⟨S64x1024x1, after (ops (F := F)) V (Proc.devRef .tc main_v91)⟩] _ = _
    rw [st_v89 V, st_v90 V, st_v91 V] <;> rfl)
theorem st_v93 : after (ops (F := F)) V (Proc.devRef .tc main_v93) = ReadP.val_main_v93 (F := F) (V (Proc.devRef .tc main_arg0)) (V (Proc.devRef .tc main_arg1)) (V (Proc.devRef .tc main_arg2)) :=
  (binary_fix aligned 145 (by decide) V main_v17 main_v92 main_v93 ((fun x i => Host.gather gather_S64x64x64x256_S64x1024x3_S64x1024x256_2_012_n_n_012_2_111256 x i) : (⟨S64x64x64x256, .f32⟩ : BufTy).Contents (Elt F) → (⟨S64x1024x3, .i32⟩ : BufTy).Contents (Elt F) → (⟨S64x1024x256, .f32⟩ : BufTy).Contents (Elt F)) ⟨by decide, rfl⟩ ⟨by decide, rfl⟩ ⟨by decide, rfl⟩ rfl (by decide) (by decide) (by decide)).trans (by rw [st_v17 V, st_v92 V] <;> rfl)
theorem st_v94 : after (ops (F := F)) V (Proc.devRef .tc main_v94) = ReadP.val_main_v94 (F := F) (V (Proc.devRef .tc main_arg1)) (V (Proc.devRef .tc main_arg2)) :=
  (unary_fix aligned 146 (by decide) V main_v70 main_v94 _ ⟨by decide, rfl⟩ ⟨by decide, rfl⟩ rfl (by decide) (by decide)).trans (by rw [st_v70 V] <;> rfl)
theorem st_v95 : after (ops (F := F)) V (Proc.devRef .tc main_v95) = ReadP.val_main_v95 (F := F) (V (Proc.devRef .tc main_arg1)) (V (Proc.devRef .tc main_arg2)) :=
  (unary_fix aligned 147 (by decide) V main_v94 main_v95 _ ⟨by decide, rfl⟩ ⟨by decide, rfl⟩ rfl (by decide) (by decide)).trans (by rw [st_v94 V] <;> rfl)
theorem st_v96 : after (ops (F := F)) V (Proc.devRef .tc main_v96) = ReadP.val_main_v96 (F := F) (V (Proc.devRef .tc main_arg1)) (V (Proc.devRef .tc main_arg2)) :=
  (unary_fix aligned 148 (by decide) V main_v95 main_v96 _ ⟨by decide, rfl⟩ ⟨by decide, rfl⟩ rfl (by decide) (by decide)).trans (by rw [st_v95 V] <;> rfl)
theorem st_v97 : after (ops (F := F)) V (Proc.devRef .tc main_v97) = ReadP.val_main_v97 (F := F) (V (Proc.devRef .tc main_arg0)) (V (Proc.devRef .tc main_arg1)) (V (Proc.devRef .tc main_arg2)) :=
  (binary_fix aligned 149 (by decide) V main_v93 main_v96 main_v97 _ ⟨by decide, rfl⟩ ⟨by decide, rfl⟩ ⟨by decide, rfl⟩ rfl (by decide) (by decide) (by decide)).trans (by rw [st_v93 V, st_v96 V] <;> rfl)
theorem st_c_30 : after (ops (F := F)) V (Proc.devRef .tc main_c_30) = ReadP.val_main_c_30 (F := F) :=
  (nullary_fix aligned 150 (by decide) V main_c_30 _ ⟨by decide, rfl⟩ rfl (by decide)).trans rfl
theorem st_v98 : after (ops (F := F)) V (Proc.devRef .tc main_v98) = ReadP.val_main_v98 (F := F) :=
  (unary_fix aligned 151 (by decide) V main_c_30 main_v98 _ ⟨by decide, rfl⟩ ⟨by decide, rfl⟩ rfl (by decide) (by decide)).trans (by rw [st_c_30 V] <;> rfl)
theorem st_v99 : after (ops (F := F)) V (Proc.devRef .tc main_v99) = ReadP.val_main_v99 (F := F) (V (Proc.devRef .tc main_arg1)) (V (Proc.devRef .tc main_arg2)) :=
  (binary_fix aligned 152 (by decide) V main_v15 main_v98 main_v99 _ ⟨by decide, rfl⟩ ⟨by decide, rfl⟩ ⟨by decide, rfl⟩ rfl (by decide) (by decide) (by decide)).trans (by rw [st_v15 V, st_v98 V] <;> rfl)
theorem st_c_31 : after (ops (F := F)) V (Proc.devRef .tc main_c_31) = ReadP.val_main_c_31 (F := F) :=
  (nullary_fix aligned 153 (by decide) V main_c_31 _ ⟨by decide, rfl⟩ rfl (by decide)).trans rfl
theorem st_v100 : after (ops (F := F)) V (Proc.devRef .tc main_v100) = ReadP.val_main_v100 (F := F) :=
  (unary_fix aligned 154 (by decide) V main_c_31 main_v100 _ ⟨by decide, rfl⟩ ⟨by decide, rfl⟩ rfl (by decide) (by decide)).trans (by rw [st_c_31 V] <;> rfl)
theorem st_v101 : after (ops (F := F)) V (Proc.devRef .tc main_v101) = ReadP.val_main_v101 (F := F) (V (Proc.devRef .tc main_arg1)) (V (Proc.devRef .tc main_arg2)) :=
  (binary_fix aligned 155 (by decide) V main_v99 main_v100 main_v101 _ ⟨by decide, rfl⟩ ⟨by decide, rfl⟩ ⟨by decide, rfl⟩ rfl (by decide) (by decide) (by decide)).trans (by rw [st_v99 V, st_v100 V] <;> rfl)
theorem st_c_32 : after (ops (F := F)) V (Proc.devRef .tc main_c_32) = ReadP.val_main_c_32 (F := F) :=
  (nullary_fix aligned 156 (by decide) V main_c_32 _ ⟨by decide, rfl⟩ rfl (by decide)).trans rfl
theorem st_v102 : after (ops (F := F)) V (Proc.devRef .tc main_v102) = ReadP.val_main_v102 (F := F) :=
  (unary_fix aligned 157 (by decide) V main_c_32 main_v102 _ ⟨by decide, rfl⟩ ⟨by decide, rfl⟩ rfl (by decide) (by decide)).trans (by rw [st_c_32 V] <;> rfl)
theorem st_v103 : after (ops (F := F)) V (Proc.devRef .tc main_v103) = ReadP.val_main_v103 (F := F) (V (Proc.devRef .tc main_arg1)) (V (Proc.devRef .tc main_arg2)) :=
  (binary_fix aligned 158 (by decide) V main_v99 main_v102 main_v103 _ ⟨by decide, rfl⟩ ⟨by decide, rfl⟩ ⟨by decide, rfl⟩ rfl (by decide) (by decide) (by decide)).trans (by rw [st_v99 V, st_v102 V] <;> rfl)
theorem st_v104 : after (ops (F := F)) V (Proc.devRef .tc main_v104) = ReadP.val_main_v104 (F := F) (V (Proc.devRef .tc main_arg1)) (V (Proc.devRef .tc main_arg2)) :=
  (binary_fix aligned 159 (by decide) V main_v101 main_v103 main_v104 _ ⟨by decide, rfl⟩ ⟨by decide, rfl⟩ ⟨by decide, rfl⟩ rfl (by decide) (by decide) (by decide)).trans (by rw [st_v101 V, st_v103 V] <;> rfl)
theorem st_c_33 : after (ops (F := F)) V (Proc.devRef .tc main_c_33) = ReadP.val_main_c_33 (F := F) :=
  (nullary_fix aligned 160 (by decide) V main_c_33 _ ⟨by decide, rfl⟩ rfl (by decide)).trans rfl
theorem st_v105 : after (ops (F := F)) V (Proc.devRef .tc main_v105) = ReadP.val_main_v105 (F := F) :=
  (unary_fix aligned 161 (by decide) V main_c_33 main_v105 _ ⟨by decide, rfl⟩ ⟨by decide, rfl⟩ rfl (by decide) (by decide)).trans (by rw [st_c_33 V] <;> rfl)
theorem st_v106 : after (ops (F := F)) V (Proc.devRef .tc main_v106) = ReadP.val_main_v106 (F := F) (V (Proc.devRef .tc main_arg1)) (V (Proc.devRef .tc main_arg2)) :=
  (binary_fix aligned 162 (by decide) V main_v16 main_v105 main_v106 _ ⟨by decide, rfl⟩ ⟨by decide, rfl⟩ ⟨by decide, rfl⟩ rfl (by decide) (by decide) (by decide)).trans (by rw [st_v16 V, st_v105 V] <;> rfl)
theorem st_v107 : after (ops (F := F)) V (Proc.devRef .tc main_v107) = ReadP.val_main_v107 (F := F) (V (Proc.devRef .tc main_arg1)) (V (Proc.devRef .tc main_arg2)) :=
  (binary_fix aligned 163 (by decide) V main_v104 main_v106 main_v107 _ ⟨by decide, rfl⟩ ⟨by decide, rfl⟩ ⟨by decide, rfl⟩ rfl (by decide) (by decide) (by decide)).trans (by rw [st_v104 V, st_v106 V] <;> rfl)
theorem st_c_34 : after (ops (F := F)) V (Proc.devRef .tc main_c_34) = ReadP.val_main_c_34 (F := F) :=
  (nullary_fix aligned 164 (by decide) V main_c_34 _ ⟨by decide, rfl⟩ rfl (by decide)).trans rfl
theorem st_v108 : after (ops (F := F)) V (Proc.devRef .tc main_v108) = ReadP.val_main_v108 (F := F) :=
  (unary_fix aligned 165 (by decide) V main_c_34 main_v108 _ ⟨by decide, rfl⟩ ⟨by decide, rfl⟩ rfl (by decide) (by decide)).trans (by rw [st_c_34 V] <;> rfl)
theorem st_v109 : after (ops (F := F)) V (Proc.devRef .tc main_v109) = ReadP.val_main_v109 (F := F) (V (Proc.devRef .tc main_arg1)) (V (Proc.devRef .tc main_arg2)) :=
  (binary_fix aligned 166 (by decide) V main_v16 main_v108 main_v109 _ ⟨by decide, rfl⟩ ⟨by decide, rfl⟩ ⟨by decide, rfl⟩ rfl (by decide) (by decide) (by decide)).trans (by rw [st_v16 V, st_v108 V] <;> rfl)
theorem st_v110 : after (ops (F := F)) V (Proc.devRef .tc main_v110) = ReadP.val_main_v110 (F := F) (V (Proc.devRef .tc main_arg1)) (V (Proc.devRef .tc main_arg2)) :=
  (binary_fix aligned 167 (by decide) V main_v107 main_v109 main_v110 _ ⟨by decide, rfl⟩ ⟨by decide, rfl⟩ ⟨by decide, rfl⟩ rfl (by decide) (by decide) (by decide)).trans (by rw [st_v107 V, st_v109 V] <;> rfl)
theorem st_c_35 : after (ops (F := F)) V (Proc.devRef .tc main_c_35) = ReadP.val_main_c_35 (F := F) :=
  (nullary_fix aligned 168 (by decide) V main_c_35 _ ⟨by decide, rfl⟩ rfl (by decide)).trans rfl
theorem st_c_36 : after (ops (F := F)) V (Proc.devRef .tc main_c_36) = ReadP.val_main_c_36 (F := F) :=
  (nullary_fix aligned 169 (by decide) V main_c_36 _ ⟨by decide, rfl⟩ rfl (by decide)).trans rfl
theorem st_call4_v0 : after (ops (F := F)) V (Proc.devRef .tc main_call4_v0) = ReadP.val_main_call4_v0 (F := F) :=
  (unary_fix aligned 170 (by decide) V main_c_35 main_call4_v0 _ ⟨by decide, rfl⟩ ⟨by decide, rfl⟩ rfl (by decide) (by decide)).trans (by rw [st_c_35 V] <;> rfl)
theorem st_call4_v1 : after (ops (F := F)) V (Proc.devRef .tc main_call4_v1) = ReadP.val_main_call4_v1 (F := F) :=
  (unary_fix aligned 171 (by decide) V main_call4_v0 main_call4_v1 _ ⟨by decide, rfl⟩ ⟨by decide, rfl⟩ rfl (by decide) (by decide)).trans (by rw [st_call4_v0 V] <;> rfl)
theorem st_call4_v2 : after (ops (F := F)) V (Proc.devRef .tc main_call4_v2) = ReadP.val_main_call4_v2 (F := F) (V (Proc.devRef .tc main_arg1)) (V (Proc.devRef .tc main_arg2)) :=
  (binary_fix aligned 172 (by decide) V main_call4_v1 main_v99 main_call4_v2 _ ⟨by decide, rfl⟩ ⟨by decide, rfl⟩ ⟨by decide, rfl⟩ rfl (by decide) (by decide) (by decide)).trans (by rw [st_call4_v1 V, st_v99 V] <;> rfl)
theorem st_call4_v3 : after (ops (F := F)) V (Proc.devRef .tc main_call4_v3) = ReadP.val_main_call4_v3 (F := F) :=
  (unary_fix aligned 173 (by decide) V main_c_36 main_call4_v3 _ ⟨by decide, rfl⟩ ⟨by decide, rfl⟩ rfl (by decide) (by decide)).trans (by rw [st_c_36 V] <;> rfl)
theorem st_call4_v4 : after (ops (F := F)) V (Proc.devRef .tc main_call4_v4) = ReadP.val_main_call4_v4 (F := F) :=
  (unary_fix aligned 174 (by decide) V main_call4_v3 main_call4_v4 _ ⟨by decide, rfl⟩ ⟨by decide, rfl⟩ rfl (by decide) (by decide)).trans (by rw [st_call4_v3 V] <;> rfl)
theorem st_v111 : after (ops (F := F)) V (Proc.devRef .tc main_v111) = ReadP.val_main_v111 (F := F) (V (Proc.devRef .tc main_arg1)) (V (Proc.devRef .tc main_arg2)) :=
  (binary_fix aligned 175 (by decide) V main_call4_v4 main_call4_v2 main_v111 _ ⟨by decide, rfl⟩ ⟨by decide, rfl⟩ ⟨by decide, rfl⟩ rfl (by decide) (by decide) (by decide)).trans (by rw [st_call4_v4 V, st_call4_v2 V] <;> rfl)
theorem st_c_37 : after (ops (F := F)) V (Proc.devRef .tc main_c_37) = ReadP.val_main_c_37 (F := F) :=
  (nullary_fix aligned 176 (by decide) V main_c_37 _ ⟨by decide, rfl⟩ rfl (by decide)).trans rfl
theorem st_c_38 : after (ops (F := F)) V (Proc.devRef .tc main_c_38) = ReadP.val_main_c_38 (F := F) :=
  (nullary_fix aligned 177 (by decide) V main_c_38 _ ⟨by decide, rfl⟩ rfl (by decide)).trans rfl
theorem st_call5_v0 : after (ops (F := F)) V (Proc.devRef .tc main_call5_v0) = ReadP.val_main_call5_v0 (F := F) :=
  (unary_fix aligned 178 (by decide) V main_c_37 main_call5_v0 _ ⟨by decide, rfl⟩ ⟨by decide, rfl⟩ rfl (by decide) (by decide)).trans (by rw [st_c_37 V] <;> rfl)
theorem st_call5_v1 : after (ops (F := F)) V (Proc.devRef .tc main_call5_v1) = ReadP.val_main_call5_v1 (F := F) :=
  (unary_fix aligned 179 (by decide) V main_call5_v0 main_call5_v1 _ ⟨by decide, rfl⟩ ⟨by decide, rfl⟩ rfl (by decide) (by decide)).trans (by rw [st_call5_v0 V] <;> rfl)
theorem st_call5_v2 : after (ops (F := F)) V (Proc.devRef .tc main_call5_v2) = ReadP.val_main_call5_v2 (F := F) (V (Proc.devRef .tc main_arg1)) (V (Proc.devRef .tc main_arg2)) :=
  (binary_fix aligned 180 (by decide) V main_call5_v1 main_v16 main_call5_v2 _ ⟨by decide, rfl⟩ ⟨by decide, rfl⟩ ⟨by decide, rfl⟩ rfl (by decide) (by decide) (by decide)).trans (by rw [st_call5_v1 V, st_v16 V] <;> rfl)
theorem st_call5_v3 : after (ops (F := F)) V (Proc.devRef .tc main_call5_v3) = ReadP.val_main_call5_v3 (F := F) :=
  (unary_fix aligned 181 (by decide) V main_c_38 main_call5_v3 _ ⟨by decide, rfl⟩ ⟨by decide, rfl⟩ rfl (by decide) (by decide)).trans (by rw [st_c_38 V] <;> rfl)
theorem st_call5_v4 : after (ops (F := F)) V (Proc.devRef .tc main_call5_v4) = ReadP.val_main_call5_v4 (F := F) :=
  (unary_fix aligned 182 (by decide) V main_call5_v3 main_call5_v4 _ ⟨by decide, rfl⟩ ⟨by decide, rfl⟩ rfl (by decide) (by decide)).trans (by rw [st_call5_v3 V] <;> rfl)
theorem st_v112 : after (ops (F := F)) V (Proc.devRef .tc main_v112) = ReadP.val_main_v112 (F := F) (V (Proc.devRef .tc main_arg1)) (V (Proc.devRef .tc main_arg2)) :=
  (binary_fix aligned 183 (by decide) V main_call5_v4 main_call5_v2 main_v112 _ ⟨by decide, rfl⟩ ⟨by decide, rfl⟩ ⟨by decide, rfl⟩ rfl (by decide) (by decide) (by decide)).trans (by rw [st_call5_v4 V, st_call5_v2 V] <;> rfl)
theorem st_c_39 : after (ops (F := F)) V (Proc.devRef .tc main_c_39) = ReadP.val_main_c_39 (F := F) :=
  (nullary_fix aligned 184 (by decide) V main_c_39 _ ⟨by decide, rfl⟩ rfl (by decide)).trans rfl
theorem st_v113 : after (ops (F := F)) V (Proc.devRef .tc main_v113) = ReadP.val_main_v113 (F := F) :=
  (unary_fix aligned 185 (by decide) V main_c_39 main_v113 _ ⟨by decide, rfl⟩ ⟨by decide, rfl⟩ rfl (by decide) (by decide)).trans (by rw [st_c_39 V] <;> rfl)
theorem st_v114 : after (ops (F := F)) V (Proc.devRef .tc main_v114) = ReadP.val_main_v114 (F := F) :=
  (binary_fix aligned 186 (by decide) V main_v19 main_v113 main_v114 _ ⟨by decide, rfl⟩ ⟨by decide, rfl⟩ ⟨by decide, rfl⟩ rfl (by decide) (by decide) (by decide)).trans (by rw [st_v19 V, st_v113 V] <;> rfl)
theorem st_c_40 : after (ops (F := F)) V (Proc.devRef .tc main_c_40) = ReadP.val_main_c_40 (F := F) :=
  (nullary_fix aligned 187 (by decide) V main_c_40 _ ⟨by decide, rfl⟩ rfl (by decide)).trans rfl
theorem st_v115 : after (ops (F := F)) V (Proc.devRef .tc main_v115) = ReadP.val_main_v115 (F := F) :=
  (unary_fix aligned 188 (by decide) V main_c_40 main_v115 _ ⟨by decide, rfl⟩ ⟨by decide, rfl⟩ rfl (by decide) (by decide)).trans (by rw [st_c_40 V] <;> rfl)
theorem st_v116 : after (ops (F := F)) V (Proc.devRef .tc main_v116) = ReadP.val_main_v116 (F := F) :=
  (binary_fix aligned 189 (by decide) V main_v19 main_v115 main_v116 _ ⟨by decide, rfl⟩ ⟨by decide, rfl⟩ ⟨by decide, rfl⟩ rfl (by decide) (by decide) (by decide)).trans (by rw [st_v19 V, st_v115 V] <;> rfl)
theorem st_v117 : after (ops (F := F)) V (Proc.devRef .tc main_v117) = ReadP.val_main_v117 (F := F) :=
  (ternary_fix aligned 190 (by decide) V main_v114 main_v116 main_v19 main_v117 _ ⟨by decide, rfl⟩ ⟨by decide, rfl⟩ ⟨by decide, rfl⟩ ⟨by decide, rfl⟩ rfl (by decide) (by decide) (by decide) (by decide)).trans (by rw [st_v114 V, st_v116 V, st_v19 V] <;> rfl)
theorem st_c_41 : after (ops (F := F)) V (Proc.devRef .tc main_c_41) = ReadP.val_main_c_41 (F := F) :=
  (nullary_fix aligned 191 (by decide) V main_c_41 _ ⟨by decide, rfl⟩ rfl (by decide)).trans rfl
theorem st_v118 : after (ops (F := F)) V (Proc.devRef .tc main_v118) = ReadP.val_main_v118 (F := F) :=
  (unary_fix aligned 192 (by decide) V main_c_41 main_v118 _ ⟨by decide, rfl⟩ ⟨by decide, rfl⟩ rfl (by decide) (by decide)).trans (by rw [st_c_41 V] <;> rfl)
theorem st_v119 : after (ops (F := F)) V (Proc.devRef .tc main_v119) = ReadP.val_main_v119 (F := F) (V (Proc.devRef .tc main_arg1)) (V (Proc.devRef .tc main_arg2)) :=
  (binary_fix aligned 193 (by decide) V main_v111 main_v118 main_v119 _ ⟨by decide, rfl⟩ ⟨by decide, rfl⟩ ⟨by decide, rfl⟩ rfl (by decide) (by decide) (by decide)).trans (by rw [st_v111 V, st_v118 V] <;> rfl)
theorem st_c_42 : after (ops (F := F)) V (Proc.devRef .tc main_c_42) = ReadP.val_main_c_42 (F := F) :=
  (nullary_fix aligned 194 (by decide) V main_c_42 _ ⟨by decide, rfl⟩ rfl (by decide)).trans rfl
theorem st_v120 : after (ops (F := F)) V (Proc.devRef .tc main_v120) = ReadP.val_main_v120 (F := F) :=
  (unary_fix aligned 195 (by decide) V main_c_42 main_v120 _ ⟨by decide, rfl⟩ ⟨by decide, rfl⟩ rfl (by decide) (by decide)).trans (by rw [st_c_42 V] <;> rfl)
theorem st_v121 : after (ops (F := F)) V (Proc.devRef .tc main_v121) = ReadP.val_main_v121 (F := F) (V (Proc.devRef .tc main_arg1)) (V (Proc.devRef .tc main_arg2)) :=
  (binary_fix aligned 196 (by decide) V main_v111 main_v120 main_v121 _ ⟨by decide, rfl⟩ ⟨by decide, rfl⟩ ⟨by decide, rfl⟩ rfl (by decide) (by decide) (by decide)).trans (by rw [st_v111 V, st_v120 V] <;> rfl)
theorem st_v122 : after (ops (F := F)) V (Proc.devRef .tc main_v122) = ReadP.val_main_v122 (F := F) (V (Proc.devRef .tc main_arg1)) (V (Proc.devRef .tc main_arg2)) :=
  (ternary_fix aligned 197 (by decide) V main_v119 main_v121 main_v111 main_v122 _ ⟨by decide, rfl⟩ ⟨by decide, rfl⟩ ⟨by decide, rfl⟩ ⟨by decide, rfl⟩ rfl (by decide) (by decide) (by decide) (by decide)).trans (by rw [st_v119 V, st_v121 V, st_v111 V] <;> rfl)
theorem st_c_43 : after (ops (F := F)) V (Proc.devRef .tc main_c_43) = ReadP.val_main_c_43 (F := F) :=
  (nullary_fix aligned 198 (by decide) V main_c_43 _ ⟨by decide, rfl⟩ rfl (by decide)).trans rfl
theorem st_v123 : after (ops (F := F)) V (Proc.devRef .tc main_v123) = ReadP.val_main_v123 (F := F) :=
  (unary_fix aligned 199 (by decide) V main_c_43 main_v123 _ ⟨by decide, rfl⟩ ⟨by decide, rfl⟩ rfl (by decide) (by decide)).trans (by rw [st_c_43 V] <;> rfl)

end Cert.ReferenceIdeal.RefValue

end
-- ==== Proof.RefSt2.lean ====
/-
  The reference's buffers after its whole line of operations, continued: operations 201 to 302 of the line.
-/
import proofs.«113401_j14955076124692_1_alg».proof.Proof.RefSt1

noncomputable section

namespace Cert.ReferenceIdeal.RefValue

open Cert.ReferenceIdeal Cert.ReferenceIdeal.Gen Cert.ReferenceIdeal.ValueP Cert.LibSsa Idealize.ShloMosaic Idealize.ShloMosaic.TcCoe Idealize.SL.Sem Idealize.ShloMosaic.StableHlo

variable {F : FTy → Type} [FloatOps F]

variable (V : Valuation τ sig (Elt F))

/-- Stage by stage, continued. -/
theorem st_v124 : after (ops (F := F)) V (Proc.devRef .tc main_v124) = ReadP.val_main_v124 (F := F) (V (Proc.devRef .tc main_arg1)) (V (Proc.devRef .tc main_arg2)) :=
  (binary_fix aligned 200 (by decide) V main_v112 main_v123 main_v124 _ ⟨by decide, rfl⟩ ⟨by decide, rfl⟩ ⟨by decide, rfl⟩ rfl (by decide) (by decide) (by decide)).trans (by rw [st_v112 V, st_v123 V] <;> rfl)
theorem st_c_44 : after (ops (F := F)) V (Proc.devRef .tc main_c_44) = ReadP.val_main_c_44 (F := F) :=
  (nullary_fix aligned 201 (by decide) V main_c_44 _ ⟨by decide, rfl⟩ rfl (by decide)).trans rfl
theorem st_v125 : after (ops (F := F)) V (Proc.devRef .tc main_v125) = ReadP.val_main_v125 (F := F) :=
  (unary_fix aligned 202 (by decide) V main_c_44 main_v125 _ ⟨by decide, rfl⟩ ⟨by decide, rfl⟩ rfl (by decide) (by decide)).trans (by rw [st_c_44 V] <;> rfl)
theorem st_v126 : after (ops (F := F)) V (Proc.devRef .tc main_v126) = ReadP.val_main_v126 (F := F) (V (Proc.devRef .tc main_arg1)) (V (Proc.devRef .tc main_arg2)) :=
  (binary_fix aligned 203 (by decide) V main_v112 main_v125 main_v126 _ ⟨by decide, rfl⟩ ⟨by decide, rfl⟩ ⟨by decide, rfl⟩ rfl (by decide) (by decide) (by decide)).trans (by rw [st_v112 V, st_v125 V] <;> rfl)
theorem st_v127 : after (ops (F := F)) V (Proc.devRef .tc main_v127) = ReadP.val_main_v127 (F := F) (V (Proc.devRef .tc main_arg1)) (V (Proc.devRef .tc main_arg2)) :=
  (ternary_fix aligned 204 (by decide) V main_v124 main_v126 main_v112 main_v127 _ ⟨by decide, rfl⟩ ⟨by decide, rfl⟩ ⟨by decide, rfl⟩ ⟨by decide, rfl⟩ rfl (by decide) (by decide) (by decide) (by decide)).trans (by rw [st_v124 V, st_v126 V, st_v112 V] <;> rfl)
theorem st_v128 : after (ops (F := F)) V (Proc.devRef .tc main_v128) = ReadP.val_main_v128 (F := F) :=
  (unary_fix aligned 205 (by decide) V main_v117 main_v128 _ ⟨by decide, rfl⟩ ⟨by decide, rfl⟩ rfl (by decide) (by decide)).trans (by rw [st_v117 V] <;> rfl)
theorem st_v129 : after (ops (F := F)) V (Proc.devRef .tc main_v129) = ReadP.val_main_v129 (F := F) :=
  (unary_fix aligned 206 (by decide) V main_v128 main_v129 _ ⟨by decide, rfl⟩ ⟨by decide, rfl⟩ rfl (by decide) (by decide)).trans (by rw [st_v128 V] <;> rfl)
theorem st_v130 : after (ops (F := F)) V (Proc.devRef .tc main_v130) = ReadP.val_main_v130 (F := F) (V (Proc.devRef .tc main_arg1)) (V (Proc.devRef .tc main_arg2)) :=
  (unary_fix aligned 207 (by decide) V main_v122 main_v130 _ ⟨by decide, rfl⟩ ⟨by decide, rfl⟩ rfl (by decide) (by decide)).trans (by rw [st_v122 V] <;> rfl)
theorem st_v131 : after (ops (F := F)) V (Proc.devRef .tc main_v131) = ReadP.val_main_v131 (F := F) (V (Proc.devRef .tc main_arg1)) (V (Proc.devRef .tc main_arg2)) :=
  (unary_fix aligned 208 (by decide) V main_v127 main_v131 _ ⟨by decide, rfl⟩ ⟨by decide, rfl⟩ rfl (by decide) (by decide)).trans (by rw [st_v127 V] <;> rfl)
theorem st_v132 : after (ops (F := F)) V (Proc.devRef .tc main_v132) = ReadP.val_main_v132 (F := F) (V (Proc.devRef .tc main_arg1)) (V (Proc.devRef .tc main_arg2)) :=
  (nary_fix aligned 209 (by decide) V ![main_v129, main_v130, main_v131] main_v132 (fun u => concatenate S64x1024x3 2 [⟨S64x1024x1, u 0⟩, ⟨S64x1024x1, u 1⟩, ⟨S64x1024x1, u 2⟩] concatenates_S64x1024x1_S64x1024x1_S64x1024x1_S64x1024x3_d2) (by decide) ⟨by decide, rfl⟩ rfl (by decide) (by decide)).trans (by
    show concatenate S64x1024x3 2 [⟨S64x1024x1, after (ops (F := F)) V (Proc.devRef .tc main_v129)⟩, ⟨S64x1024x1, after (ops (F := F)) V (Proc.devRef .tc main_v130)⟩, ⟨S64x1024x1, after (ops (F := F)) V (Proc.devRef .tc main_v131)⟩] _ = _
    rw [st_v129 V, st_v130 V, st_v131 V] <;> rfl)
theorem st_v133 : after (ops (F := F)) V (Proc.devRef .tc main_v133) = ReadP.val_main_v133 (F := F) (V (Proc.devRef .tc main_arg0)) (V (Proc.devRef .tc main_arg1)) (V (Proc.devRef .tc main_arg2)) :=
  (binary_fix aligned 210 (by decide) V main_v17 main_v132 main_v133 ((fun x i => Host.gather gather_S64x64x64x256_S64x1024x3_S64x1024x256_2_012_n_n_012_2_111256 x i) : (⟨S64x64x64x256, .f32⟩ : BufTy).Contents (Elt F) → (⟨S64x1024x3, .i32⟩ : BufTy).Contents (Elt F) → (⟨S64x1024x256, .f32⟩ : BufTy).Contents (Elt F)) ⟨by decide, rfl⟩ ⟨by decide, rfl⟩ ⟨by decide, rfl⟩ rfl (by decide) (by decide) (by decide)).trans (by rw [st_v17 V, st_v132 V] <;> rfl)
theorem st_v134 : after (ops (F := F)) V (Proc.devRef .tc main_v134) = ReadP.val_main_v134 (F := F) (V (Proc.devRef .tc main_arg1)) (V (Proc.devRef .tc main_arg2)) :=
  (unary_fix aligned 211 (by decide) V main_v110 main_v134 _ ⟨by decide, rfl⟩ ⟨by decide, rfl⟩ rfl (by decide) (by decide)).trans (by rw [st_v110 V] <;> rfl)
theorem st_v135 : after (ops (F := F)) V (Proc.devRef .tc main_v135) = ReadP.val_main_v135 (F := F) (V (Proc.devRef .tc main_arg1)) (V (Proc.devRef .tc main_arg2)) :=
  (unary_fix aligned 212 (by decide) V main_v134 main_v135 _ ⟨by decide, rfl⟩ ⟨by decide, rfl⟩ rfl (by decide) (by decide)).trans (by rw [st_v134 V] <;> rfl)
theorem st_v136 : after (ops (F := F)) V (Proc.devRef .tc main_v136) = ReadP.val_main_v136 (F := F) (V (Proc.devRef .tc main_arg1)) (V (Proc.devRef .tc main_arg2)) :=
  (unary_fix aligned 213 (by decide) V main_v135 main_v136 _ ⟨by decide, rfl⟩ ⟨by decide, rfl⟩ rfl (by decide) (by decide)).trans (by rw [st_v135 V] <;> rfl)
theorem st_v137 : after (ops (F := F)) V (Proc.devRef .tc main_v137) = ReadP.val_main_v137 (F := F) (V (Proc.devRef .tc main_arg0)) (V (Proc.devRef .tc main_arg1)) (V (Proc.devRef .tc main_arg2)) :=
  (binary_fix aligned 214 (by decide) V main_v133 main_v136 main_v137 _ ⟨by decide, rfl⟩ ⟨by decide, rfl⟩ ⟨by decide, rfl⟩ rfl (by decide) (by decide) (by decide)).trans (by rw [st_v133 V, st_v136 V] <;> rfl)
theorem st_c_45 : after (ops (F := F)) V (Proc.devRef .tc main_c_45) = ReadP.val_main_c_45 (F := F) :=
  (nullary_fix aligned 215 (by decide) V main_c_45 _ ⟨by decide, rfl⟩ rfl (by decide)).trans rfl
theorem st_v138 : after (ops (F := F)) V (Proc.devRef .tc main_v138) = ReadP.val_main_v138 (F := F) :=
  (unary_fix aligned 216 (by decide) V main_c_45 main_v138 _ ⟨by decide, rfl⟩ ⟨by decide, rfl⟩ rfl (by decide) (by decide)).trans (by rw [st_c_45 V] <;> rfl)
theorem st_v139 : after (ops (F := F)) V (Proc.devRef .tc main_v139) = ReadP.val_main_v139 (F := F) (V (Proc.devRef .tc main_arg1)) (V (Proc.devRef .tc main_arg2)) :=
  (binary_fix aligned 217 (by decide) V main_v15 main_v138 main_v139 _ ⟨by decide, rfl⟩ ⟨by decide, rfl⟩ ⟨by decide, rfl⟩ rfl (by decide) (by decide) (by decide)).trans (by rw [st_v15 V, st_v138 V] <;> rfl)
theorem st_c_46 : after (ops (F := F)) V (Proc.devRef .tc main_c_46) = ReadP.val_main_c_46 (F := F) :=
  (nullary_fix aligned 218 (by decide) V main_c_46 _ ⟨by decide, rfl⟩ rfl (by decide)).trans rfl
theorem st_v140 : after (ops (F := F)) V (Proc.devRef .tc main_v140) = ReadP.val_main_v140 (F := F) :=
  (unary_fix aligned 219 (by decide) V main_c_46 main_v140 _ ⟨by decide, rfl⟩ ⟨by decide, rfl⟩ rfl (by decide) (by decide)).trans (by rw [st_c_46 V] <;> rfl)
theorem st_v141 : after (ops (F := F)) V (Proc.devRef .tc main_v141) = ReadP.val_main_v141 (F := F) (V (Proc.devRef .tc main_arg1)) (V (Proc.devRef .tc main_arg2)) :=
  (binary_fix aligned 220 (by decide) V main_v16 main_v140 main_v141 _ ⟨by decide, rfl⟩ ⟨by decide, rfl⟩ ⟨by decide, rfl⟩ rfl (by decide) (by decide) (by decide)).trans (by rw [st_v16 V, st_v140 V] <;> rfl)
theorem st_c_47 : after (ops (F := F)) V (Proc.devRef .tc main_c_47) = ReadP.val_main_c_47 (F := F) :=
  (nullary_fix aligned 221 (by decide) V main_c_47 _ ⟨by decide, rfl⟩ rfl (by decide)).trans rfl
theorem st_v142 : after (ops (F := F)) V (Proc.devRef .tc main_v142) = ReadP.val_main_v142 (F := F) :=
  (unary_fix aligned 222 (by decide) V main_c_47 main_v142 _ ⟨by decide, rfl⟩ ⟨by decide, rfl⟩ rfl (by decide) (by decide)).trans (by rw [st_c_47 V] <;> rfl)
theorem st_v143 : after (ops (F := F)) V (Proc.devRef .tc main_v143) = ReadP.val_main_v143 (F := F) (V (Proc.devRef .tc main_arg1)) (V (Proc.devRef .tc main_arg2)) :=
  (binary_fix aligned 223 (by decide) V main_v139 main_v142 main_v143 _ ⟨by decide, rfl⟩ ⟨by decide, rfl⟩ ⟨by decide, rfl⟩ rfl (by decide) (by decide) (by decide)).trans (by rw [st_v139 V, st_v142 V] <;> rfl)
theorem st_c_48 : after (ops (F := F)) V (Proc.devRef .tc main_c_48) = ReadP.val_main_c_48 (F := F) :=
  (nullary_fix aligned 224 (by decide) V main_c_48 _ ⟨by decide, rfl⟩ rfl (by decide)).trans rfl
theorem st_v144 : after (ops (F := F)) V (Proc.devRef .tc main_v144) = ReadP.val_main_v144 (F := F) :=
  (unary_fix aligned 225 (by decide) V main_c_48 main_v144 _ ⟨by decide, rfl⟩ ⟨by decide, rfl⟩ rfl (by decide) (by decide)).trans (by rw [st_c_48 V] <;> rfl)
theorem st_v145 : after (ops (F := F)) V (Proc.devRef .tc main_v145) = ReadP.val_main_v145 (F := F) (V (Proc.devRef .tc main_arg1)) (V (Proc.devRef .tc main_arg2)) :=
  (binary_fix aligned 226 (by decide) V main_v139 main_v144 main_v145 _ ⟨by decide, rfl⟩ ⟨by decide, rfl⟩ ⟨by decide, rfl⟩ rfl (by decide) (by decide) (by decide)).trans (by rw [st_v139 V, st_v144 V] <;> rfl)
theorem st_v146 : after (ops (F := F)) V (Proc.devRef .tc main_v146) = ReadP.val_main_v146 (F := F) (V (Proc.devRef .tc main_arg1)) (V (Proc.devRef .tc main_arg2)) :=
  (binary_fix aligned 227 (by decide) V main_v143 main_v145 main_v146 _ ⟨by decide, rfl⟩ ⟨by decide, rfl⟩ ⟨by decide, rfl⟩ rfl (by decide) (by decide) (by decide)).trans (by rw [st_v143 V, st_v145 V] <;> rfl)
theorem st_c_49 : after (ops (F := F)) V (Proc.devRef .tc main_c_49) = ReadP.val_main_c_49 (F := F) :=
  (nullary_fix aligned 228 (by decide) V main_c_49 _ ⟨by decide, rfl⟩ rfl (by decide)).trans rfl
theorem st_v147 : after (ops (F := F)) V (Proc.devRef .tc main_v147) = ReadP.val_main_v147 (F := F) :=
  (unary_fix aligned 229 (by decide) V main_c_49 main_v147 _ ⟨by decide, rfl⟩ ⟨by decide, rfl⟩ rfl (by decide) (by decide)).trans (by rw [st_c_49 V] <;> rfl)
theorem st_v148 : after (ops (F := F)) V (Proc.devRef .tc main_v148) = ReadP.val_main_v148 (F := F) (V (Proc.devRef .tc main_arg1)) (V (Proc.devRef .tc main_arg2)) :=
  (binary_fix aligned 230 (by decide) V main_v141 main_v147 main_v148 _ ⟨by decide, rfl⟩ ⟨by decide, rfl⟩ ⟨by decide, rfl⟩ rfl (by decide) (by decide) (by decide)).trans (by rw [st_v141 V, st_v147 V] <;> rfl)
theorem st_v149 : after (ops (F := F)) V (Proc.devRef .tc main_v149) = ReadP.val_main_v149 (F := F) (V (Proc.devRef .tc main_arg1)) (V (Proc.devRef .tc main_arg2)) :=
  (binary_fix aligned 231 (by decide) V main_v146 main_v148 main_v149 _ ⟨by decide, rfl⟩ ⟨by decide, rfl⟩ ⟨by decide, rfl⟩ rfl (by decide) (by decide) (by decide)).trans (by rw [st_v146 V, st_v148 V] <;> rfl)
theorem st_c_50 : after (ops (F := F)) V (Proc.devRef .tc main_c_50) = ReadP.val_main_c_50 (F := F) :=
  (nullary_fix aligned 232 (by decide) V main_c_50 _ ⟨by decide, rfl⟩ rfl (by decide)).trans rfl
theorem st_v150 : after (ops (F := F)) V (Proc.devRef .tc main_v150) = ReadP.val_main_v150 (F := F) :=
  (unary_fix aligned 233 (by decide) V main_c_50 main_v150 _ ⟨by decide, rfl⟩ ⟨by decide, rfl⟩ rfl (by decide) (by decide)).trans (by rw [st_c_50 V] <;> rfl)
theorem st_v151 : after (ops (F := F)) V (Proc.devRef .tc main_v151) = ReadP.val_main_v151 (F := F) (V (Proc.devRef .tc main_arg1)) (V (Proc.devRef .tc main_arg2)) :=
  (binary_fix aligned 234 (by decide) V main_v141 main_v150 main_v151 _ ⟨by decide, rfl⟩ ⟨by decide, rfl⟩ ⟨by decide, rfl⟩ rfl (by decide) (by decide) (by decide)).trans (by rw [st_v141 V, st_v150 V] <;> rfl)
theorem st_v152 : after (ops (F := F)) V (Proc.devRef .tc main_v152) = ReadP.val_main_v152 (F := F) (V (Proc.devRef .tc main_arg1)) (V (Proc.devRef .tc main_arg2)) :=
  (binary_fix aligned 235 (by decide) V main_v149 main_v151 main_v152 _ ⟨by decide, rfl⟩ ⟨by decide, rfl⟩ ⟨by decide, rfl⟩ rfl (by decide) (by decide) (by decide)).trans (by rw [st_v149 V, st_v151 V] <;> rfl)
theorem st_c_51 : after (ops (F := F)) V (Proc.devRef .tc main_c_51) = ReadP.val_main_c_51 (F := F) :=
  (nullary_fix aligned 236 (by decide) V main_c_51 _ ⟨by decide, rfl⟩ rfl (by decide)).trans rfl
theorem st_c_52 : after (ops (F := F)) V (Proc.devRef .tc main_c_52) = ReadP.val_main_c_52 (F := F) :=
  (nullary_fix aligned 237 (by decide) V main_c_52 _ ⟨by decide, rfl⟩ rfl (by decide)).trans rfl
theorem st_call6_v0 : after (ops (F := F)) V (Proc.devRef .tc main_call6_v0) = ReadP.val_main_call6_v0 (F := F) :=
  (unary_fix aligned 238 (by decide) V main_c_51 main_call6_v0 _ ⟨by decide, rfl⟩ ⟨by decide, rfl⟩ rfl (by decide) (by decide)).trans (by rw [st_c_51 V] <;> rfl)
theorem st_call6_v1 : after (ops (F := F)) V (Proc.devRef .tc main_call6_v1) = ReadP.val_main_call6_v1 (F := F) :=
  (unary_fix aligned 239 (by decide) V main_call6_v0 main_call6_v1 _ ⟨by decide, rfl⟩ ⟨by decide, rfl⟩ rfl (by decide) (by decide)).trans (by rw [st_call6_v0 V] <;> rfl)
theorem st_call6_v2 : after (ops (F := F)) V (Proc.devRef .tc main_call6_v2) = ReadP.val_main_call6_v2 (F := F) (V (Proc.devRef .tc main_arg1)) (V (Proc.devRef .tc main_arg2)) :=
  (binary_fix aligned 240 (by decide) V main_call6_v1 main_v139 main_call6_v2 _ ⟨by decide, rfl⟩ ⟨by decide, rfl⟩ ⟨by decide, rfl⟩ rfl (by decide) (by decide) (by decide)).trans (by rw [st_call6_v1 V, st_v139 V] <;> rfl)
theorem st_call6_v3 : after (ops (F := F)) V (Proc.devRef .tc main_call6_v3) = ReadP.val_main_call6_v3 (F := F) :=
  (unary_fix aligned 241 (by decide) V main_c_52 main_call6_v3 _ ⟨by decide, rfl⟩ ⟨by decide, rfl⟩ rfl (by decide) (by decide)).trans (by rw [st_c_52 V] <;> rfl)
theorem st_call6_v4 : after (ops (F := F)) V (Proc.devRef .tc main_call6_v4) = ReadP.val_main_call6_v4 (F := F) :=
  (unary_fix aligned 242 (by decide) V main_call6_v3 main_call6_v4 _ ⟨by decide, rfl⟩ ⟨by decide, rfl⟩ rfl (by decide) (by decide)).trans (by rw [st_call6_v3 V] <;> rfl)
theorem st_v153 : after (ops (F := F)) V (Proc.devRef .tc main_v153) = ReadP.val_main_v153 (F := F) (V (Proc.devRef .tc main_arg1)) (V (Proc.devRef .tc main_arg2)) :=
  (binary_fix aligned 243 (by decide) V main_call6_v4 main_call6_v2 main_v153 _ ⟨by decide, rfl⟩ ⟨by decide, rfl⟩ ⟨by decide, rfl⟩ rfl (by decide) (by decide) (by decide)).trans (by rw [st_call6_v4 V, st_call6_v2 V] <;> rfl)
theorem st_c_53 : after (ops (F := F)) V (Proc.devRef .tc main_c_53) = ReadP.val_main_c_53 (F := F) :=
  (nullary_fix aligned 244 (by decide) V main_c_53 _ ⟨by decide, rfl⟩ rfl (by decide)).trans rfl
theorem st_c_54 : after (ops (F := F)) V (Proc.devRef .tc main_c_54) = ReadP.val_main_c_54 (F := F) :=
  (nullary_fix aligned 245 (by decide) V main_c_54 _ ⟨by decide, rfl⟩ rfl (by decide)).trans rfl
theorem st_call7_v0 : after (ops (F := F)) V (Proc.devRef .tc main_call7_v0) = ReadP.val_main_call7_v0 (F := F) :=
  (unary_fix aligned 246 (by decide) V main_c_53 main_call7_v0 _ ⟨by decide, rfl⟩ ⟨by decide, rfl⟩ rfl (by decide) (by decide)).trans (by rw [st_c_53 V] <;> rfl)
theorem st_call7_v1 : after (ops (F := F)) V (Proc.devRef .tc main_call7_v1) = ReadP.val_main_call7_v1 (F := F) :=
  (unary_fix aligned 247 (by decide) V main_call7_v0 main_call7_v1 _ ⟨by decide, rfl⟩ ⟨by decide, rfl⟩ rfl (by decide) (by decide)).trans (by rw [st_call7_v0 V] <;> rfl)
theorem st_call7_v2 : after (ops (F := F)) V (Proc.devRef .tc main_call7_v2) = ReadP.val_main_call7_v2 (F := F) (V (Proc.devRef .tc main_arg1)) (V (Proc.devRef .tc main_arg2)) :=
  (binary_fix aligned 248 (by decide) V main_call7_v1 main_v141 main_call7_v2 _ ⟨by decide, rfl⟩ ⟨by decide, rfl⟩ ⟨by decide, rfl⟩ rfl (by decide) (by decide) (by decide)).trans (by rw [st_call7_v1 V, st_v141 V] <;> rfl)
theorem st_call7_v3 : after (ops (F := F)) V (Proc.devRef .tc main_call7_v3) = ReadP.val_main_call7_v3 (F := F) :=
  (unary_fix aligned 249 (by decide) V main_c_54 main_call7_v3 _ ⟨by decide, rfl⟩ ⟨by decide, rfl⟩ rfl (by decide) (by decide)).trans (by rw [st_c_54 V] <;> rfl)
theorem st_call7_v4 : after (ops (F := F)) V (Proc.devRef .tc main_call7_v4) = ReadP.val_main_call7_v4 (F := F) :=
  (unary_fix aligned 250 (by decide) V main_call7_v3 main_call7_v4 _ ⟨by decide, rfl⟩ ⟨by decide, rfl⟩ rfl (by decide) (by decide)).trans (by rw [st_call7_v3 V] <;> rfl)
theorem st_v154 : after (ops (F := F)) V (Proc.devRef .tc main_v154) = ReadP.val_main_v154 (F := F) (V (Proc.devRef .tc main_arg1)) (V (Proc.devRef .tc main_arg2)) :=
  (binary_fix aligned 251 (by decide) V main_call7_v4 main_call7_v2 main_v154 _ ⟨by decide, rfl⟩ ⟨by decide, rfl⟩ ⟨by decide, rfl⟩ rfl (by decide) (by decide) (by decide)).trans (by rw [st_call7_v4 V, st_call7_v2 V] <;> rfl)
theorem st_c_55 : after (ops (F := F)) V (Proc.devRef .tc main_c_55) = ReadP.val_main_c_55 (F := F) :=
  (nullary_fix aligned 252 (by decide) V main_c_55 _ ⟨by decide, rfl⟩ rfl (by decide)).trans rfl
theorem st_v155 : after (ops (F := F)) V (Proc.devRef .tc main_v155) = ReadP.val_main_v155 (F := F) :=
  (unary_fix aligned 253 (by decide) V main_c_55 main_v155 _ ⟨by decide, rfl⟩ ⟨by decide, rfl⟩ rfl (by decide) (by decide)).trans (by rw [st_c_55 V] <;> rfl)
theorem st_v156 : after (ops (F := F)) V (Proc.devRef .tc main_v156) = ReadP.val_main_v156 (F := F) :=
  (binary_fix aligned 254 (by decide) V main_v19 main_v155 main_v156 _ ⟨by decide, rfl⟩ ⟨by decide, rfl⟩ ⟨by decide, rfl⟩ rfl (by decide) (by decide) (by decide)).trans (by rw [st_v19 V, st_v155 V] <;> rfl)
theorem st_c_56 : after (ops (F := F)) V (Proc.devRef .tc main_c_56) = ReadP.val_main_c_56 (F := F) :=
  (nullary_fix aligned 255 (by decide) V main_c_56 _ ⟨by decide, rfl⟩ rfl (by decide)).trans rfl
theorem st_v157 : after (ops (F := F)) V (Proc.devRef .tc main_v157) = ReadP.val_main_v157 (F := F) :=
  (unary_fix aligned 256 (by decide) V main_c_56 main_v157 _ ⟨by decide, rfl⟩ ⟨by decide, rfl⟩ rfl (by decide) (by decide)).trans (by rw [st_c_56 V] <;> rfl)
theorem st_v158 : after (ops (F := F)) V (Proc.devRef .tc main_v158) = ReadP.val_main_v158 (F := F) :=
  (binary_fix aligned 257 (by decide) V main_v19 main_v157 main_v158 _ ⟨by decide, rfl⟩ ⟨by decide, rfl⟩ ⟨by decide, rfl⟩ rfl (by decide) (by decide) (by decide)).trans (by rw [st_v19 V, st_v157 V] <;> rfl)
theorem st_v159 : after (ops (F := F)) V (Proc.devRef .tc main_v159) = ReadP.val_main_v159 (F := F) :=
  (ternary_fix aligned 258 (by decide) V main_v156 main_v158 main_v19 main_v159 _ ⟨by decide, rfl⟩ ⟨by decide, rfl⟩ ⟨by decide, rfl⟩ ⟨by decide, rfl⟩ rfl (by decide) (by decide) (by decide) (by decide)).trans (by rw [st_v156 V, st_v158 V, st_v19 V] <;> rfl)
theorem st_c_57 : after (ops (F := F)) V (Proc.devRef .tc main_c_57) = ReadP.val_main_c_57 (F := F) :=
  (nullary_fix aligned 259 (by decide) V main_c_57 _ ⟨by decide, rfl⟩ rfl (by decide)).trans rfl
theorem st_v160 : after (ops (F := F)) V (Proc.devRef .tc main_v160) = ReadP.val_main_v160 (F := F) :=
  (unary_fix aligned 260 (by decide) V main_c_57 main_v160 _ ⟨by decide, rfl⟩ ⟨by decide, rfl⟩ rfl (by decide) (by decide)).trans (by rw [st_c_57 V] <;> rfl)
theorem st_v161 : after (ops (F := F)) V (Proc.devRef .tc main_v161) = ReadP.val_main_v161 (F := F) (V (Proc.devRef .tc main_arg1)) (V (Proc.devRef .tc main_arg2)) :=
  (binary_fix aligned 261 (by decide) V main_v153 main_v160 main_v161 _ ⟨by decide, rfl⟩ ⟨by decide, rfl⟩ ⟨by decide, rfl⟩ rfl (by decide) (by decide) (by decide)).trans (by rw [st_v153 V, st_v160 V] <;> rfl)
theorem st_c_58 : after (ops (F := F)) V (Proc.devRef .tc main_c_58) = ReadP.val_main_c_58 (F := F) :=
  (nullary_fix aligned 262 (by decide) V main_c_58 _ ⟨by decide, rfl⟩ rfl (by decide)).trans rfl
theorem st_v162 : after (ops (F := F)) V (Proc.devRef .tc main_v162) = ReadP.val_main_v162 (F := F) :=
  (unary_fix aligned 263 (by decide) V main_c_58 main_v162 _ ⟨by decide, rfl⟩ ⟨by decide, rfl⟩ rfl (by decide) (by decide)).trans (by rw [st_c_58 V] <;> rfl)
theorem st_v163 : after (ops (F := F)) V (Proc.devRef .tc main_v163) = ReadP.val_main_v163 (F := F) (V (Proc.devRef .tc main_arg1)) (V (Proc.devRef .tc main_arg2)) :=
  (binary_fix aligned 264 (by decide) V main_v153 main_v162 main_v163 _ ⟨by decide, rfl⟩ ⟨by decide, rfl⟩ ⟨by decide, rfl⟩ rfl (by decide) (by decide) (by decide)).trans (by rw [st_v153 V, st_v162 V] <;> rfl)
theorem st_v164 : after (ops (F := F)) V (Proc.devRef .tc main_v164) = ReadP.val_main_v164 (F := F) (V (Proc.devRef .tc main_arg1)) (V (Proc.devRef .tc main_arg2)) :=
  (ternary_fix aligned 265 (by decide) V main_v161 main_v163 main_v153 main_v164 _ ⟨by decide, rfl⟩ ⟨by decide, rfl⟩ ⟨by decide, rfl⟩ ⟨by decide, rfl⟩ rfl (by decide) (by decide) (by decide) (by decide)).trans (by rw [st_v161 V, st_v163 V, st_v153 V] <;> rfl)
theorem st_c_59 : after (ops (F := F)) V (Proc.devRef .tc main_c_59) = ReadP.val_main_c_59 (F := F) :=
  (nullary_fix aligned 266 (by decide) V main_c_59 _ ⟨by decide, rfl⟩ rfl (by decide)).trans rfl
theorem st_v165 : after (ops (F := F)) V (Proc.devRef .tc main_v165) = ReadP.val_main_v165 (F := F) :=
  (unary_fix aligned 267 (by decide) V main_c_59 main_v165 _ ⟨by decide, rfl⟩ ⟨by decide, rfl⟩ rfl (by decide) (by decide)).trans (by rw [st_c_59 V] <;> rfl)
theorem st_v166 : after (ops (F := F)) V (Proc.devRef .tc main_v166) = ReadP.val_main_v166 (F := F) (V (Proc.devRef .tc main_arg1)) (V (Proc.devRef .tc main_arg2)) :=
  (binary_fix aligned 268 (by decide) V main_v154 main_v165 main_v166 _ ⟨by decide, rfl⟩ ⟨by decide, rfl⟩ ⟨by decide, rfl⟩ rfl (by decide) (by decide) (by decide)).trans (by rw [st_v154 V, st_v165 V] <;> rfl)
theorem st_c_60 : after (ops (F := F)) V (Proc.devRef .tc main_c_60) = ReadP.val_main_c_60 (F := F) :=
  (nullary_fix aligned 269 (by decide) V main_c_60 _ ⟨by decide, rfl⟩ rfl (by decide)).trans rfl
theorem st_v167 : after (ops (F := F)) V (Proc.devRef .tc main_v167) = ReadP.val_main_v167 (F := F) :=
  (unary_fix aligned 270 (by decide) V main_c_60 main_v167 _ ⟨by decide, rfl⟩ ⟨by decide, rfl⟩ rfl (by decide) (by decide)).trans (by rw [st_c_60 V] <;> rfl)
theorem st_v168 : after (ops (F := F)) V (Proc.devRef .tc main_v168) = ReadP.val_main_v168 (F := F) (V (Proc.devRef .tc main_arg1)) (V (Proc.devRef .tc main_arg2)) :=
  (binary_fix aligned 271 (by decide) V main_v154 main_v167 main_v168 _ ⟨by decide, rfl⟩ ⟨by decide, rfl⟩ ⟨by decide, rfl⟩ rfl (by decide) (by decide) (by decide)).trans (by rw [st_v154 V, st_v167 V] <;> rfl)
theorem st_v169 : after (ops (F := F)) V (Proc.devRef .tc main_v169) = ReadP.val_main_v169 (F := F) (V (Proc.devRef .tc main_arg1)) (V (Proc.devRef .tc main_arg2)) :=
  (ternary_fix aligned 272 (by decide) V main_v166 main_v168 main_v154 main_v169 _ ⟨by decide, rfl⟩ ⟨by decide, rfl⟩ ⟨by decide, rfl⟩ ⟨by decide, rfl⟩ rfl (by decide) (by decide) (by decide) (by decide)).trans (by rw [st_v166 V, st_v168 V, st_v154 V] <;> rfl)
theorem st_v170 : after (ops (F := F)) V (Proc.devRef .tc main_v170) = ReadP.val_main_v170 (F := F) :=
  (unary_fix aligned 273 (by decide) V main_v159 main_v170 _ ⟨by decide, rfl⟩ ⟨by decide, rfl⟩ rfl (by decide) (by decide)).trans (by rw [st_v159 V] <;> rfl)
theorem st_v171 : after (ops (F := F)) V (Proc.devRef .tc main_v171) = ReadP.val_main_v171 (F := F) :=
  (unary_fix aligned 274 (by decide) V main_v170 main_v171 _ ⟨by decide, rfl⟩ ⟨by decide, rfl⟩ rfl (by decide) (by decide)).trans (by rw [st_v170 V] <;> rfl)
theorem st_v172 : after (ops (F := F)) V (Proc.devRef .tc main_v172) = ReadP.val_main_v172 (F := F) (V (Proc.devRef .tc main_arg1)) (V (Proc.devRef .tc main_arg2)) :=
  (unary_fix aligned 275 (by decide) V main_v164 main_v172 _ ⟨by decide, rfl⟩ ⟨by decide, rfl⟩ rfl (by decide) (by decide)).trans (by rw [st_v164 V] <;> rfl)
theorem st_v173 : after (ops (F := F)) V (Proc.devRef .tc main_v173) = ReadP.val_main_v173 (F := F) (V (Proc.devRef .tc main_arg1)) (V (Proc.devRef .tc main_arg2)) :=
  (unary_fix aligned 276 (by decide) V main_v169 main_v173 _ ⟨by decide, rfl⟩ ⟨by decide, rfl⟩ rfl (by decide) (by decide)).trans (by rw [st_v169 V] <;> rfl)
theorem st_v174 : after (ops (F := F)) V (Proc.devRef .tc main_v174) = ReadP.val_main_v174 (F := F) (V (Proc.devRef .tc main_arg1)) (V (Proc.devRef .tc main_arg2)) :=
  (nary_fix aligned 277 (by decide) V ![main_v171, main_v172, main_v173] main_v174 (fun u => concatenate S64x1024x3 2 [⟨S64x1024x1, u 0⟩, ⟨S64x1024x1, u 1⟩, ⟨S64x1024x1, u 2⟩] concatenates_S64x1024x1_S64x1024x1_S64x1024x1_S64x1024x3_d2) (by decide) ⟨by decide, rfl⟩ rfl (by decide) (by decide)).trans (by
    show concatenate S64x1024x3 2 [⟨S64x1024x1, after (ops (F := F)) V (Proc.devRef .tc main_v171)⟩, ⟨S64x1024x1, after (ops (F := F)) V (Proc.devRef .tc main_v172)⟩, ⟨S64x1024x1, after (ops (F := F)) V (Proc.devRef .tc main_v173)⟩] _ = _
    rw [st_v171 V, st_v172 V, st_v173 V] <;> rfl)
theorem st_v175 : after (ops (F := F)) V (Proc.devRef .tc main_v175) = ReadP.val_main_v175 (F := F) (V (Proc.devRef .tc main_arg0)) (V (Proc.devRef .tc main_arg1)) (V (Proc.devRef .tc main_arg2)) :=
  (binary_fix aligned 278 (by decide) V main_v17 main_v174 main_v175 ((fun x i => Host.gather gather_S64x64x64x256_S64x1024x3_S64x1024x256_2_012_n_n_012_2_111256 x i) : (⟨S64x64x64x256, .f32⟩ : BufTy).Contents (Elt F) → (⟨S64x1024x3, .i32⟩ : BufTy).Contents (Elt F) → (⟨S64x1024x256, .f32⟩ : BufTy).Contents (Elt F)) ⟨by decide, rfl⟩ ⟨by decide, rfl⟩ ⟨by decide, rfl⟩ rfl (by decide) (by decide) (by decide)).trans (by rw [st_v17 V, st_v174 V] <;> rfl)
theorem st_v176 : after (ops (F := F)) V (Proc.devRef .tc main_v176) = ReadP.val_main_v176 (F := F) (V (Proc.devRef .tc main_arg1)) (V (Proc.devRef .tc main_arg2)) :=
  (unary_fix aligned 279 (by decide) V main_v152 main_v176 _ ⟨by decide, rfl⟩ ⟨by decide, rfl⟩ rfl (by decide) (by decide)).trans (by rw [st_v152 V] <;> rfl)
theorem st_v177 : after (ops (F := F)) V (Proc.devRef .tc main_v177) = ReadP.val_main_v177 (F := F) (V (Proc.devRef .tc main_arg1)) (V (Proc.devRef .tc main_arg2)) :=
  (unary_fix aligned 280 (by decide) V main_v176 main_v177 _ ⟨by decide, rfl⟩ ⟨by decide, rfl⟩ rfl (by decide) (by decide)).trans (by rw [st_v176 V] <;> rfl)
theorem st_v178 : after (ops (F := F)) V (Proc.devRef .tc main_v178) = ReadP.val_main_v178 (F := F) (V (Proc.devRef .tc main_arg1)) (V (Proc.devRef .tc main_arg2)) :=
  (unary_fix aligned 281 (by decide) V main_v177 main_v178 _ ⟨by decide, rfl⟩ ⟨by decide, rfl⟩ rfl (by decide) (by decide)).trans (by rw [st_v177 V] <;> rfl)
theorem st_v179 : after (ops (F := F)) V (Proc.devRef .tc main_v179) = ReadP.val_main_v179 (F := F) (V (Proc.devRef .tc main_arg0)) (V (Proc.devRef .tc main_arg1)) (V (Proc.devRef .tc main_arg2)) :=
  (binary_fix aligned 282 (by decide) V main_v175 main_v178 main_v179 _ ⟨by decide, rfl⟩ ⟨by decide, rfl⟩ ⟨by decide, rfl⟩ rfl (by decide) (by decide) (by decide)).trans (by rw [st_v175 V, st_v178 V] <;> rfl)
theorem st_v180 : after (ops (F := F)) V (Proc.devRef .tc main_v180) = ReadP.val_main_v180 (F := F) (V (Proc.devRef .tc main_arg1)) (V (Proc.devRef .tc main_arg2)) :=
  (binary_fix aligned 283 (by decide) V main_v12 main_v14 main_v180 _ ⟨by decide, rfl⟩ ⟨by decide, rfl⟩ ⟨by decide, rfl⟩ rfl (by decide) (by decide) (by decide)).trans (by rw [st_v12 V, st_v14 V] <;> rfl)
theorem st_v181 : after (ops (F := F)) V (Proc.devRef .tc main_v181) = ReadP.val_main_v181 (F := F) (V (Proc.devRef .tc main_arg1)) (V (Proc.devRef .tc main_arg2)) :=
  (unary_fix aligned 284 (by decide) V main_v180 main_v181 _ ⟨by decide, rfl⟩ ⟨by decide, rfl⟩ rfl (by decide) (by decide)).trans (by rw [st_v180 V] <;> rfl)
theorem st_v182 : after (ops (F := F)) V (Proc.devRef .tc main_v182) = ReadP.val_main_v182 (F := F) (V (Proc.devRef .tc main_arg1)) (V (Proc.devRef .tc main_arg2)) :=
  (binary_fix aligned 285 (by decide) V main_v12 main_v10 main_v182 _ ⟨by decide, rfl⟩ ⟨by decide, rfl⟩ ⟨by decide, rfl⟩ rfl (by decide) (by decide) (by decide)).trans (by rw [st_v12 V, st_v10 V] <;> rfl)
theorem st_v183 : after (ops (F := F)) V (Proc.devRef .tc main_v183) = ReadP.val_main_v183 (F := F) (V (Proc.devRef .tc main_arg1)) (V (Proc.devRef .tc main_arg2)) :=
  (unary_fix aligned 286 (by decide) V main_v182 main_v183 _ ⟨by decide, rfl⟩ ⟨by decide, rfl⟩ rfl (by decide) (by decide)).trans (by rw [st_v182 V] <;> rfl)
theorem st_v184 : after (ops (F := F)) V (Proc.devRef .tc main_v184) = ReadP.val_main_v184 (F := F) (V (Proc.devRef .tc main_arg1)) (V (Proc.devRef .tc main_arg2)) :=
  (binary_fix aligned 287 (by decide) V main_v9 main_v14 main_v184 _ ⟨by decide, rfl⟩ ⟨by decide, rfl⟩ ⟨by decide, rfl⟩ rfl (by decide) (by decide) (by decide)).trans (by rw [st_v9 V, st_v14 V] <;> rfl)
theorem st_v185 : after (ops (F := F)) V (Proc.devRef .tc main_v185) = ReadP.val_main_v185 (F := F) (V (Proc.devRef .tc main_arg1)) (V (Proc.devRef .tc main_arg2)) :=
  (unary_fix aligned 288 (by decide) V main_v184 main_v185 _ ⟨by decide, rfl⟩ ⟨by decide, rfl⟩ rfl (by decide) (by decide)).trans (by rw [st_v184 V] <;> rfl)
theorem st_v186 : after (ops (F := F)) V (Proc.devRef .tc main_v186) = ReadP.val_main_v186 (F := F) (V (Proc.devRef .tc main_arg1)) (V (Proc.devRef .tc main_arg2)) :=
  (binary_fix aligned 289 (by decide) V main_v9 main_v10 main_v186 _ ⟨by decide, rfl⟩ ⟨by decide, rfl⟩ ⟨by decide, rfl⟩ rfl (by decide) (by decide) (by decide)).trans (by rw [st_v9 V, st_v10 V] <;> rfl)
theorem st_v187 : after (ops (F := F)) V (Proc.devRef .tc main_v187) = ReadP.val_main_v187 (F := F) (V (Proc.devRef .tc main_arg1)) (V (Proc.devRef .tc main_arg2)) :=
  (unary_fix aligned 290 (by decide) V main_v186 main_v187 _ ⟨by decide, rfl⟩ ⟨by decide, rfl⟩ rfl (by decide) (by decide)).trans (by rw [st_v186 V] <;> rfl)
theorem st_v188 : after (ops (F := F)) V (Proc.devRef .tc main_v188) = ReadP.val_main_v188 (F := F) (V (Proc.devRef .tc main_arg1)) (V (Proc.devRef .tc main_arg2)) :=
  (unary_fix aligned 291 (by decide) V main_v181 main_v188 _ ⟨by decide, rfl⟩ ⟨by decide, rfl⟩ rfl (by decide) (by decide)).trans (by rw [st_v181 V] <;> rfl)
theorem st_v189 : after (ops (F := F)) V (Proc.devRef .tc main_v189) = ReadP.val_main_v189 (F := F) (V (Proc.devRef .tc main_arg0)) (V (Proc.devRef .tc main_arg1)) (V (Proc.devRef .tc main_arg2)) :=
  (binary_fix aligned 292 (by decide) V main_v57 main_v188 main_v189 _ ⟨by decide, rfl⟩ ⟨by decide, rfl⟩ ⟨by decide, rfl⟩ rfl (by decide) (by decide) (by decide)).trans (by rw [st_v57 V, st_v188 V] <;> rfl)
theorem st_v190 : after (ops (F := F)) V (Proc.devRef .tc main_v190) = ReadP.val_main_v190 (F := F) (V (Proc.devRef .tc main_arg1)) (V (Proc.devRef .tc main_arg2)) :=
  (unary_fix aligned 293 (by decide) V main_v183 main_v190 _ ⟨by decide, rfl⟩ ⟨by decide, rfl⟩ rfl (by decide) (by decide)).trans (by rw [st_v183 V] <;> rfl)
theorem st_v191 : after (ops (F := F)) V (Proc.devRef .tc main_v191) = ReadP.val_main_v191 (F := F) (V (Proc.devRef .tc main_arg0)) (V (Proc.devRef .tc main_arg1)) (V (Proc.devRef .tc main_arg2)) :=
  (binary_fix aligned 294 (by decide) V main_v97 main_v190 main_v191 _ ⟨by decide, rfl⟩ ⟨by decide, rfl⟩ ⟨by decide, rfl⟩ rfl (by decide) (by decide) (by decide)).trans (by rw [st_v97 V, st_v190 V] <;> rfl)
theorem st_v192 : after (ops (F := F)) V (Proc.devRef .tc main_v192) = ReadP.val_main_v192 (F := F) (V (Proc.devRef .tc main_arg0)) (V (Proc.devRef .tc main_arg1)) (V (Proc.devRef .tc main_arg2)) :=
  (binary_fix aligned 295 (by decide) V main_v189 main_v191 main_v192 _ ⟨by decide, rfl⟩ ⟨by decide, rfl⟩ ⟨by decide, rfl⟩ rfl (by decide) (by decide) (by decide)).trans (by rw [st_v189 V, st_v191 V] <;> rfl)
theorem st_v193 : after (ops (F := F)) V (Proc.devRef .tc main_v193) = ReadP.val_main_v193 (F := F) (V (Proc.devRef .tc main_arg1)) (V (Proc.devRef .tc main_arg2)) :=
  (unary_fix aligned 296 (by decide) V main_v185 main_v193 _ ⟨by decide, rfl⟩ ⟨by decide, rfl⟩ rfl (by decide) (by decide)).trans (by rw [st_v185 V] <;> rfl)
theorem st_v194 : after (ops (F := F)) V (Proc.devRef .tc main_v194) = ReadP.val_main_v194 (F := F) (V (Proc.devRef .tc main_arg0)) (V (Proc.devRef .tc main_arg1)) (V (Proc.devRef .tc main_arg2)) :=
  (binary_fix aligned 297 (by decide) V main_v137 main_v193 main_v194 _ ⟨by decide, rfl⟩ ⟨by decide, rfl⟩ ⟨by decide, rfl⟩ rfl (by decide) (by decide) (by decide)).trans (by rw [st_v137 V, st_v193 V] <;> rfl)
theorem st_v195 : after (ops (F := F)) V (Proc.devRef .tc main_v195) = ReadP.val_main_v195 (F := F) (V (Proc.devRef .tc main_arg0)) (V (Proc.devRef .tc main_arg1)) (V (Proc.devRef .tc main_arg2)) :=
  (binary_fix aligned 298 (by decide) V main_v192 main_v194 main_v195 _ ⟨by decide, rfl⟩ ⟨by decide, rfl⟩ ⟨by decide, rfl⟩ rfl (by decide) (by decide) (by decide)).trans (by rw [st_v192 V, st_v194 V] <;> rfl)
theorem st_v196 : after (ops (F := F)) V (Proc.devRef .tc main_v196) = ReadP.val_main_v196 (F := F) (V (Proc.devRef .tc main_arg1)) (V (Proc.devRef .tc main_arg2)) :=
  (unary_fix aligned 299 (by decide) V main_v187 main_v196 _ ⟨by decide, rfl⟩ ⟨by decide, rfl⟩ rfl (by decide) (by decide)).trans (by rw [st_v187 V] <;> rfl)
theorem st_v197 : after (ops (F := F)) V (Proc.devRef .tc main_v197) = ReadP.val_main_v197 (F := F) (V (Proc.devRef .tc main_arg0)) (V (Proc.devRef .tc main_arg1)) (V (Proc.devRef .tc main_arg2)) :=
  (binary_fix aligned 300 (by decide) V main_v179 main_v196 main_v197 _ ⟨by decide, rfl⟩ ⟨by decide, rfl⟩ ⟨by decide, rfl⟩ rfl (by decide) (by decide) (by decide)).trans (by rw [st_v179 V, st_v196 V] <;> rfl)
theorem st_v198 : after (ops (F := F)) V (Proc.devRef .tc main_v198) = ReadP.val_main_v198 (F := F) (V (Proc.devRef .tc main_arg0)) (V (Proc.devRef .tc main_arg1)) (V (Proc.devRef .tc main_arg2)) :=
  (binary_fix aligned 301 (by decide) V main_v195 main_v197 main_v198 _ ⟨by decide, rfl⟩ ⟨by decide, rfl⟩ ⟨by decide, rfl⟩ rfl (by decide) (by decide) (by decide)).trans (by rw [st_v195 V, st_v197 V] <;> rfl)

end Cert.ReferenceIdeal.RefValue

end
-- ==== Proof.RefRun.lean ====
/-
  The reference's run. Every execution of the reference ends, with each buffer holding the contents the whole line of
  operations leaves in it: so its result array ends holding the last stage's value of the three argument arrays, which
  is the specification's, and the argument arrays end unchanged. The last statement keeps only the unchanged arguments,
  which holds whatever the arguments contain.
-/
import proofs.«113401_j14955076124692_1_alg».proof.Proof.RefG
import proofs.«113401_j14955076124692_1_alg».proof.Proof.RefSt2
import proofs.«113401_j14955076124692_1_alg».proof.Proof.Gen.Pre_finite_inputs
import proofs.«113401_j14955076124692_1_alg».proof.Defs

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

/-- On every device, for any float values, from any memory with zero counters: every weakly fair execution of the
    reference terminates with the result array at the last stage's value of the arguments and the arguments unchanged. -/
theorem run_stages {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v198) = Cert.ReferenceIdeal.ReadP.val_main_v198 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v198).trans (st_v198 (launchContents m c)),
      (h c main_arg0).trans (st_arg0 (launchContents m c)),
      (h c main_arg1).trans (st_arg1 (launchContents m c)),
      (h c main_arg2).trans (st_arg2 (launchContents m c))⟩)
    (run_seq scopedRefs_eq scopedSems_eq defs main (fun _ => ops) main_eq (fun _ => ops_sub) m ρ)

/-- From any memory, the reference ends with the specification of its arguments in its result and the arguments
    unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v198) = Cert.Bilin.GA (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono
    (fun _ h c => ⟨(h c).1.trans (ref_is_G _ _ _), (h c).2⟩)
    (run_stages (F := Ideal) m' ρ')

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (run_stages (F := Ideal) m ρ)

end Cert.ReferenceIdeal.RefValue

end
-- ==== Proof.lean ====
/-
  Bilinear sampling by a one-hot matrix product against bilinear sampling by four gathers.

  The kernel program computes, per batch entry n and tile of 256 sample points, a [256, 4096] matrix whose row p holds
  the four corner weights of point p (already multiplied by the in-range mask) at the corners' flat positions
  64 * row + column, and multiplies it on the matrix unit with the [256, 4096] block of the feature map; the reference
  gathers the four corner features, masks and weights them, and adds them up. At the exact instance both results
  are  sum over the four corners of  feature(clipped cell) * mask * weight  (Spec.lean): the reference term by term
  (RefG*.lean), the kernel through the law of the one-hot rows (Law.lean, Bridge.lean) once its host prefix
  (KHost*.lean), its body (Payload.lean) and its blocks (Value.lean) are read at an index. The law adds corners that
  share a clipped cell before multiplying, which is sound for real numbers only: this is where the precondition
  (every input finite, PreReal.lean) is used. The frames of the two kernel programs are FrameI.lean and FrameB.lean;
  the reference's frame is its run with the result dropped.
-/
import proofs.«113401_j14955076124692_1_alg».proof.Defs
import proofs.«113401_j14955076124692_1_alg».proof.Proof.Gen.Kernel
import proofs.«113401_j14955076124692_1_alg».proof.Proof.Gen.KernelIdeal
import proofs.«113401_j14955076124692_1_alg».proof.Proof.Gen.ReferenceIdeal
import proofs.«113401_j14955076124692_1_alg».proof.Proof.Gen.Pre_finite_inputs
import proofs.«113401_j14955076124692_1_alg».proof.Proof.FrameB
import proofs.«113401_j14955076124692_1_alg».proof.Proof.FrameI
import proofs.«113401_j14955076124692_1_alg».proof.Proof.Bridge
import proofs.«113401_j14955076124692_1_alg».proof.Proof.PreReal
import proofs.«113401_j14955076124692_1_alg».proof.Proof.KHost1
import proofs.«113401_j14955076124692_1_alg».proof.Proof.KHost2
import proofs.«113401_j14955076124692_1_alg».proof.Proof.KHost3
import proofs.«113401_j14955076124692_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m g _ => Cert.Kernel.Fr.frame m g

/-- So does the idealized kernel program. -/
theorem frame_ki : Cert.frame_KernelIdeal := fun m g _ => Cert.KernelIdeal.Fr.frame m g

/-- The two idealized programs, run from memories that agree on the arguments, both end with the specification's
    array of the arguments: the kernel by its run read as the one-hot contraction, which is the specification for real
    arguments; the reference by its run read term by term. -/
theorem algebraic : Cert.algebraic_KernelIdeal_ReferenceIdeal := by
  intro m ρ m' ρ' hpre hagree
  refine ⟨fun c => Cert.Bilin.GA (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r h c => ?_) (Cert.KernelIdeal.Val.run m ρ)
    obtain ⟨hX, hP, hO⟩ := Cert.Bilin.pre_real _ _ _ (hpre c)
    exact ⟨(h c).1.trans (Cert.KernelIdeal.Val.GK_is_G _ _ _ _ _ _
      (Cert.KernelIdeal.KHost.v113_at m c) (Cert.KernelIdeal.KHost.v118_at m c) (Cert.KernelIdeal.KHost.v119_at m c)
      hX hP hO), (h c).2⟩
  · refine (θ_run (Cert.ReferenceIdeal.defs (F := Ideal)) _ _).mono (fun r h c => ?_)
      (Cert.ReferenceIdeal.RefValue.ref_run m' ρ')
    obtain ⟨h1, h2⟩ := h c
    rw [(hagree c).1, (hagree c).2.1, (hagree c).2.2] at h1
    exact ⟨h1, h2⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
